-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg13 : FVec F S32x32 .f32) (main_arg14 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg9 : FVec F S64x32 .f32) (main_arg10 : FVec F S32x32 .f32) (main_arg11 : FVec F S32 .f32) (main_arg12 : FVec F S64x32 .f32) (main_arg13 : FVec F S32x32 .f32) (main_arg14 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_v48 main_v49 main_v50

def fn_part1 {F : FTy → Type} [FloatOps F] (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S64x32 .f32) (main_arg13 : FVec F S32x32 .f32) (main_arg14 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1600000 32) (main_arg2 : IVec S2x1600000 32) (main_arg3 : FVec F S64x32 .f32) (main_arg4 : FVec F S64x32 .f32) (main_arg5 : FVec F S32 .f32) (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S64x32 .f32) (main_arg13 : FVec F S32x32 .f32) (main_arg14 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩

abbrev nBuf : Space → Nat
  | .hbm => 156
  | .vmem => 40
  | .smem => 0
  | _ => 0

abbrev hbmTy0_0 (i : Nat) : BufTy := match i % 128 with
  | 0 => ⟨S100000x64, .f32⟩
  | 1 => ⟨S2x1600000, .i32⟩
  | 2 => ⟨S2x1600000, .i32⟩
  | 3 => ⟨S64x32, .f32⟩
  | 4 => ⟨S64x32, .f32⟩
  | 5 => ⟨S32, .f32⟩
  | 6 => ⟨S64x32, .f32⟩
  | 7 => ⟨S64x32, .f32⟩
  | 8 => ⟨S32, .f32⟩
  | 9 => ⟨S64x32, .f32⟩
  | 10 => ⟨S32x32, .f32⟩
  | 11 => ⟨S32, .f32⟩
  | 12 => ⟨S64x32, .f32⟩
  | 13 => ⟨S32x32, .f32⟩
  | 14 => ⟨S32, .f32⟩
  | 15 => ⟨S1x1600000, .i32⟩
  | 16 => ⟨S1600000, .i32⟩
  | 17 => ⟨S1x1600000, .i32⟩
  | 18 => ⟨S1600000, .i32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x1, .f32⟩
  | 61 => ⟨S100000x64, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S100000x1, .f32⟩
  | 77 => ⟨S100000x64, .f32⟩
  | 78 => ⟨S100000x64, .f32⟩
  | 79 => ⟨S1x32, .f32⟩
  | 80 => ⟨S1x32, .f32⟩
  | 81 => ⟨S100000x32, .f32⟩
  | 82 => ⟨S100000x32, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x32, .f32⟩
  | 92 => ⟨S_, .f32⟩
  | 93 => ⟨S100000x32, .f32⟩
  | 94 => ⟨S1600000x1, .i32⟩
  | 95 => ⟨S100000x32, .f32⟩
  | 96 => ⟨S100000x1, .f32⟩
  | 97 => ⟨S100000x32, .f32⟩
  | 98 => ⟨S100000x32, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S_, .f32⟩
  | 109 => ⟨S100000x32, .f32⟩
  | 110 => ⟨S1600000x1, .i32⟩
  | 111 => ⟨S100000x32, .f32⟩
  | 112 => ⟨S100000x1, .f32⟩
  | 113 => ⟨S100000x32, .f32⟩
  | 114 => ⟨S100000x32, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x32, .f32⟩
  | 124 => ⟨S_, .f32⟩
  | 125 => ⟨S100000x32, .f32⟩
  | 126 => ⟨S1600000x1, .i32⟩
  | 127 => ⟨S100000x32, .f32⟩
  | _ => ⟨S100000x64, .f32⟩

abbrev hbmTy0_1 (i : Nat) : BufTy := match i % 128 with
  | 0 => ⟨S100000x1, .f32⟩
  | 1 => ⟨S100000x32, .f32⟩
  | 2 => ⟨S100000x32, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x32, .f32⟩
  | 12 => ⟨S_, .f32⟩
  | 13 => ⟨S100000x32, .f32⟩
  | 14 => ⟨S1600000x1, .i32⟩
  | 15 => ⟨S100000x32, .f32⟩
  | 16 => ⟨S100000x1, .f32⟩
  | 17 => ⟨S100000x32, .f32⟩
  | 18 => ⟨S100000x32, .f32⟩
  | 19 => ⟨S32x32, .f32⟩
  | 20 => ⟨S32x32, .f32⟩
  | 21 => ⟨S32x32, .f32⟩
  | 22 => ⟨S32x32, .f32⟩
  | 23 => ⟨S1x32, .f32⟩
  | 24 => ⟨S1x32, .f32⟩
  | 25 => ⟨S100000x32, .f32⟩
  | 26 => ⟨S100000x32, .f32⟩
  | 27 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x32, .f32⟩
  | .local _ .vmem, ⟨7, _⟩ => ⟨S64x32, .f32⟩
  | .local _ .vmem, ⟨8, _⟩ => ⟨S64x32, .f32⟩
  | .local _ .vmem, ⟨9, _⟩ => ⟨S64x32, .f32⟩
  | .local _ .vmem, ⟨10, _⟩ => ⟨S1x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S32x32, .f32⟩
  | .local _ .vmem, ⟨29, _⟩ => ⟨S32x32, .f32⟩
  | .local _ .vmem, ⟨30, _⟩ => ⟨S32x32, .f32⟩
  | .local _ .vmem, ⟨31, _⟩ => ⟨S32x32, .f32⟩
  | .local _ .vmem, ⟨32, _⟩ => ⟨S32x32, .f32⟩
  | .local _ .vmem, ⟨33, _⟩ => ⟨S32x32, .f32⟩
  | .local _ .vmem, ⟨34, _⟩ => ⟨S1x32, .f32⟩
  | .local _ .vmem, ⟨35, _⟩ => ⟨S1x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_c_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_18 : Ref sig .tc := ⟨.hbm, 115, rfl⟩
abbrev main_v79 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_21 : Ref sig .tc := ⟨.hbm, 131, rfl⟩
abbrev main_v92 : Ref sig .tc := ⟨.hbm, 132, rfl⟩
abbrev main_v93 : Ref sig .tc := ⟨.hbm, 133, rfl⟩
abbrev main_c_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111_0 : Ref sig .tc := ⟨.hbm, 153, rfl⟩
abbrev main_v111_1 : Ref sig .tc := ⟨.hbm, 154, rfl⟩
abbrev main_v112 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem14_1 : DmaSem sig := 37
abbrev cc1_sem15_0 : DmaSem sig := 38
abbrev cc1_sem15_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x32 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S5000x32 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S64x32_S32x32_0_0 : S64x32.Slices ![0, 0] S32x32
  slices_S64x32_S32x32_32_0 : S64x32.Slices ![32, 0] S32x32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  concatenates_S100000x32_S100000x32_S100000x64_d1 : Shape.Concatenates [S100000x32, S100000x32] S100000x64 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x32.size a ≤ S100000x32.size a
  hwx0_10 : ∀ i : grid0.Coords, EltTy.bits .f32 = 32 ∨ (Rect.block (s := S100000x32) S5000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x32.size a ≤ S32x32.size a
  hwx1_8 : ∀ i : grid1.Coords, EltTy.bits .f32 = 32 ∨ (Rect.block (s := S32x32) S32x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x32.size a ≤ S32x32.size a
  hwx1_10 : ∀ i : grid1.Coords, EltTy.bits .f32 = 32 ∨ (Rect.block (s := S32x32) S32x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x32.size a ≤ S32x32.size a
  hwx1_11 : ∀ i : grid1.Coords, EltTy.bits .f32 = 32 ∨ (Rect.block (s := S32x32) S32x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x32.size a ≤ S1x32.size a
  hwx1_12 : ∀ i : grid1.Coords, EltTy.bits .f32 = 32 ∨ (Rect.block (s := S1x32) S1x32.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x32.size a ≤ S1x32.size a
  hwx1_13 : ∀ i : grid1.Coords, EltTy.bits .f32 = 32 ∨ (Rect.block (s := S1x32) S1x32.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x32.size a ≤ S100000x32.size a
  hwx1_14 : ∀ i : grid1.Coords, EltTy.bits .f32 = 32 ∨ (Rect.block (s := S100000x32) S5000x32.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x32.size a ≤ S100000x32.size a
  hwx1_15 : ∀ i : grid1.Coords, EltTy.bits .f32 = 32 ∨ (Rect.block (s := S100000x32) S5000x32.size (cc1_transform_15 i) (hinb1_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52_0) S5000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52_1) S5000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v52_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52_1) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v78) S5000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v91) S5000x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v104) S5000x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v105) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v106) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S32x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v107) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v108) S32x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S32x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v109) S1x32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v110) S1x32.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v111_0) S5000x32.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v111_1) S5000x32.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 225
  | .vmem => 0
  | .smem => 0
  | _ => 0

abbrev hbmTy0_0 (i : Nat) : BufTy := match i % 128 with
  | 0 => ⟨S100000x64, .f32⟩
  | 1 => ⟨S2x1600000, .i32⟩
  | 2 => ⟨S2x1600000, .i32⟩
  | 3 => ⟨S64x32, .f32⟩
  | 4 => ⟨S64x32, .f32⟩
  | 5 => ⟨S32, .f32⟩
  | 6 => ⟨S64x32, .f32⟩
  | 7 => ⟨S64x32, .f32⟩
  | 8 => ⟨S32, .f32⟩
  | 9 => ⟨S64x32, .f32⟩
  | 10 => ⟨S32x32, .f32⟩
  | 11 => ⟨S32, .f32⟩
  | 12 => ⟨S64x32, .f32⟩
  | 13 => ⟨S32x32, .f32⟩
  | 14 => ⟨S32, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S1x1600000, .i32⟩
  | 45 => ⟨S1600000, .i32⟩
  | 46 => ⟨S1x1600000, .i32⟩
  | 47 => ⟨S1600000, .i32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S_, .f32⟩
  | 62 => ⟨S1600000, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x32, .f32⟩
  | 74 => ⟨S100000x32, .f32⟩
  | 75 => ⟨S100000x32, .f32⟩
  | 76 => ⟨S1x32, .f32⟩
  | 77 => ⟨S100000x32, .f32⟩
  | 78 => ⟨S100000x32, .f32⟩
  | 79 => ⟨S100000x32, .f32⟩
  | 80 => ⟨S100000x32, .f32⟩
  | 81 => ⟨S100000x32, .f32⟩
  | 82 => ⟨S1x32, .f32⟩
  | 83 => ⟨S100000x32, .f32⟩
  | 84 => ⟨S100000x32, .f32⟩
  | 85 => ⟨S100000x64, .f32⟩
  | 86 => ⟨S_, .f32⟩
  | 87 => ⟨S100000x64, .f32⟩
  | 88 => ⟨S100000x64, .f32⟩
  | 89 => ⟨S100000x32, .f32⟩
  | 90 => ⟨S100000x32, .f32⟩
  | 91 => ⟨S1x1600000, .i32⟩
  | 92 => ⟨S1600000, .i32⟩
  | 93 => ⟨S1x1600000, .i32⟩
  | 94 => ⟨S1600000, .i32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x32, .f32⟩
  | 104 => ⟨S_, .f32⟩
  | 105 => ⟨S100000x32, .f32⟩
  | 106 => ⟨S1600000x1, .i32⟩
  | 107 => ⟨S100000x32, .f32⟩
  | 108 => ⟨S_, .f32⟩
  | 109 => ⟨S1600000, .f32⟩
  | 110 => ⟨S_, .f32⟩
  | 111 => ⟨S100000, .f32⟩
  | 112 => ⟨S1600000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x32, .f32⟩
  | 119 => ⟨S100000x32, .f32⟩
  | 120 => ⟨S1x1600000, .i32⟩
  | 121 => ⟨S1600000, .i32⟩
  | 122 => ⟨S1x1600000, .i32⟩
  | 123 => ⟨S1600000, .i32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x32, .f32⟩
  | 5 => ⟨S_, .f32⟩
  | 6 => ⟨S100000x32, .f32⟩
  | 7 => ⟨S1600000x1, .i32⟩
  | 8 => ⟨S100000x32, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x32, .f32⟩
  | 20 => ⟨S100000x32, .f32⟩
  | 21 => ⟨S100000x64, .f32⟩
  | 22 => ⟨S100000x32, .f32⟩
  | 23 => ⟨S100000x32, .f32⟩
  | 24 => ⟨S100000x32, .f32⟩
  | 25 => ⟨S1x32, .f32⟩
  | 26 => ⟨S100000x32, .f32⟩
  | 27 => ⟨S100000x32, .f32⟩
  | 28 => ⟨S1x1600000, .i32⟩
  | 29 => ⟨S1600000, .i32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x32, .f32⟩
  | 41 => ⟨S_, .f32⟩
  | 42 => ⟨S100000x32, .f32⟩
  | 43 => ⟨S1600000x1, .i32⟩
  | 44 => ⟨S100000x32, .f32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x32, .f32⟩
  | 56 => ⟨S100000x32, .f32⟩
  | 57 => ⟨S1x1600000, .i32⟩
  | 58 => ⟨S1600000, .i32⟩
  | 59 => ⟨S1x1600000, .i32⟩
  | 60 => ⟨S1600000, .i32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x32, .f32⟩
  | 70 => ⟨S_, .f32⟩
  | 71 => ⟨S100000x32, .f32⟩
  | 72 => ⟨S1600000x1, .i32⟩
  | 73 => ⟨S100000x32, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x32, .f32⟩
  | 85 => ⟨S100000x32, .f32⟩
  | 86 => ⟨S100000x64, .f32⟩
  | 87 => ⟨S100000x32, .f32⟩
  | 88 => ⟨S100000x32, .f32⟩
  | 89 => ⟨S100000x32, .f32⟩
  | 90 => ⟨S1x32, .f32⟩
  | 91 => ⟨S100000x32, .f32⟩
  | 92 => ⟨S100000x32, .f32⟩
  | 93 => ⟨S100000x64, .f32⟩
  | 94 => ⟨S_, .f32⟩
  | 95 => ⟨S100000x64, .f32⟩
  | 96 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call0_cst : Ref sig .tc := ⟨.hbm, 86, rfl⟩
abbrev main_call0_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_10 : Ref sig .tc := ⟨.hbm, 95, rfl⟩
abbrev main_v66 : Ref sig .tc := ⟨.hbm, 96, rfl⟩
abbrev main_v67 : Ref sig .tc := ⟨.hbm, 97, rfl⟩
abbrev main_c_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_16 : Ref sig .tc := ⟨.hbm, 124, rfl⟩
abbrev main_v89 : Ref sig .tc := ⟨.hbm, 125, rfl⟩
abbrev main_v90 : Ref sig .tc := ⟨.hbm, 126, rfl⟩
abbrev main_c_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_19 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_21 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_22 : Ref sig .tc := ⟨.hbm, 160, rfl⟩
abbrev main_v119 : Ref sig .tc := ⟨.hbm, 161, rfl⟩
abbrev main_v120 : Ref sig .tc := ⟨.hbm, 162, rfl⟩
abbrev main_c_23 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_24 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_25 : Ref sig .tc := ⟨.hbm, 173, rfl⟩
abbrev main_v129 : Ref sig .tc := ⟨.hbm, 174, rfl⟩
abbrev main_cst_26 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_27 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_28 : Ref sig .tc := ⟨.hbm, 189, rfl⟩
abbrev main_v142 : Ref sig .tc := ⟨.hbm, 190, rfl⟩
abbrev main_v143 : Ref sig .tc := ⟨.hbm, 191, rfl⟩
abbrev main_c_29 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_30 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_31 : Ref sig .tc := ⟨.hbm, 202, rfl⟩
abbrev main_v152 : Ref sig .tc := ⟨.hbm, 203, rfl⟩
abbrev main_cst_32 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_33 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_call1_cst : Ref sig .tc := ⟨.hbm, 222, rfl⟩
abbrev main_call1_v0 : Ref sig .tc := ⟨.hbm, 223, rfl⟩
abbrev main_v169 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  slices_S100000x64_S100000x32_0_0 : S100000x64.Slices ![0, 0] S100000x32
  slices_S100000x64_S100000x32_0_32 : S100000x64.Slices ![0, 32] S100000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KRun.lean ====
/-
  The idealized kernel's whole run, with the result buffer read.

  @main is five segments: host operations, the first convolution's row-blocked call, host operations, the second
  convolution's call, and one last host operation that joins the two halves of the result.  The generated frame
  names the TensorCore's buffer contents at every segment boundary (the fold `W5` at the end) and proves that every
  weakly fair execution terminates with the unscoped buffers at those contents.  Here the same launch is read at
  one more buffer: the program's result, which ends at the last boundary's contents `W5 … main_v112`.
-/
import proofs.«119586_j75204877353504_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v112) = W5 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v112 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.WholeRun

end
-- ==== Proof.KTerms.lean ====
/-
  The kernel program's host-side vocabulary, at exact values: the two ends of an edge list, an index wrapped the way
  array indexing wraps a negative one, the number of edges arriving at each node and its clamped reciprocal, the
  summed messages (gather the sources' rows, add them at the destinations) and their mean.
-/
import proofs.«119586_j75204877353504_1_alg».proof.Proof.Gen.KernelIdeal
import Idealize.ShloMosaic.PureOps.Ideal
import Idealize.ShloMosaic.PureOps.Ideal.Laws

noncomputable section

namespace Cert.KernelIdeal.Terms

open Cert.KernelIdeal Cert.KernelIdeal.Gen Idealize.ShloMosaic

abbrev Edges := IVec S2x1600000 32
abbrev Ends := IVec S1600000 32
abbrev Feat64 := FVec Ideal S100000x64 .f32
abbrev Feat32 := FVec Ideal S100000x32 .f32
abbrev PerNode := FVec Ideal S100000 .f32

/-- Row 0 of an edge list: the sources. -/
def srcOf (e : Edges) : Ends :=
  shapeCast _ (extractStridedSlice S1x1600000 ![0, 0] e slices_S2x1600000_S1x1600000_0_0) shapeCasts_S1x1600000_S1600000
/-- Row 1 of an edge list: the destinations. -/
def dstOf (e : Edges) : Ends :=
  shapeCast _ (extractStridedSlice S1x1600000 ![1, 0] e slices_S2x1600000_S1x1600000_1_0) shapeCasts_S1x1600000_S1600000

/-- An index vector as a column of start indices. -/
def asColumn (v : Ends) : IVec S1600000x1 32 :=
  broadcastInDim S1600000x1 ![0] bcast_S1600000_S1600000x1_0 v

/-- A negative index counts from the end: `i + 100000` where `i < 0`. -/
def wrapNeg (i : Ends) : Ends :=
  select (cmpi .slt i (broadcastInDim S1600000 ![] bcast_S_S1600000 (constantI S_ 32 0#32)))
    (addi i (broadcastInDim S1600000 ![] bcast_S_S1600000 (constantI S_ 32 100000#32))) i

/-- The all-ones vector over the nodes. -/
def onesN : PerNode := broadcastInDim S100000 ![] bcast_S_S100000 (constant (F := Ideal) S_ .f32 0x3F800000#32)

/-- How many edges arrive at each node. -/
def arrivals (d : Ends) : PerNode :=
  Host.scatterAdd scatter_S100000_S1600000x1_S1600000_n_0_0_1
    (broadcastInDim S100000 ![] bcast_S_S100000 (constant (F := Ideal) S_ .f32 0x00000000#32)) (asColumn d)
    (broadcastInDim S1600000 ![] bcast_S_S1600000 (constant (F := Ideal) S_ .f32 0x3F800000#32))

/-- `1 / max(arrivals, 1)`, per node. -/
def recip (d : Ends) : PerNode := Host.divf onesN (maximumf (arrivals d) onesN)

/-- The rows of `x` at the (wrapped) sources, added up at the destinations: 64 features. -/
def summed64 (x : Feat64) (s d : Ends) : Feat64 :=
  Host.scatterAdd scatter_S100000x64_S1600000x1_S1600000x64_1_0_0_1
    (broadcastInDim S100000x64 ![] bcast_S_S100000x64 (constant (F := Ideal) S_ .f32 0x00000000#32)) (asColumn d)
    (Host.gather gather_S100000x64_S1600000x1_S1600000x64_1_0_n_n_0_1_164 x (asColumn (wrapNeg s)))
/-- The same over 32 features. -/
def summed32 (x : Feat32) (s d : Ends) : Feat32 :=
  Host.scatterAdd scatter_S100000x32_S1600000x1_S1600000x32_1_0_0_1
    (broadcastInDim S100000x32 ![] bcast_S_S100000x32 (constant (F := Ideal) S_ .f32 0x00000000#32)) (asColumn d)
    (Host.gather gather_S100000x32_S1600000x1_S1600000x32_1_0_n_n_0_1_132 x (asColumn (wrapNeg s)))

/-- The mean message at each node, the kernel's way: the sum times the reciprocal. -/
def mean64 (x : Feat64) (s d : Ends) (r : PerNode) : Feat64 :=
  mulf (summed64 x s d) (broadcastInDim S100000x64 ![0, 1] bcast_S100000x1_S100000x64_0_1
    (broadcastInDim S100000x1 ![0] bcast_S100000_S100000x1_0 r))
def mean32 (x : Feat32) (s d : Ends) (r : PerNode) : Feat32 :=
  mulf (summed32 x s d) (broadcastInDim S100000x32 ![0, 1] bcast_S100000x1_S100000x32_0_1
    (broadcastInDim S100000x1 ![0] bcast_S100000_S100000x1_0 r))

end Cert.KernelIdeal.Terms

end
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.Spec.lean ====
/-
  The mathematics shared by the two programs, over the extended reals.

  * The mean of the messages arriving at a node: the kernel multiplies the summed messages by the reciprocal
    `1 / max(count, 1)`, the reference divides them by `max(count, 1)`.  A divisor that is not zero makes the two
    the same extended real, whatever the dividend (also an infinite one), and `max(count, 1) ≥ 1` is never zero.
  * A sum over the 64 joined columns of `[u | v]` against a 64-row weight matrix is the sum over `u`'s 32 columns
    against the top 32 rows plus the sum over `v`'s 32 columns against the bottom 32 rows.
-/
import Idealize.ShloMosaic.PureOps.Ideal.Laws
import Idealize.ShloMosaic.Lib.ValueIdx
import Idealize.ShloMosaic.Lib.IdealHost
import proofs.«119586_j75204877353504_1_alg».proof.Proof.LibRowWise

noncomputable section

open scoped BigOperators

namespace Cert.SignedConv

open Idealize.ShloMosaic Idealize.ShloMosaic.ValueIdx

/-- Multiplying by the reciprocal of a divisor that is not zero is dividing by it, on every extended real. -/
theorem mul_recip_eq_div (x c : EReal) (hc : c ≠ 0) : x * Ideal.div 1 c = Ideal.div x c := by
  unfold Ideal.div
  rw [if_neg hc, if_neg hc, one_mul]

/-- A count clamped below at one is not zero. -/
theorem clamp_one_ne_zero (a : EReal) : max a (Ideal.ofBits .f32 0x3F800000#32) ≠ 0 := by
  rw [Ideal.ofBits_one_f32]
  exact (lt_max_of_lt_right zero_lt_one).ne'

/-- THE MEAN, both ways, as whole arrays: the summed messages `S` times the column of reciprocals of the clamped counts
    is `S` divided by the column of clamped counts. -/
theorem mean_eq {n c : ℕ} (S : FVec Ideal ⟨2, ![n, c]⟩ .f32) (cnt : FVec Ideal ⟨1, ![n]⟩ .f32)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, c]⟩ ![0, 1]) :
    mulf S (broadcastInDim ⟨2, ![n, c]⟩ ![0, 1] g2 (broadcastInDim ⟨2, ![n, 1]⟩ ![0] g1
        (Host.divf (broadcastInDim ⟨1, ![n]⟩ ![] g0 (constant (F := Ideal) ⟨0, ![]⟩ .f32 0x3F800000#32))
          (maximumf cnt (broadcastInDim ⟨1, ![n]⟩ ![] g0 (constant (F := Ideal) ⟨0, ![]⟩ .f32 0x3F800000#32))))))
      = Host.divf S (broadcastInDim ⟨2, ![n, c]⟩ ![0, 1] g2 (broadcastInDim ⟨2, ![n, 1]⟩ ![0] g1
          (maximumf cnt (broadcastInDim ⟨1, ![n]⟩ ![] g0 (constant (F := Ideal) ⟨0, ![]⟩ .f32 0x3F800000#32))))) := by
  funext i
  obtain ⟨p, q, rfl⟩ : ∃ (p : Fin n) (q : Fin c), i = ix2 p q := ⟨i 0, i 1, eq_ix2 i⟩
  show S (ix2 p q) * _ = Ideal.div (S (ix2 p q)) _
  rw [Cert.RowWise.column_apply, Cert.RowWise.column_apply]
  show S (ix2 p q) * Ideal.div _ (max (cnt (ix1 p)) _) = Ideal.div (S (ix2 p q)) (max (cnt (ix1 p)) _)
  rw [broadcastInDim_scalar_apply, constant_apply, Ideal.ofBits_one_f32]
  exact mul_recip_eq_div _ _ (by rw [← Ideal.ofBits_one_f32]; exact clamp_one_ne_zero _)

/-- A sum over 64 = 32 + 32 consecutive positions is the sum over the first 32 plus the sum over the last 32. -/
theorem sum_split_64 {M : Type*} [AddCommMonoid M] (f : Fin 64 → M) :
    ∑ k : Fin 64, f k = ∑ k : Fin 32, f ⟨k.val, by omega⟩ + ∑ k : Fin 32, f ⟨k.val + 32, by omega⟩ := by
  rw [show (∑ k : Fin 64, f k) = ∑ k : Fin (32 + 32), f k from rfl, Fin.sum_univ_add]
  congr 1

/-- One half of the first layer at an entry: `max(A·W + X·W' + b, 0)`, the bias a 1×c row. -/
def dense2 {n k c : ℕ} (A : FVec Ideal ⟨2, ![n, k]⟩ .f32) (W : FVec Ideal ⟨2, ![k, c]⟩ .f32)
    (X : FVec Ideal ⟨2, ![n, k]⟩ .f32) (W' : FVec Ideal ⟨2, ![k, c]⟩ .f32) (b : FVec Ideal ⟨2, ![1, c]⟩ .f32) :
    FVec Ideal ⟨2, ![n, c]⟩ .f32 := fun i =>
  max ((∑ j : Fin k, A (ix2 (i 0) j) * W (ix2 j (i 1))) + (∑ j : Fin k, X (ix2 (i 0) j) * W' (ix2 j (i 1)))
    + b (ix2 (0 : Fin 1) (i 1))) (Ideal.ofBits .f32 0x00000000#32)

theorem dense2_apply {n k c : ℕ} (A : FVec Ideal ⟨2, ![n, k]⟩ .f32) (W : FVec Ideal ⟨2, ![k, c]⟩ .f32)
    (X : FVec Ideal ⟨2, ![n, k]⟩ .f32) (W' : FVec Ideal ⟨2, ![k, c]⟩ .f32) (b : FVec Ideal ⟨2, ![1, c]⟩ .f32)
    (p : Fin n) (q : Fin c) :
    dense2 A W X W' b (ix2 p q)
      = max ((∑ j : Fin k, A (ix2 p j) * W (ix2 j q)) + (∑ j : Fin k, X (ix2 p j) * W' (ix2 j q))
          + b (ix2 (0 : Fin 1) q)) (Ideal.ofBits .f32 0x00000000#32) := rfl

/-- One half of the second layer at an entry: `max(A₁·W₁ + A₂·W₂ + X·W₃ + b, 0)`. -/
def dense3 {n k c : ℕ} (A₁ : FVec Ideal ⟨2, ![n, k]⟩ .f32) (W₁ : FVec Ideal ⟨2, ![k, c]⟩ .f32)
    (A₂ : FVec Ideal ⟨2, ![n, k]⟩ .f32) (W₂ : FVec Ideal ⟨2, ![k, c]⟩ .f32)
    (X : FVec Ideal ⟨2, ![n, k]⟩ .f32) (W₃ : FVec Ideal ⟨2, ![k, c]⟩ .f32) (b : FVec Ideal ⟨2, ![1, c]⟩ .f32) :
    FVec Ideal ⟨2, ![n, c]⟩ .f32 := fun i =>
  max ((∑ j : Fin k, A₁ (ix2 (i 0) j) * W₁ (ix2 j (i 1))) + (∑ j : Fin k, A₂ (ix2 (i 0) j) * W₂ (ix2 j (i 1)))
    + (∑ j : Fin k, X (ix2 (i 0) j) * W₃ (ix2 j (i 1))) + b (ix2 (0 : Fin 1) (i 1))) (Ideal.ofBits .f32 0x00000000#32)

theorem dense3_apply {n k c : ℕ} (A₁ : FVec Ideal ⟨2, ![n, k]⟩ .f32) (W₁ : FVec Ideal ⟨2, ![k, c]⟩ .f32)
    (A₂ : FVec Ideal ⟨2, ![n, k]⟩ .f32) (W₂ : FVec Ideal ⟨2, ![k, c]⟩ .f32)
    (X : FVec Ideal ⟨2, ![n, k]⟩ .f32) (W₃ : FVec Ideal ⟨2, ![k, c]⟩ .f32) (b : FVec Ideal ⟨2, ![1, c]⟩ .f32)
    (p : Fin n) (q : Fin c) :
    dense3 A₁ W₁ A₂ W₂ X W₃ b (ix2 p q)
      = max ((∑ j : Fin k, A₁ (ix2 p j) * W₁ (ix2 j q)) + (∑ j : Fin k, A₂ (ix2 p j) * W₂ (ix2 j q))
          + (∑ j : Fin k, X (ix2 p j) * W₃ (ix2 j q)) + b (ix2 (0 : Fin 1) q)) (Ideal.ofBits .f32 0x00000000#32) := rfl

end Cert.SignedConv

end
-- ==== Proof.KOut.lean ====
/-
  The kernel program's result as ONE function of the fifteen argument arrays, at exact values.

  Layer one: the mean messages over the positive and over the negative edges, each through its own dense half
  (`max(agg·W_l + x·W_r + b, 0)`).  Layer two: the four mean messages of the two halves over the two edge lists, and two
  dense halves of three products each, the 64-row weight matrices cut into their top and bottom 32 rows.  The result
  joins the two halves' 32 columns.
-/
import proofs.«119586_j75204877353504_1_alg».proof.Proof.KTerms
import proofs.«119586_j75204877353504_1_alg».proof.Proof.Spec

noncomputable section

namespace Cert.KernelIdeal.Terms

open Cert.KernelIdeal Cert.KernelIdeal.Gen Cert.SignedConv Idealize.ShloMosaic

abbrev W64 := FVec Ideal S64x32 .f32
abbrev W32 := FVec Ideal S32x32 .f32
abbrev Bias := FVec Ideal S32 .f32
abbrev BiasRow := FVec Ideal S1x32 .f32

/-- A bias vector as a 1×32 row. -/
def asRow (b : Bias) : BiasRow := shapeCast _ b shapeCasts_S32_S1x32
/-- Rows 0…31 and rows 32…63 of a 64×32 weight matrix. -/
def topRows (w : W64) : W32 := extractStridedSlice S32x32 ![0, 0] w slices_S64x32_S32x32_0_0
def botRows (w : W64) : W32 := extractStridedSlice S32x32 ![32, 0] w slices_S64x32_S32x32_32_0

/-- Layer one, one half: the mean of `x` over the edge list `e` through `W_l`, `x` through `W_r`, the bias, the clamp. -/
def layer1 (x : Feat64) (e : Edges) (wl wr : W64) (b : Bias) : Feat32 :=
  dense2 (n := 100000) (k := 64) (c := 32) (mean64 x (srcOf e) (dstOf e) (recip (dstOf e))) wl x wr (asRow b)

/-- Layer two, one half: the means of `u` over `e₁` and of `v` over `e₂` through the top and bottom rows of `W_l`,
    `u'` through `W_r`, the bias, the clamp. -/
def layer2 (u : Feat32) (e₁ : Edges) (v : Feat32) (e₂ : Edges) (u' : Feat32) (wl : W64) (wr : W32) (b : Bias) : Feat32 :=
  dense3 (n := 100000) (k := 32) (c := 32) (mean32 u (srcOf e₁) (dstOf e₁) (recip (dstOf e₁))) (topRows wl)
    (mean32 v (srcOf e₂) (dstOf e₂) (recip (dstOf e₂))) (botRows wl) u' wr (asRow b)

/-- THE KERNEL'S RESULT of its fifteen arguments (in the order of @main's parameters). -/
def kernelOut (x : Feat64) (ep en : Edges) (w1pl w1pr : W64) (b1p : Bias) (w1nl w1nr : W64) (b1n : Bias)
    (w2pl : W64) (w2pr : W32) (b2p : Bias) (w2nl : W64) (w2nr : W32) (b2n : Bias) : Feat64 :=
  concatenate S100000x64 1
    [⟨S100000x32, layer2 (layer1 x ep w1pl w1pr b1p) ep (layer1 x en w1nl w1nr b1n) en (layer1 x ep w1pl w1pr b1p) w2pl w2pr b2p⟩,
     ⟨S100000x32, layer2 (layer1 x en w1nl w1nr b1n) ep (layer1 x ep w1pl w1pr b1p) en (layer1 x en w1nl w1nr b1n) w2nl w2nr b2n⟩]
    concatenates_S100000x32_S100000x32_S100000x64_d1

end Cert.KernelIdeal.Terms

end
-- ==== Proof.KHost0.lean ====
/-
  What the first convolution's call finds in its operands: the buffer contents after the host operations before it,
  each as a term of the arguments' launch contents.  The two aggregated inputs are the mean messages over the
  positive and over the negative edges; the biases arrive as 1×32 rows; the edge lists' ends and the clamped reciprocal
  counts are read too, because the host operations between the two calls use them again.
-/
import proofs.«119586_j75204877353504_1_alg».proof.Proof.Gen.KernelIdeal.Frame
import proofs.«119586_j75204877353504_1_alg».proof.Proof.KTerms
import Idealize.ShloMosaic.Lib.StableHlo.Run

set_option maxRecDepth 16384

noncomputable section

namespace Cert.KernelIdeal.Entry0

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The arguments' launch contents on core `c`. -/
abbrev aX : Feat64 := m ((c : Thread nD τ).loc main_arg0)
abbrev aPos : Edges := m ((c : Thread nD τ).loc main_arg1)
abbrev aNeg : Edges := m ((c : Thread nD τ).loc main_arg2)

theorem at_aggP : (W1 (F := Ideal) m ρ c (Proc.devRef .tc main_v36) : Feat64) = mean64 (aX m c) (srcOf (aPos m c)) (dstOf (aPos m c)) (recip (dstOf (aPos m c))) := by
  dsimp only [W1, hostOps0]
  after_results_simp
  rfl

theorem at_aggN : (W1 (F := Ideal) m ρ c (Proc.devRef .tc main_v49) : Feat64) = mean64 (aX m c) (srcOf (aNeg m c)) (dstOf (aNeg m c)) (recip (dstOf (aNeg m c))) := by
  dsimp only [W1, hostOps0]
  after_results_simp
  rfl

theorem at_b1p : (W1 (F := Ideal) m ρ c (Proc.devRef .tc main_v50) : (⟨S1x32, .f32⟩ : BufTy).Contents (Elt Ideal)) = shapeCast _ (m ((c : Thread nD τ).loc main_arg5)) shapeCasts_S32_S1x32 := by
  dsimp only [W1, hostOps0]
  after_results_simp
  rfl

theorem at_b1n : (W1 (F := Ideal) m ρ c (Proc.devRef .tc main_v51) : (⟨S1x32, .f32⟩ : BufTy).Contents (Elt Ideal)) = shapeCast _ (m ((c : Thread nD τ).loc main_arg8)) shapeCasts_S32_S1x32 := by
  dsimp only [W1, hostOps0]
  after_results_simp
  rfl

theorem at_srcP : (W1 (F := Ideal) m ρ c (Proc.devRef .tc main_v1) : Ends) = srcOf (aPos m c) := by
  dsimp only [W1, hostOps0]
  after_results_simp
  rfl

theorem at_dstP : (W1 (F := Ideal) m ρ c (Proc.devRef .tc main_v3) : Ends) = dstOf (aPos m c) := by
  dsimp only [W1, hostOps0]
  after_results_simp
  rfl

theorem at_srcN : (W1 (F := Ideal) m ρ c (Proc.devRef .tc main_v5) : Ends) = srcOf (aNeg m c) := by
  dsimp only [W1, hostOps0]
  after_results_simp
  rfl

theorem at_dstN : (W1 (F := Ideal) m ρ c (Proc.devRef .tc main_v7) : Ends) = dstOf (aNeg m c) := by
  dsimp only [W1, hostOps0]
  after_results_simp
  rfl

theorem at_recipP : (W1 (F := Ideal) m ρ c (Proc.devRef .tc main_v15) : PerNode) = recip (dstOf (aPos m c)) := by
  dsimp only [W1, hostOps0]
  after_results_simp
  rfl

theorem at_recipN : (W1 (F := Ideal) m ρ c (Proc.devRef .tc main_v23) : PerNode) = recip (dstOf (aNeg m c)) := by
  dsimp only [W1, hostOps0]
  after_results_simp
  rfl

theorem at_arg0 : (W1 (F := Ideal) m ρ c (Proc.devRef .tc main_arg0) : _) = m ((c : Thread nD τ).loc main_arg0) := by
  dsimp only [W1, hostOps0]
  after_results_simp

theorem at_arg3 : (W1 (F := Ideal) m ρ c (Proc.devRef .tc main_arg3) : _) = m ((c : Thread nD τ).loc main_arg3) := by
  dsimp only [W1, hostOps0]
  after_results_simp

theorem at_arg4 : (W1 (F := Ideal) m ρ c (Proc.devRef .tc main_arg4) : _) = m ((c : Thread nD τ).loc main_arg4) := by
  dsimp only [W1, hostOps0]
  after_results_simp

theorem at_arg6 : (W1 (F := Ideal) m ρ c (Proc.devRef .tc main_arg6) : _) = m ((c : Thread nD τ).loc main_arg6) := by
  dsimp only [W1, hostOps0]
  after_results_simp

theorem at_arg7 : (W1 (F := Ideal) m ρ c (Proc.devRef .tc main_arg7) : _) = m ((c : Thread nD τ).loc main_arg7) := by
  dsimp only [W1, hostOps0]
  after_results_simp

theorem at_arg9 : (W1 (F := Ideal) m ρ c (Proc.devRef .tc main_arg9) : _) = m ((c : Thread nD τ).loc main_arg9) := by
  dsimp only [W1, hostOps0]
  after_results_simp

theorem at_arg10 : (W1 (F := Ideal) m ρ c (Proc.devRef .tc main_arg10) : _) = m ((c : Thread nD τ).loc main_arg10) := by
  dsimp only [W1, hostOps0]
  after_results_simp

theorem at_arg11 : (W1 (F := Ideal) m ρ c (Proc.devRef .tc main_arg11) : _) = m ((c : Thread nD τ).loc main_arg11) := by
  dsimp only [W1, hostOps0]
  after_results_simp

theorem at_arg12 : (W1 (F := Ideal) m ρ c (Proc.devRef .tc main_arg12) : _) = m ((c : Thread nD τ).loc main_arg12) := by
  dsimp only [W1, hostOps0]
  after_results_simp

theorem at_arg13 : (W1 (F := Ideal) m ρ c (Proc.devRef .tc main_arg13) : _) = m ((c : Thread nD τ).loc main_arg13) := by
  dsimp only [W1, hostOps0]
  after_results_simp

theorem at_arg14 : (W1 (F := Ideal) m ρ c (Proc.devRef .tc main_arg14) : _) = m ((c : Thread nD τ).loc main_arg14) := by
  dsimp only [W1, hostOps0]
  after_results_simp

end Cert.KernelIdeal.Entry0

end
-- ==== Proof.KHost1.lean ====
/-
  What the second convolution's call finds in its operands: the buffer contents after the host operations between
  the two calls, each as a term of the contents at the first call's exit.  The four aggregated inputs are the mean
  messages of the two halves of layer one over the two edge lists; the 64-row weight matrices arrive cut into their
  top and bottom 32 rows, the biases as 1×32 rows.
-/
import proofs.«119586_j75204877353504_1_alg».proof.Proof.Gen.KernelIdeal.Frame
import proofs.«119586_j75204877353504_1_alg».proof.Proof.KOut
import Idealize.ShloMosaic.Lib.StableHlo.Run

set_option maxRecDepth 16384

noncomputable section

namespace Cert.KernelIdeal.Entry1

open Cert.KernelIdeal Cert.KernelIdeal.Gen Cert.KernelIdeal.Terms
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at_p1 : (W3 (F := Ideal) m ρ c (Proc.devRef .tc main_v65) : Feat32) = mean32 (W2 (F := Ideal) m ρ c (Proc.devRef .tc main_v52_0)) (W2 (F := Ideal) m ρ c (Proc.devRef .tc main_v1)) (W2 (F := Ideal) m ρ c (Proc.devRef .tc main_v3)) (W2 (F := Ideal) m ρ c (Proc.devRef .tc main_v15)) := by
  dsimp only [W3, hostOps1]
  after_results_simp
  rfl

theorem at_p2 : (W3 (F := Ideal) m ρ c (Proc.devRef .tc main_v78) : Feat32) = mean32 (W2 (F := Ideal) m ρ c (Proc.devRef .tc main_v52_1)) (W2 (F := Ideal) m ρ c (Proc.devRef .tc main_v5)) (W2 (F := Ideal) m ρ c (Proc.devRef .tc main_v7)) (W2 (F := Ideal) m ρ c (Proc.devRef .tc main_v23)) := by
  dsimp only [W3, hostOps1]
  after_results_simp
  rfl

theorem at_n1 : (W3 (F := Ideal) m ρ c (Proc.devRef .tc main_v91) : Feat32) = mean32 (W2 (F := Ideal) m ρ c (Proc.devRef .tc main_v52_1)) (W2 (F := Ideal) m ρ c (Proc.devRef .tc main_v1)) (W2 (F := Ideal) m ρ c (Proc.devRef .tc main_v3)) (W2 (F := Ideal) m ρ c (Proc.devRef .tc main_v15)) := by
  dsimp only [W3, hostOps1]
  after_results_simp
  rfl

theorem at_n2 : (W3 (F := Ideal) m ρ c (Proc.devRef .tc main_v104) : Feat32) = mean32 (W2 (F := Ideal) m ρ c (Proc.devRef .tc main_v52_0)) (W2 (F := Ideal) m ρ c (Proc.devRef .tc main_v5)) (W2 (F := Ideal) m ρ c (Proc.devRef .tc main_v7)) (W2 (F := Ideal) m ρ c (Proc.devRef .tc main_v23)) := by
  dsimp only [W3, hostOps1]
  after_results_simp
  rfl

theorem at_topP : (W3 (F := Ideal) m ρ c (Proc.devRef .tc main_v105) : W32) = topRows (W2 (F := Ideal) m ρ c (Proc.devRef .tc main_arg9)) := by
  dsimp only [W3, hostOps1]
  after_results_simp
  rfl

theorem at_botP : (W3 (F := Ideal) m ρ c (Proc.devRef .tc main_v106) : W32) = botRows (W2 (F := Ideal) m ρ c (Proc.devRef .tc main_arg9)) := by
  dsimp only [W3, hostOps1]
  after_results_simp
  rfl

theorem at_topN : (W3 (F := Ideal) m ρ c (Proc.devRef .tc main_v107) : W32) = topRows (W2 (F := Ideal) m ρ c (Proc.devRef .tc main_arg12)) := by
  dsimp only [W3, hostOps1]
  after_results_simp
  rfl

theorem at_botN : (W3 (F := Ideal) m ρ c (Proc.devRef .tc main_v108) : W32) = botRows (W2 (F := Ideal) m ρ c (Proc.devRef .tc main_arg12)) := by
  dsimp only [W3, hostOps1]
  after_results_simp
  rfl

theorem at_b2p : (W3 (F := Ideal) m ρ c (Proc.devRef .tc main_v109) : BiasRow) = asRow (W2 (F := Ideal) m ρ c (Proc.devRef .tc main_arg11)) := by
  dsimp only [W3, hostOps1]
  after_results_simp
  rfl

theorem at_b2n : (W3 (F := Ideal) m ρ c (Proc.devRef .tc main_v110) : BiasRow) = asRow (W2 (F := Ideal) m ρ c (Proc.devRef .tc main_arg14)) := by
  dsimp only [W3, hostOps1]
  after_results_simp
  rfl

theorem at_v52_0 : (W3 (F := Ideal) m ρ c (Proc.devRef .tc main_v52_0) : _) = (W2 (F := Ideal) m ρ c (Proc.devRef .tc main_v52_0)) := by
  dsimp only [W3, hostOps1]
  after_results_simp

theorem at_v52_1 : (W3 (F := Ideal) m ρ c (Proc.devRef .tc main_v52_1) : _) = (W2 (F := Ideal) m ρ c (Proc.devRef .tc main_v52_1)) := by
  dsimp only [W3, hostOps1]
  after_results_simp

theorem at_arg10 : (W3 (F := Ideal) m ρ c (Proc.devRef .tc main_arg10) : _) = (W2 (F := Ideal) m ρ c (Proc.devRef .tc main_arg10)) := by
  dsimp only [W3, hostOps1]
  after_results_simp

theorem at_arg13 : (W3 (F := Ideal) m ρ c (Proc.devRef .tc main_arg13) : _) = (W2 (F := Ideal) m ρ c (Proc.devRef .tc main_arg13)) := by
  dsimp only [W3, hostOps1]
  after_results_simp

end Cert.KernelIdeal.Entry1

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibBlockRows.lean ====
/-
  What a block of rows computes, read at an entry, on the extended reals.

  A block is an [m, n] array of rows cut out of a longer array. Three computations on a block:
  * the plain product of an [m, k] block with a [k, n] matrix, accumulated into zero, both operands first narrowed to
    a shorter float format (the identity on exact values): entry (p, q) is Σ_c x0(p, c) · x1(c, q) (`narrowedMatmul_apply`);
  * a one-row matrix repeated down the block and added, entry (p, q) being x0(p, q) + x1(0, q) (`biasBlock_apply`), and
    the same clamped below at zero (`biasReluBlock_apply`);
  * the vector chain of a log-softmax along the rows — the row maximum from -∞ laid out as a column and subtracted, the
    exponentials summed from zero, the logarithm of the column of sums subtracted —, entry (p, q) being the log-softmax
    of row p at column q (`vecLogSoftmax_apply`).
  Each entry depends on row p of the block alone, which is why a block of an array computes the array's rows.
-/
import Idealize.ShloMosaic.PureOps.Ideal.Laws
import Idealize.ShloMosaic.Lib.ValueIdx
import Idealize.ShloMosaic.Lib.ValueLayout
import Idealize.ShloMosaic.Lib.Pipeline.Value
import proofs.«119586_j75204877353504_1_alg».proof.Proof.LibPlainMatmul
import proofs.«119586_j75204877353504_1_alg».proof.Proof.LibColumnCast
import proofs.«119586_j75204877353504_1_alg».proof.Proof.LibColumnBroadcast
import proofs.«119586_j75204877353504_1_alg».proof.Proof.LibRowWise

noncomputable section

open scoped BigOperators

namespace Cert.BlockRows

open Idealize.ShloMosaic Idealize.ShloMosaic.ValueIdx Cert.RowWise

/-- Narrowing both operands changes no exact value: the product into zero reads Σ_c x0(p, c) · x1(c, q). -/
theorem narrowedMatmul_apply {m k n : ℕ} (x0 : FVec Ideal ⟨2, ![m, k]⟩ .f32) (x1 : FVec Ideal ⟨2, ![k, n]⟩ .f32)
    (ht : FTy.bf16.bits < FTy.f32.bits) (p : Fin m) (q : Fin n) :
    matmul (DotDims.plain m k n) none (truncf .bf16 x0 ht : FVec Ideal ⟨2, ![m, k]⟩ .bf16)
        (truncf .bf16 x1 ht : FVec Ideal ⟨2, ![k, n]⟩ .bf16) (constant ⟨2, ![m, n]⟩ .f32 0x00000000#32) (ix2 p q)
      = ∑ c : Fin k, x0 (ix2 p c) * x1 (ix2 c q) :=
  matmul_plain_zero_apply none _ _ p q

/-- A one-row matrix repeated down the block and added to it, at an entry. -/
theorem biasBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    addf (shapeCast ⟨2, ![m, n]⟩ x0 hc0) (broadcastTo ⟨2, ![m, n]⟩ (shapeCast ⟨2, ![1, n]⟩ x1 hc1) hb) (ix2 p q)
      = x0 (ix2 p q) + x1 (ix2 (0 : Fin 1) q) := by
  rw [shapeCast_self, shapeCast_self]
  show x0 (ix2 p q) + broadcastTo ⟨2, ![m, n]⟩ x1 hb (ix2 p q) = _
  rw [broadcastTo_1b_ab_apply]

/-- The same, clamped below at zero (zero kept as the all-zero f32 word). -/
theorem biasReluBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    maximumf (addf (shapeCast ⟨2, ![m, n]⟩ x0 hc0) (broadcastTo ⟨2, ![m, n]⟩ (shapeCast ⟨2, ![1, n]⟩ x1 hc1) hb))
        (broadcast ⟨2, ![m, n]⟩ (Scalar.ofBits .f32 0x00000000#32 : Ideal .f32)) (ix2 p q)
      = max (x0 (ix2 p q) + x1 (ix2 (0 : Fin 1) q)) (Ideal.ofBits .f32 0x00000000#32) := by
  show max (addf (shapeCast ⟨2, ![m, n]⟩ x0 hc0) (broadcastTo ⟨2, ![m, n]⟩ (shapeCast ⟨2, ![1, n]⟩ x1 hc1) hb) (ix2 p q)) _ = _
  rw [biasBlock_apply]
  rfl

/-- The vector log-softmax chain along the rows of Y reads, at (p, q), the log-softmax of row p at column q. -/
theorem vecLogSoftmax_apply {m n : ℕ} (Y : FVec Ideal ⟨2, ![m, n]⟩ .f32)
    (h : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    subf
        (subf Y (broadcastTo ⟨2, ![m, n]⟩ (shapeCast ⟨2, ![m, 1]⟩
          (multiReduction .maximumf [1] ⟨1, ![m]⟩ Y 0xFF800000#32 h hφ hmax) hcol) hsp))
        (broadcastTo ⟨2, ![m, n]⟩ (log (shapeCast ⟨2, ![m, 1]⟩
          (multiReduction .add [1] ⟨1, ![m]⟩
            (exp (subf Y (broadcastTo ⟨2, ![m, n]⟩ (shapeCast ⟨2, ![m, 1]⟩
              (multiReduction .maximumf [1] ⟨1, ![m]⟩ Y 0xFF800000#32 h hφ hmax) hcol) hsp)))
            0x00000000#32 h hφ hadd) hcol)) hsp) (ix2 p q)
      = logSoftmaxRow (fun k => Y (ix2 p k)) q := by
  have hshift : ∀ b : Fin n, broadcastTo ⟨2, ![m, n]⟩ (shapeCast ⟨2, ![m, 1]⟩
      (multiReduction .maximumf [1] ⟨1, ![m]⟩ Y 0xFF800000#32 h hφ hmax) hcol) hsp (ix2 p b)
        = rowMax (fun k => Y (ix2 p k)) := fun b => by
    rw [Cert.LibColumnBroadcast.broadcastTo_a1_ab_apply, Cert.LibColumnCast.shapeCast_a_a1_apply, vecRowMax_apply]
    rfl
  unfold logSoftmaxRow
  show (Y (ix2 p q) - _) - _ = _
  rw [hshift q, Cert.LibColumnBroadcast.broadcastTo_a1_ab_apply]
  show _ - Ideal.log (shapeCast ⟨2, ![m, 1]⟩ (multiReduction .add [1] ⟨1, ![m]⟩
      (exp (subf Y (broadcastTo ⟨2, ![m, n]⟩ (shapeCast ⟨2, ![m, 1]⟩
        (multiReduction .maximumf [1] ⟨1, ![m]⟩ Y 0xFF800000#32 h hφ hmax) hcol) hsp)))
      0x00000000#32 h hφ hadd) hcol (ix2 p (0 : Fin 1))) = _
  rw [Cert.LibColumnCast.shapeCast_a_a1_apply, vecRowSum_apply]
  refine congrArg (fun s => (Y (ix2 p q) - rowMax (fun k => Y (ix2 p k))) - Ideal.log s) ?_
  refine Finset.sum_congr rfl fun k _ => ?_
  show Ideal.exp (Y (ix2 p k) - _) = _
  rw [hshift k]

end Cert.BlockRows

end
-- ==== Proof.KRegion0.lean ====
/-
  The first convolution's call, read as values.  Its grid has 20 points; point `t` takes rows `5000·t … 5000·t + 4999`
  of the node features and of the two aggregated inputs, the four 64×32 weight matrices and the two 1×32 bias rows
  whole, and writes the same rows of the two outputs.  Row by row a block's output is
  `max(agg·W_l + x·W_r + b, 0)`, which only reads that row of the inputs: so the 20 blocks are the restrictions of one
  whole-array function, and since they cover every row, each output array ends at that function of what the call
  finds in its operands.
-/
import proofs.«119586_j75204877353504_1_alg».proof.Proof.Gen.KernelIdeal.Frame
import proofs.«119586_j75204877353504_1_alg».proof.Proof.Spec
import proofs.«119586_j75204877353504_1_alg».proof.Proof.LibBlockRows
import Idealize.ShloMosaic.Lib.Pipeline.Value
import Idealize.ShloMosaic.Lib.ValueLayout

set_option maxRecDepth 16384

noncomputable section

open scoped BigOperators

namespace Cert.KernelIdeal.Conv1

open Cert.KernelIdeal Cert.KernelIdeal.Gen Cert.SignedConv
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The printed contraction record is the plain 5000×64 by 64×32 product. -/
theorem dot64 : dot_S5000x64_S64x32_S5000x32_1_0_0_1_n_n = DotDims.plain 5000 64 32 := rfl

/-- The positive half's block at an entry: the aggregated block against `W_l`, the feature block against `W_r`, the
    bias row, clamped below at zero (the narrowing to bf16 changes no exact value). -/
theorem posBlock_apply (v0 v2 : Vec Ideal S5000x64 .f32) (v8 v10 : Vec Ideal S64x32 .f32) (v19 : Vec Ideal S1x32 .f32)
    (r : Fin 5000) (q : Fin 32) :
    k0_pay4 v0 v2 v8 v10 v19 (ix2 r q)
      = max ((∑ k : Fin 64, v2 (ix2 r k) * v8 (ix2 k q)) + (∑ k : Fin 64, v0 (ix2 r k) * v10 (ix2 k q))
          + v19 (ix2 (0 : Fin 1) q)) (Ideal.ofBits .f32 0x00000000#32) := by
  unfold k0_pay4 k0_pay2
  simp only [maximumf_apply, addf_apply, broadcast_apply, shapeCast_self, dot64]
  rw [Cert.BlockRows.narrowedMatmul_apply, Cert.BlockRows.narrowedMatmul_apply, broadcastTo_1b_ab_apply]
  rfl

/-- The negative half's block at an entry, likewise. -/
theorem negBlock_apply (v0 v5 : Vec Ideal S5000x64 .f32) (v12 v14 : Vec Ideal S64x32 .f32) (v26 : Vec Ideal S1x32 .f32)
    (r : Fin 5000) (q : Fin 32) :
    k0_pay1 (k0_pay3 v0 v5 v12 v14 v26) (ix2 r q)
      = max ((∑ k : Fin 64, v5 (ix2 r k) * v12 (ix2 k q)) + (∑ k : Fin 64, v0 (ix2 r k) * v14 (ix2 k q))
          + v26 (ix2 (0 : Fin 1) q)) (Ideal.ofBits .f32 0x00000000#32) := by
  unfold k0_pay1 k0_pay3 k0_pay2
  simp only [maximumf_apply, addf_apply, broadcast_apply, shapeCast_self, dot64]
  rw [Cert.BlockRows.narrowedMatmul_apply, Cert.BlockRows.narrowedMatmul_apply, broadcastTo_1b_ab_apply]
  rfl

theorem rowIdx_0 : ∀ t : Fin cfg0.N, win0_0.index t (0 : Fin 2) = t.val ∧ win0_0.index t (1 : Fin 2) = 0 :=
  (by decide +kernel : ∀ t : Fin grid0.N, _)
theorem rowIdx_1 : ∀ t : Fin cfg0.N, win0_1.index t (0 : Fin 2) = t.val ∧ win0_1.index t (1 : Fin 2) = 0 :=
  (by decide +kernel : ∀ t : Fin grid0.N, _)
theorem rowIdx_2 : ∀ t : Fin cfg0.N, win0_2.index t (0 : Fin 2) = t.val ∧ win0_2.index t (1 : Fin 2) = 0 :=
  (by decide +kernel : ∀ t : Fin grid0.N, _)
theorem rowIdx_9 : ∀ t : Fin cfg0.N, win0_9.index t (0 : Fin 2) = t.val ∧ win0_9.index t (1 : Fin 2) = 0 :=
  (by decide +kernel : ∀ t : Fin grid0.N, _)
theorem rowIdx_10 : ∀ t : Fin cfg0.N, win0_10.index t (0 : Fin 2) = t.val ∧ win0_10.index t (1 : Fin 2) = 0 :=
  (by decide +kernel : ∀ t : Fin grid0.N, _)
theorem fixIdx_3 : ∀ t : Fin cfg0.N, win0_3.index t (0 : Fin 2) = 0 ∧ win0_3.index t (1 : Fin 2) = 0 :=
  (by decide +kernel : ∀ t : Fin grid0.N, _)
theorem fixIdx_4 : ∀ t : Fin cfg0.N, win0_4.index t (0 : Fin 2) = 0 ∧ win0_4.index t (1 : Fin 2) = 0 :=
  (by decide +kernel : ∀ t : Fin grid0.N, _)
theorem fixIdx_5 : ∀ t : Fin cfg0.N, win0_5.index t (0 : Fin 2) = 0 ∧ win0_5.index t (1 : Fin 2) = 0 :=
  (by decide +kernel : ∀ t : Fin grid0.N, _)
theorem fixIdx_6 : ∀ t : Fin cfg0.N, win0_6.index t (0 : Fin 2) = 0 ∧ win0_6.index t (1 : Fin 2) = 0 :=
  (by decide +kernel : ∀ t : Fin grid0.N, _)
theorem fixIdx_7 : ∀ t : Fin cfg0.N, win0_7.index t (0 : Fin 2) = 0 ∧ win0_7.index t (1 : Fin 2) = 0 :=
  (by decide +kernel : ∀ t : Fin grid0.N, _)
theorem fixIdx_8 : ∀ t : Fin cfg0.N, win0_8.index t (0 : Fin 2) = 0 ∧ win0_8.index t (1 : Fin 2) = 0 :=
  (by decide +kernel : ∀ t : Fin grid0.N, _)

variable (V : (c : Dev nD) → (b : Ref sig .tc) → Buf (Elt Ideal) ((c : Thread nD τ).loc b)) (c : Dev nD)

/-- Row `r` of point `t`'s block of operand 0 is row `5000·t + r` of the operand's array. -/
theorem rowRead_0 (t : Fin cfg0.N) (r : Fin 5000) (k : Fin 64) (i0 : Fin 100000) (h : i0.val = t.val * 5000 + r.val) :
    iblk0 V c 0 t (ix2 r k) = (V c main_arg0 : S100000x64.Idx → EReal) (ix2 i0 k) := by
  show (V c main_arg0 : S100000x64.Idx → EReal) (((cfg0.win 0).blk t).view.emb (ix2 r k)) = _
  refine congrArg _ (funext fun a => Fin.ext ?_)
  obtain ⟨e0, e1⟩ := rowIdx_0 t
  match a with
  | ⟨0, _⟩ => show win0_0.index t (0 : Fin 2) * 5000 + 1 * r.val = i0.val; omega
  | ⟨1, _⟩ => show win0_0.index t (1 : Fin 2) * 64 + 1 * k.val = k.val; omega
/-- Row `r` of point `t`'s block of operand 1 is row `5000·t + r` of the operand's array. -/
theorem rowRead_1 (t : Fin cfg0.N) (r : Fin 5000) (k : Fin 64) (i0 : Fin 100000) (h : i0.val = t.val * 5000 + r.val) :
    iblk0 V c 1 t (ix2 r k) = (V c main_v36 : S100000x64.Idx → EReal) (ix2 i0 k) := by
  show (V c main_v36 : S100000x64.Idx → EReal) (((cfg0.win 1).blk t).view.emb (ix2 r k)) = _
  refine congrArg _ (funext fun a => Fin.ext ?_)
  obtain ⟨e0, e1⟩ := rowIdx_1 t
  match a with
  | ⟨0, _⟩ => show win0_1.index t (0 : Fin 2) * 5000 + 1 * r.val = i0.val; omega
  | ⟨1, _⟩ => show win0_1.index t (1 : Fin 2) * 64 + 1 * k.val = k.val; omega
/-- Row `r` of point `t`'s block of operand 2 is row `5000·t + r` of the operand's array. -/
theorem rowRead_2 (t : Fin cfg0.N) (r : Fin 5000) (k : Fin 64) (i0 : Fin 100000) (h : i0.val = t.val * 5000 + r.val) :
    iblk0 V c 2 t (ix2 r k) = (V c main_v49 : S100000x64.Idx → EReal) (ix2 i0 k) := by
  show (V c main_v49 : S100000x64.Idx → EReal) (((cfg0.win 2).blk t).view.emb (ix2 r k)) = _
  refine congrArg _ (funext fun a => Fin.ext ?_)
  obtain ⟨e0, e1⟩ := rowIdx_2 t
  match a with
  | ⟨0, _⟩ => show win0_2.index t (0 : Fin 2) * 5000 + 1 * r.val = i0.val; omega
  | ⟨1, _⟩ => show win0_2.index t (1 : Fin 2) * 64 + 1 * k.val = k.val; omega
/-- Operand 3 is taken whole at every point. -/
theorem fixRead_3 (t : Fin cfg0.N) (a : Fin 64) (b : Fin 32) :
    iblk0 V c 3 t (ix2 a b) = (V c main_arg3 : S64x32.Idx → EReal) (ix2 a b) := by
  show (V c main_arg3 : S64x32.Idx → EReal) (((cfg0.win 3).blk t).view.emb (ix2 a b)) = _
  refine congrArg _ (funext fun d => Fin.ext ?_)
  obtain ⟨e0, e1⟩ := fixIdx_3 t
  match d with
  | ⟨0, _⟩ => show win0_3.index t (0 : Fin 2) * 64 + 1 * a.val = a.val; omega
  | ⟨1, _⟩ => show win0_3.index t (1 : Fin 2) * 32 + 1 * b.val = b.val; omega
/-- Operand 4 is taken whole at every point. -/
theorem fixRead_4 (t : Fin cfg0.N) (a : Fin 64) (b : Fin 32) :
    iblk0 V c 4 t (ix2 a b) = (V c main_arg4 : S64x32.Idx → EReal) (ix2 a b) := by
  show (V c main_arg4 : S64x32.Idx → EReal) (((cfg0.win 4).blk t).view.emb (ix2 a b)) = _
  refine congrArg _ (funext fun d => Fin.ext ?_)
  obtain ⟨e0, e1⟩ := fixIdx_4 t
  match d with
  | ⟨0, _⟩ => show win0_4.index t (0 : Fin 2) * 64 + 1 * a.val = a.val; omega
  | ⟨1, _⟩ => show win0_4.index t (1 : Fin 2) * 32 + 1 * b.val = b.val; omega
/-- Operand 5 is taken whole at every point. -/
theorem fixRead_5 (t : Fin cfg0.N) (a : Fin 64) (b : Fin 32) :
    iblk0 V c 5 t (ix2 a b) = (V c main_arg6 : S64x32.Idx → EReal) (ix2 a b) := by
  show (V c main_arg6 : S64x32.Idx → EReal) (((cfg0.win 5).blk t).view.emb (ix2 a b)) = _
  refine congrArg _ (funext fun d => Fin.ext ?_)
  obtain ⟨e0, e1⟩ := fixIdx_5 t
  match d with
  | ⟨0, _⟩ => show win0_5.index t (0 : Fin 2) * 64 + 1 * a.val = a.val; omega
  | ⟨1, _⟩ => show win0_5.index t (1 : Fin 2) * 32 + 1 * b.val = b.val; omega
/-- Operand 6 is taken whole at every point. -/
theorem fixRead_6 (t : Fin cfg0.N) (a : Fin 64) (b : Fin 32) :
    iblk0 V c 6 t (ix2 a b) = (V c main_arg7 : S64x32.Idx → EReal) (ix2 a b) := by
  show (V c main_arg7 : S64x32.Idx → EReal) (((cfg0.win 6).blk t).view.emb (ix2 a b)) = _
  refine congrArg _ (funext fun d => Fin.ext ?_)
  obtain ⟨e0, e1⟩ := fixIdx_6 t
  match d with
  | ⟨0, _⟩ => show win0_6.index t (0 : Fin 2) * 64 + 1 * a.val = a.val; omega
  | ⟨1, _⟩ => show win0_6.index t (1 : Fin 2) * 32 + 1 * b.val = b.val; omega
/-- Operand 7 is taken whole at every point. -/
theorem fixRead_7 (t : Fin cfg0.N) (a : Fin 1) (b : Fin 32) :
    iblk0 V c 7 t (ix2 a b) = (V c main_v50 : S1x32.Idx → EReal) (ix2 a b) := by
  show (V c main_v50 : S1x32.Idx → EReal) (((cfg0.win 7).blk t).view.emb (ix2 a b)) = _
  refine congrArg _ (funext fun d => Fin.ext ?_)
  obtain ⟨e0, e1⟩ := fixIdx_7 t
  match d with
  | ⟨0, _⟩ => show win0_7.index t (0 : Fin 2) * 1 + 1 * a.val = a.val; omega
  | ⟨1, _⟩ => show win0_7.index t (1 : Fin 2) * 32 + 1 * b.val = b.val; omega
/-- Operand 8 is taken whole at every point. -/
theorem fixRead_8 (t : Fin cfg0.N) (a : Fin 1) (b : Fin 32) :
    iblk0 V c 8 t (ix2 a b) = (V c main_v51 : S1x32.Idx → EReal) (ix2 a b) := by
  show (V c main_v51 : S1x32.Idx → EReal) (((cfg0.win 8).blk t).view.emb (ix2 a b)) = _
  refine congrArg _ (funext fun d => Fin.ext ?_)
  obtain ⟨e0, e1⟩ := fixIdx_8 t
  match d with
  | ⟨0, _⟩ => show win0_8.index t (0 : Fin 2) * 1 + 1 * a.val = a.val; omega
  | ⟨1, _⟩ => show win0_8.index t (1 : Fin 2) * 32 + 1 * b.val = b.val; omega

/-- What output 9's array ends holding: the positive half, `max(aggP·W_pl + x·W_pr + b_p, 0)` of the operands' arrays as the call finds them. -/
def G9 : S100000x32.Idx → EReal :=
  dense2 (n := 100000) (k := 64) (c := 32) (V c main_v36 : S100000x64.Idx → EReal) (V c main_arg3 : S64x32.Idx → EReal)
    (V c main_arg0 : S100000x64.Idx → EReal) (V c main_arg4 : S64x32.Idx → EReal) (V c main_v50 : S1x32.Idx → EReal)

/-- Entry `(r, q)` of point `t`'s block of output 9 is entry `(5000·t + r, q)` of the array. -/
theorem outEmb_9 (t : Fin cfg0.N) (r : Fin 5000) (q : Fin 32) (i0 : Fin 100000) (h : i0.val = t.val * 5000 + r.val) :
    ((cfg0.win 9).blk t).view.emb (ix2 r q) = (ix2 i0 q : S100000x32.Idx) := by
  refine funext fun a => Fin.ext ?_
  obtain ⟨e0, e1⟩ := rowIdx_9 t
  match a with
  | ⟨0, _⟩ => show win0_9.index t (0 : Fin 2) * 5000 + 1 * r.val = i0.val; omega
  | ⟨1, _⟩ => show win0_9.index t (1 : Fin 2) * 32 + 1 * q.val = q.val; omega

/-- WHAT POINT `t` WRITES BACK is block `t` of that function. -/
theorem flushed_9 (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S5000x64) hz, View.ld_unit_zero (S := S64x32) hz, View.ld_unit_zero (S := S1x32) hz]
  funext j
  obtain ⟨r, q, rfl⟩ : ∃ (r : Fin 5000) (q : Fin 32), j = ix2 r q := ⟨j 0, j 1, eq_ix2 j⟩
  have ht : t.val < 20 := t.isLt
  have hr : r.val < 5000 := r.isLt
  obtain ⟨i0, h0⟩ : ∃ i0 : Fin 100000, i0.val = t.val * 5000 + r.val := ⟨⟨t.val * 5000 + r.val, by omega⟩, rfl⟩
  refine (posBlock_apply (iblk0 V c 0 t) (iblk0 V c 1 t) (iblk0 V c 3 t) (iblk0 V c 4 t) (iblk0 V c 7 t) r q).trans ?_
  show _ = G9 V c (((cfg0.win 9).blk t).view.emb (ix2 r q))
  rw [outEmb_9 t r q i0 h0]
  unfold G9
  rw [dense2_apply]
  refine congrArg₂ max ?_ rfl
  refine congrArg₂ (· + ·) (congrArg₂ (· + ·) (Finset.sum_congr rfl fun k _ => ?_) (Finset.sum_congr rfl fun k _ => ?_)) ?_
  · rw [rowRead_1 V c t r k i0 h0, fixRead_3 V c t k q]
  · rw [rowRead_0 V c t r k i0 h0, fixRead_4 V c t k q]
  · exact fixRead_7 V c t 0 q

/-- An index of the array is in point `t`'s block iff each coordinate is in the block's range on its axis. -/
theorem mem_blk_9 (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v52_0).slice (win0_9.rect t)).set ↔ _
  rw [View.set_slice_whole, Rect.mem_set_unit]
  exact Iff.rfl

/-- Every row is in some point's block: row `p` in point `p / 5000`'s. -/
theorem cover_9 (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  refine ⟨⟨(i 0).val / 5000, by show (i 0).val / 5000 < 20; omega⟩, flush0_9 _, ?_⟩
  rw [mem_blk_9]
  obtain ⟨e0, e1⟩ := rowIdx_9 (⟨(i 0).val / 5000, by show (i 0).val / 5000 < 20; omega⟩ : Fin cfg0.N)
  intro a
  match a with
  | ⟨0, _⟩ =>
    show win0_9.index _ (0 : Fin 2) * 5000 ≤ (i 0).val ∧ (i 0).val < win0_9.index _ (0 : Fin 2) * 5000 + 5000
    rw [e0]; show (i 0).val / 5000 * 5000 ≤ (i 0).val ∧ (i 0).val < (i 0).val / 5000 * 5000 + 5000; omega
  | ⟨1, _⟩ =>
    show win0_9.index _ (1 : Fin 2) * 32 ≤ (i 1).val ∧ (i 1).val < win0_9.index _ (1 : Fin 2) * 32 + 32
    rw [e1]; omega

/-- THE ARRAY after the call. -/
theorem final_9 : (dat0 V c).arrAt 9 cfg0.N = G9 V c :=
  (dat0 V c).arrAt_eq_of_cover 9 (G9 V c) (fun t _ => flushed_9 V c t) (cover_9)

/-- What output 10's array ends holding: the negative half, `max(aggN·W_nl + x·W_nr + b_n, 0)`. -/
def G10 : S100000x32.Idx → EReal :=
  dense2 (n := 100000) (k := 64) (c := 32) (V c main_v49 : S100000x64.Idx → EReal) (V c main_arg6 : S64x32.Idx → EReal)
    (V c main_arg0 : S100000x64.Idx → EReal) (V c main_arg7 : S64x32.Idx → EReal) (V c main_v51 : S1x32.Idx → EReal)

/-- Entry `(r, q)` of point `t`'s block of output 10 is entry `(5000·t + r, q)` of the array. -/
theorem outEmb_10 (t : Fin cfg0.N) (r : Fin 5000) (q : Fin 32) (i0 : Fin 100000) (h : i0.val = t.val * 5000 + r.val) :
    ((cfg0.win 10).blk t).view.emb (ix2 r q) = (ix2 i0 q : S100000x32.Idx) := by
  refine funext fun a => Fin.ext ?_
  obtain ⟨e0, e1⟩ := rowIdx_10 t
  match a with
  | ⟨0, _⟩ => show win0_10.index t (0 : Fin 2) * 5000 + 1 * r.val = i0.val; omega
  | ⟨1, _⟩ => show win0_10.index t (1 : Fin 2) * 32 + 1 * q.val = q.val; omega

/-- WHAT POINT `t` WRITES BACK is block `t` of that function. -/
theorem flushed_10 (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz]
  simp only [View.ld_unit_zero (S := S5000x64) hz, View.ld_unit_zero (S := S64x32) hz, View.ld_unit_zero (S := S1x32) hz]
  funext j
  obtain ⟨r, q, rfl⟩ : ∃ (r : Fin 5000) (q : Fin 32), j = ix2 r q := ⟨j 0, j 1, eq_ix2 j⟩
  have ht : t.val < 20 := t.isLt
  have hr : r.val < 5000 := r.isLt
  obtain ⟨i0, h0⟩ : ∃ i0 : Fin 100000, i0.val = t.val * 5000 + r.val := ⟨⟨t.val * 5000 + r.val, by omega⟩, rfl⟩
  refine (negBlock_apply (iblk0 V c 0 t) (iblk0 V c 2 t) (iblk0 V c 5 t) (iblk0 V c 6 t) (iblk0 V c 8 t) r q).trans ?_
  show _ = G10 V c (((cfg0.win 10).blk t).view.emb (ix2 r q))
  rw [outEmb_10 t r q i0 h0]
  unfold G10
  rw [dense2_apply]
  refine congrArg₂ max ?_ rfl
  refine congrArg₂ (· + ·) (congrArg₂ (· + ·) (Finset.sum_congr rfl fun k _ => ?_) (Finset.sum_congr rfl fun k _ => ?_)) ?_
  · rw [rowRead_2 V c t r k i0 h0, fixRead_5 V c t k q]
  · rw [rowRead_0 V c t r k i0 h0, fixRead_6 V c t k q]
  · exact fixRead_8 V c t 0 q

/-- An index of the array is in point `t`'s block iff each coordinate is in the block's range on its axis. -/
theorem mem_blk_10 (t : Fin cfg0.N) (i : S100000x32.Idx) :
    i ∈ ((cfg0.win 10).blk t).view.set ↔ ∀ a : Fin 2, win0_10.index t a * S5000x32.size a ≤ (i a).val ∧ (i a).val < win0_10.index t a * S5000x32.size a + S5000x32.size a := by
  show i ∈ ((View.whole main_v52_1).slice (win0_10.rect t)).set ↔ _
  rw [View.set_slice_whole, Rect.mem_set_unit]
  exact Iff.rfl

/-- Every row is in some point's block: row `p` in point `p / 5000`'s. -/
theorem cover_10 (i : S100000x32.Idx) :
    ∃ t : Fin cfg0.N, (cfg0.win 10).flush t = true ∧ i ∈ ((cfg0.win 10).blk t).view.set := by
  have hi0 : (i 0).val < 100000 := (i 0).isLt
  have hi1 : (i 1).val < 32 := (i 1).isLt
  refine ⟨⟨(i 0).val / 5000, by show (i 0).val / 5000 < 20; omega⟩, flush0_10 _, ?_⟩
  rw [mem_blk_10]
  obtain ⟨e0, e1⟩ := rowIdx_10 (⟨(i 0).val / 5000, by show (i 0).val / 5000 < 20; omega⟩ : Fin cfg0.N)
  intro a
  match a with
  | ⟨0, _⟩ =>
    show win0_10.index _ (0 : Fin 2) * 5000 ≤ (i 0).val ∧ (i 0).val < win0_10.index _ (0 : Fin 2) * 5000 + 5000
    rw [e0]; show (i 0).val / 5000 * 5000 ≤ (i 0).val ∧ (i 0).val < (i 0).val / 5000 * 5000 + 5000; omega
  | ⟨1, _⟩ =>
    show win0_10.index _ (1 : Fin 2) * 32 ≤ (i 1).val ∧ (i 1).val < win0_10.index _ (1 : Fin 2) * 32 + 32
    rw [e1]; omega

/-- THE ARRAY after the call. -/
theorem final_10 : (dat0 V c).arrAt 10 cfg0.N = G10 V c :=
  (dat0 V c).arrAt_eq_of_cover 10 (G10 V c) (fun t _ => flushed_10 V c t) (cover_10)

end Cert.KernelIdeal.Conv1

end
-- ==== Proof.KRegion1.lean ====
/-
  The second convolution's call, read as values.  Its grid has 20 points; point `t` takes rows `5000·t … 5000·t + 4999`
  of the two halves of layer one and of their four mean messages, six 32×32 weight matrices and two 1×32 bias rows
  whole, and writes the same rows of the two outputs.  Row by row a block's output is
  `max(a₁·W_top + a₂·W_bot + z·W_r + b, 0)`, which only reads that row of the inputs: the 20 blocks are the
  restrictions of one whole-array function and cover every row.
-/
import proofs.«119586_j75204877353504_1_alg».proof.Proof.Gen.KernelIdeal.Frame
import proofs.«119586_j75204877353504_1_alg».proof.Proof.Spec
import proofs.«119586_j75204877353504_1_alg».proof.Proof.LibBlockRows
import Idealize.ShloMosaic.Lib.Pipeline.Value
import Idealize.ShloMosaic.Lib.ValueLayout

set_option maxRecDepth 16384

noncomputable section

open scoped BigOperators

namespace Cert.KernelIdeal.Conv2

open Cert.KernelIdeal Cert.KernelIdeal.Gen Cert.SignedConv
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The printed contraction record is the plain 5000×32 by 32×32 product. -/
theorem dot32 : dot_S5000x32_S32x32_S5000x32_1_0_0_1_n_n = DotDims.plain 5000 32 32 := rfl

/-- The positive half's block at an entry: three products, the bias row, the clamp at zero (the narrowing to bf16
    changes no exact value). -/
theorem posBlock_apply (x0 x2 x3 : Vec Ideal S5000x32 .f32) (x6 x7 x8 : Vec Ideal S32x32 .f32) (x12 : Vec Ideal S1x32 .f32)
    (r : Fin 5000) (q : Fin 32) :
    k1_pay1 (k1_pay3 x0) (k1_pay5 x2) (k1_pay6 x3) (k1_pay9 x6) (k1_pay10 x7) (k1_pay11 x8)
        (constant S5000x32 .f32 0x00000000#32) x12 (ix2 r q)
      = max ((∑ k : Fin 32, x2 (ix2 r k) * x6 (ix2 k q)) + (∑ k : Fin 32, x3 (ix2 r k) * x7 (ix2 k q))
          + (∑ k : Fin 32, x0 (ix2 r k) * x8 (ix2 k q)) + x12 (ix2 (0 : Fin 1) q)) (Ideal.ofBits .f32 0x00000000#32) := by
  unfold k1_pay1 k1_pay3 k1_pay5 k1_pay6 k1_pay9 k1_pay10 k1_pay11
  simp only [maximumf_apply, addf_apply, broadcast_apply, shapeCast_self, dot32]
  rw [Cert.BlockRows.narrowedMatmul_apply, Cert.BlockRows.narrowedMatmul_apply, Cert.BlockRows.narrowedMatmul_apply,
    broadcastTo_1b_ab_apply]
  rfl

/-- The negative half's block at an entry, likewise. -/
theorem negBlock_apply (x1 x4 x5 : Vec Ideal S5000x32 .f32) (x9 x10 x11 : Vec Ideal S32x32 .f32) (x13 : Vec Ideal S1x32 .f32)
    (r : Fin 5000) (q : Fin 32) :
    k1_pay2 (k1_pay4 x1) (k1_pay7 x4) (k1_pay8 x5) (k1_pay12 x9) (k1_pay13 x10) (k1_pay14 x11) x13 (ix2 r q)
      = max ((∑ k : Fin 32, x4 (ix2 r k) * x9 (ix2 k q)) + (∑ k : Fin 32, x5 (ix2 r k) * x10 (ix2 k q))
          + (∑ k : Fin 32, x1 (ix2 r k) * x11 (ix2 k q)) + x13 (ix2 (0 : Fin 1) q)) (Ideal.ofBits .f32 0x00000000#32) := by
  unfold k1_pay2 k1_pay4 k1_pay7 k1_pay8 k1_pay12 k1_pay13 k1_pay14
  simp only [maximumf_apply, addf_apply, broadcast_apply, shapeCast_self, dot32]
  rw [Cert.BlockRows.narrowedMatmul_apply, Cert.BlockRows.narrowedMatmul_apply, Cert.BlockRows.narrowedMatmul_apply,
    broadcastTo_1b_ab_apply]
  rfl

theorem rowIdx_0 : ∀ t : Fin cfg1.N, win1_0.index t (0 : Fin 2) = t.val ∧ win1_0.index t (1 : Fin 2) = 0 :=
  (by decide +kernel : ∀ t : Fin grid1.N, _)
theorem rowIdx_1 : ∀ t : Fin cfg1.N, win1_1.index t (0 : Fin 2) = t.val ∧ win1_1.index t (1 : Fin 2) = 0 :=
  (by decide +kernel : ∀ t : Fin grid1.N, _)
theorem rowIdx_2 : ∀ t : Fin cfg1.N, win1_2.index t (0 : Fin 2) = t.val ∧ win1_2.index t (1 : Fin 2) = 0 :=
  (by decide +kernel : ∀ t : Fin grid1.N, _)
theorem rowIdx_3 : ∀ t : Fin cfg1.N, win1_3.index t (0 : Fin 2) = t.val ∧ win1_3.index t (1 : Fin 2) = 0 :=
  (by decide +kernel : ∀ t : Fin grid1.N, _)
theorem rowIdx_4 : ∀ t : Fin cfg1.N, win1_4.index t (0 : Fin 2) = t.val ∧ win1_4.index t (1 : Fin 2) = 0 :=
  (by decide +kernel : ∀ t : Fin grid1.N, _)
theorem rowIdx_5 : ∀ t : Fin cfg1.N, win1_5.index t (0 : Fin 2) = t.val ∧ win1_5.index t (1 : Fin 2) = 0 :=
  (by decide +kernel : ∀ t : Fin grid1.N, _)
theorem rowIdx_14 : ∀ t : Fin cfg1.N, win1_14.index t (0 : Fin 2) = t.val ∧ win1_14.index t (1 : Fin 2) = 0 :=
  (by decide +kernel : ∀ t : Fin grid1.N, _)
theorem rowIdx_15 : ∀ t : Fin cfg1.N, win1_15.index t (0 : Fin 2) = t.val ∧ win1_15.index t (1 : Fin 2) = 0 :=
  (by decide +kernel : ∀ t : Fin grid1.N, _)
theorem fixIdx_6 : ∀ t : Fin cfg1.N, win1_6.index t (0 : Fin 2) = 0 ∧ win1_6.index t (1 : Fin 2) = 0 :=
  (by decide +kernel : ∀ t : Fin grid1.N, _)
theorem fixIdx_7 : ∀ t : Fin cfg1.N, win1_7.index t (0 : Fin 2) = 0 ∧ win1_7.index t (1 : Fin 2) = 0 :=
  (by decide +kernel : ∀ t : Fin grid1.N, _)
theorem fixIdx_8 : ∀ t : Fin cfg1.N, win1_8.index t (0 : Fin 2) = 0 ∧ win1_8.index t (1 : Fin 2) = 0 :=
  (by decide +kernel : ∀ t : Fin grid1.N, _)
theorem fixIdx_9 : ∀ t : Fin cfg1.N, win1_9.index t (0 : Fin 2) = 0 ∧ win1_9.index t (1 : Fin 2) = 0 :=
  (by decide +kernel : ∀ t : Fin grid1.N, _)
theorem fixIdx_10 : ∀ t : Fin cfg1.N, win1_10.index t (0 : Fin 2) = 0 ∧ win1_10.index t (1 : Fin 2) = 0 :=
  (by decide +kernel : ∀ t : Fin grid1.N, _)
theorem fixIdx_11 : ∀ t : Fin cfg1.N, win1_11.index t (0 : Fin 2) = 0 ∧ win1_11.index t (1 : Fin 2) = 0 :=
  (by decide +kernel : ∀ t : Fin grid1.N, _)
theorem fixIdx_12 : ∀ t : Fin cfg1.N, win1_12.index t (0 : Fin 2) = 0 ∧ win1_12.index t (1 : Fin 2) = 0 :=
  (by decide +kernel : ∀ t : Fin grid1.N, _)
theorem fixIdx_13 : ∀ t : Fin cfg1.N, win1_13.index t (0 : Fin 2) = 0 ∧ win1_13.index t (1 : Fin 2) = 0 :=
  (by decide +kernel : ∀ t : Fin grid1.N, _)

variable (V : (c : Dev nD) → (b : Ref sig .tc) → Buf (Elt Ideal) ((c : Thread nD τ).loc b)) (c : Dev nD)

/-- Row `r` of point `t`'s block of operand 0 is row `5000·t + r` of the operand's array. -/
theorem rowRead_0 (t : Fin cfg1.N) (r : Fin 5000) (k : Fin 32) (i0 : Fin 100000) (h : i0.val = t.val * 5000 + r.val) :
    iblk1 V c 0 t (ix2 r k) = (V c main_v52_0 : S100000x32.Idx → EReal) (ix2 i0 k) := by
  show (V c main_v52_0 : S100000x32.Idx → EReal) (((cfg1.win 0).blk t).view.emb (ix2 r k)) = _
  refine congrArg _ (funext fun a => Fin.ext ?_)
  obtain ⟨e0, e1⟩ := rowIdx_0 t
  match a with
  | ⟨0, _⟩ => show win1_0.index t (0 : Fin 2) * 5000 + 1 * r.val = i0.val; omega
  | ⟨1, _⟩ => show win1_0.index t (1 : Fin 2) * 32 + 1 * k.val = k.val; omega
/-- Row `r` of point `t`'s block of operand 1 is row `5000·t + r` of the operand's array. -/
theorem rowRead_1 (t : Fin cfg1.N) (r : Fin 5000) (k : Fin 32) (i0 : Fin 100000) (h : i0.val = t.val * 5000 + r.val) :
    iblk1 V c 1 t (ix2 r k) = (V c main_v52_1 : S100000x32.Idx → EReal) (ix2 i0 k) := by
  show (V c main_v52_1 : S100000x32.Idx → EReal) (((cfg1.win 1).blk t).view.emb (ix2 r k)) = _
  refine congrArg _ (funext fun a => Fin.ext ?_)
  obtain ⟨e0, e1⟩ := rowIdx_1 t
  match a with
  | ⟨0, _⟩ => show win1_1.index t (0 : Fin 2) * 5000 + 1 * r.val = i0.val; omega
  | ⟨1, _⟩ => show win1_1.index t (1 : Fin 2) * 32 + 1 * k.val = k.val; omega
/-- Row `r` of point `t`'s block of operand 2 is row `5000·t + r` of the operand's array. -/
theorem rowRead_2 (t : Fin cfg1.N) (r : Fin 5000) (k : Fin 32) (i0 : Fin 100000) (h : i0.val = t.val * 5000 + r.val) :
    iblk1 V c 2 t (ix2 r k) = (V c main_v65 : S100000x32.Idx → EReal) (ix2 i0 k) := by
  show (V c main_v65 : S100000x32.Idx → EReal) (((cfg1.win 2).blk t).view.emb (ix2 r k)) = _
  refine congrArg _ (funext fun a => Fin.ext ?_)
  obtain ⟨e0, e1⟩ := rowIdx_2 t
  match a with
  | ⟨0, _⟩ => show win1_2.index t (0 : Fin 2) * 5000 + 1 * r.val = i0.val; omega
  | ⟨1, _⟩ => show win1_2.index t (1 : Fin 2) * 32 + 1 * k.val = k.val; omega
/-- Row `r` of point `t`'s block of operand 3 is row `5000·t + r` of the operand's array. -/
theorem rowRead_3 (t : Fin cfg1.N) (r : Fin 5000) (k : Fin 32) (i0 : Fin 100000) (h : i0.val = t.val * 5000 + r.val) :
    iblk1 V c 3 t (ix2 r k) = (V c main_v78 : S100000x32.Idx → EReal) (ix2 i0 k) := by
  show (V c main_v78 : S100000x32.Idx → EReal) (((cfg1.win 3).blk t).view.emb (ix2 r k)) = _
  refine congrArg _ (funext fun a => Fin.ext ?_)
  obtain ⟨e0, e1⟩ := rowIdx_3 t
  match a with
  | ⟨0, _⟩ => show win1_3.index t (0 : Fin 2) * 5000 + 1 * r.val = i0.val; omega
  | ⟨1, _⟩ => show win1_3.index t (1 : Fin 2) * 32 + 1 * k.val = k.val; omega
/-- Row `r` of point `t`'s block of operand 4 is row `5000·t + r` of the operand's array. -/
theorem rowRead_4 (t : Fin cfg1.N) (r : Fin 5000) (k : Fin 32) (i0 : Fin 100000) (h : i0.val = t.val * 5000 + r.val) :
    iblk1 V c 4 t (ix2 r k) = (V c main_v91 : S100000x32.Idx → EReal) (ix2 i0 k) := by
  show (V c main_v91 : S100000x32.Idx → EReal) (((cfg1.win 4).blk t).view.emb (ix2 r k)) = _
  refine congrArg _ (funext fun a => Fin.ext ?_)
  obtain ⟨e0, e1⟩ := rowIdx_4 t
  match a with
  | ⟨0, _⟩ => show win1_4.index t (0 : Fin 2) * 5000 + 1 * r.val = i0.val; omega
  | ⟨1, _⟩ => show win1_4.index t (1 : Fin 2) * 32 + 1 * k.val = k.val; omega
/-- Row `r` of point `t`'s block of operand 5 is row `5000·t + r` of the operand's array. -/
theorem rowRead_5 (t : Fin cfg1.N) (r : Fin 5000) (k : Fin 32) (i0 : Fin 100000) (h : i0.val = t.val * 5000 + r.val) :
    iblk1 V c 5 t (ix2 r k) = (V c main_v104 : S100000x32.Idx → EReal) (ix2 i0 k) := by
  show (V c main_v104 : S100000x32.Idx → EReal) (((cfg1.win 5).blk t).view.emb (ix2 r k)) = _
  refine congrArg _ (funext fun a => Fin.ext ?_)
  obtain ⟨e0, e1⟩ := rowIdx_5 t
  match a with
  | ⟨0, _⟩ => show win1_5.index t (0 : Fin 2) * 5000 + 1 * r.val = i0.val; omega
  | ⟨1, _⟩ => show win1_5.index t (1 : Fin 2) * 32 + 1 * k.val = k.val; omega
/-- Operand 6 is taken whole at every point. -/
theorem fixRead_6 (t : Fin cfg1.N) (a : Fin 32) (b : Fin 32) :
    iblk1 V c 6 t (ix2 a b) = (V c main_v105 : S32x32.Idx → EReal) (ix2 a b) := by
  show (V c main_v105 : S32x32.Idx → EReal) (((cfg1.win 6).blk t).view.emb (ix2 a b)) = _
  refine congrArg _ (funext fun d => Fin.ext ?_)
  obtain ⟨e0, e1⟩ := fixIdx_6 t
  match d with
  | ⟨0, _⟩ => show win1_6.index t (0 : Fin 2) * 32 + 1 * a.val = a.val; omega
  | ⟨1, _⟩ => show win1_6.index t (1 : Fin 2) * 32 + 1 * b.val = b.val; omega
/-- Operand 7 is taken whole at every point. -/
theorem fixRead_7 (t : Fin cfg1.N) (a : Fin 32) (b : Fin 32) :
    iblk1 V c 7 t (ix2 a b) = (V c main_v106 : S32x32.Idx → EReal) (ix2 a b) := by
  show (V c main_v106 : S32x32.Idx → EReal) (((cfg1.win 7).blk t).view.emb (ix2 a b)) = _
  refine congrArg _ (funext fun d => Fin.ext ?_)
  obtain ⟨e0, e1⟩ := fixIdx_7 t
  match d with
  | ⟨0, _⟩ => show win1_7.index t (0 : Fin 2) * 32 + 1 * a.val = a.val; omega
  | ⟨1, _⟩ => show win1_7.index t (1 : Fin 2) * 32 + 1 * b.val = b.val; omega
/-- Operand 8 is taken whole at every point. -/
theorem fixRead_8 (t : Fin cfg1.N) (a : Fin 32) (b : Fin 32) :
    iblk1 V c 8 t (ix2 a b) = (V c main_arg10 : S32x32.Idx → EReal) (ix2 a b) := by
  show (V c main_arg10 : S32x32.Idx → EReal) (((cfg1.win 8).blk t).view.emb (ix2 a b)) = _
  refine congrArg _ (funext fun d => Fin.ext ?_)
  obtain ⟨e0, e1⟩ := fixIdx_8 t
  match d with
  | ⟨0, _⟩ => show win1_8.index t (0 : Fin 2) * 32 + 1 * a.val = a.val; omega
  | ⟨1, _⟩ => show win1_8.index t (1 : Fin 2) * 32 + 1 * b.val = b.val; omega
/-- Operand 9 is taken whole at every point. -/
theorem fixRead_9 (t : Fin cfg1.N) (a : Fin 32) (b : Fin 32) :
    iblk1 V c 9 t (ix2 a b) = (V c main_v107 : S32x32.Idx → EReal) (ix2 a b) := by
  show (V c main_v107 : S32x32.Idx → EReal) (((cfg1.win 9).blk t).view.emb (ix2 a b)) = _
  refine congrArg _ (funext fun d => Fin.ext ?_)
  obtain ⟨e0, e1⟩ := fixIdx_9 t
  match d with
  | ⟨0, _⟩ => show win1_9.index t (0 : Fin 2) * 32 + 1 * a.val = a.val; omega
  | ⟨1, _⟩ => show win1_9.index t (1 : Fin 2) * 32 + 1 * b.val = b.val; omega
/-- Operand 10 is taken whole at every point. -/
theorem fixRead_10 (t : Fin cfg1.N) (a : Fin 32) (b : Fin 32) :
    iblk1 V c 10 t (ix2 a b) = (V c main_v108 : S32x32.Idx → EReal) (ix2 a b) := by
  show (V c main_v108 : S32x32.Idx → EReal) (((cfg1.win 10).blk t).view.emb (ix2 a b)) = _
  refine congrArg _ (funext fun d => Fin.ext ?_)
  obtain ⟨e0, e1⟩ := fixIdx_10 t
  match d with
  | ⟨0, _⟩ => show win1_10.index t (0 : Fin 2) * 32 + 1 * a.val = a.val; omega
  | ⟨1, _⟩ => show win1_10.index t (1 : Fin 2) * 32 + 1 * b.val = b.val; omega
/-- Operand 11 is taken whole at every point. -/
theorem fixRead_11 (t : Fin cfg1.N) (a : Fin 32) (b : Fin 32) :
    iblk1 V c 11 t (ix2 a b) = (V c main_arg13 : S32x32.Idx → EReal) (ix2 a b) := by
  show (V c main_arg13 : S32x32.Idx → EReal) (((cfg1.win 11).blk t).view.emb (ix2 a b)) = _
  refine congrArg _ (funext fun d => Fin.ext ?_)
  obtain ⟨e0, e1⟩ := fixIdx_11 t
  match d with
  | ⟨0, _⟩ => show win1_11.index t (0 : Fin 2) * 32 + 1 * a.val = a.val; omega
  | ⟨1, _⟩ => show win1_11.index t (1 : Fin 2) * 32 + 1 * b.val = b.val; omega
/-- Operand 12 is taken whole at every point. -/
theorem fixRead_12 (t : Fin cfg1.N) (a : Fin 1) (b : Fin 32) :
    iblk1 V c 12 t (ix2 a b) = (V c main_v109 : S1x32.Idx → EReal) (ix2 a b) := by
  show (V c main_v109 : S1x32.Idx → EReal) (((cfg1.win 12).blk t).view.emb (ix2 a b)) = _
  refine congrArg _ (funext fun d => Fin.ext ?_)
  obtain ⟨e0, e1⟩ := fixIdx_12 t
  match d with
  | ⟨0, _⟩ => show win1_12.index t (0 : Fin 2) * 1 + 1 * a.val = a.val; omega
  | ⟨1, _⟩ => show win1_12.index t (1 : Fin 2) * 32 + 1 * b.val = b.val; omega
/-- Operand 13 is taken whole at every point. -/
theorem fixRead_13 (t : Fin cfg1.N) (a : Fin 1) (b : Fin 32) :
    iblk1 V c 13 t (ix2 a b) = (V c main_v110 : S1x32.Idx → EReal) (ix2 a b) := by
  show (V c main_v110 : S1x32.Idx → EReal) (((cfg1.win 13).blk t).view.emb (ix2 a b)) = _
  refine congrArg _ (funext fun d => Fin.ext ?_)
  obtain ⟨e0, e1⟩ := fixIdx_13 t
  match d with
  | ⟨0, _⟩ => show win1_13.index t (0 : Fin 2) * 1 + 1 * a.val = a.val; omega
  | ⟨1, _⟩ => show win1_13.index t (1 : Fin 2) * 32 + 1 * b.val = b.val; omega

/-- What output 14's array ends holding: the positive half, `max(p1·W_top + p2·W_bot + zp·W_r + b, 0)` of the operands' arrays as the call finds them. -/
def G14 : S100000x32.Idx → EReal :=
  dense3 (n := 100000) (k := 32) (c := 32) (V c main_v65 : S100000x32.Idx → EReal) (V c main_v105 : S32x32.Idx → EReal)
    (V c main_v78 : S100000x32.Idx → EReal) (V c main_v106 : S32x32.Idx → EReal)
    (V c main_v52_0 : S100000x32.Idx → EReal) (V c main_arg10 : S32x32.Idx → EReal) (V c main_v109 : S1x32.Idx → EReal)

/-- Entry `(r, q)` of point `t`'s block of output 14 is entry `(5000·t + r, q)` of the array. -/
theorem outEmb_14 (t : Fin cfg1.N) (r : Fin 5000) (q : Fin 32) (i0 : Fin 100000) (h : i0.val = t.val * 5000 + r.val) :
    ((cfg1.win 14).blk t).view.emb (ix2 r q) = (ix2 i0 q : S100000x32.Idx) := by
  refine funext fun a => Fin.ext ?_
  obtain ⟨e0, e1⟩ := rowIdx_14 t
  match a with
  | ⟨0, _⟩ => show win1_14.index t (0 : Fin 2) * 5000 + 1 * r.val = i0.val; omega
  | ⟨1, _⟩ => show win1_14.index t (1 : Fin 2) * 32 + 1 * q.val = q.val; omega

/-- WHAT POINT `t` WRITES BACK is block `t` of that function. -/
theorem flushed_14 (t : Fin cfg1.N) :
    (dat1 V c).flushed 14 t = ((cfg1.win 14).blk t).view.read (Elt Ideal) (G14 V c) := by
  show (cfg1.win 14).cut (grid1.coords t) ((dat1 V c).after 14 t) = _
  rw [after1_14]
  unfold out1_14
  rw [View.canon_unit_zero hz]
  simp only [View.ld_unit_zero (S := S5000x32) hz, View.ld_unit_zero (S := S32x32) hz, View.ld_unit_zero (S := S1x32) hz]
  funext j
  obtain ⟨r, q, rfl⟩ : ∃ (r : Fin 5000) (q : Fin 32), j = ix2 r q := ⟨j 0, j 1, eq_ix2 j⟩
  have ht : t.val < 20 := t.isLt
  have hr : r.val < 5000 := r.isLt
  obtain ⟨i0, h0⟩ : ∃ i0 : Fin 100000, i0.val = t.val * 5000 + r.val := ⟨⟨t.val * 5000 + r.val, by omega⟩, rfl⟩
  refine (posBlock_apply (iblk1 V c 0 t) (iblk1 V c 2 t) (iblk1 V c 3 t) (iblk1 V c 6 t) (iblk1 V c 7 t) (iblk1 V c 8 t) (iblk1 V c 12 t) r q).trans ?_
  show _ = G14 V c (((cfg1.win 14).blk t).view.emb (ix2 r q))
  rw [outEmb_14 t r q i0 h0]
  unfold G14
  rw [dense3_apply]
  refine congrArg₂ max ?_ rfl
  refine congrArg₂ (· + ·) (congrArg₂ (· + ·) (congrArg₂ (· + ·) (Finset.sum_congr rfl fun k _ => ?_) (Finset.sum_congr rfl fun k _ => ?_)) (Finset.sum_congr rfl fun k _ => ?_)) ?_
  · rw [rowRead_2 V c t r k i0 h0, fixRead_6 V c t k q]
  · rw [rowRead_3 V c t r k i0 h0, fixRead_7 V c t k q]
  · rw [rowRead_0 V c t r k i0 h0, fixRead_8 V c t k q]
  · exact fixRead_12 V c t 0 q

/-- An index of the array is in point `t`'s block iff each coordinate is in the block's range on its axis. -/
theorem mem_blk_14 (t : Fin cfg1.N) (i : S100000x32.Idx) :
    i ∈ ((cfg1.win 14).blk t).view.set ↔ ∀ a : Fin 2, win1_14.index t a * S5000x32.size a ≤ (i a).val ∧ (i a).val < win1_14.index t a * S5000x32.size a + S5000x32.size a := by
  show i ∈ ((View.whole main_v111_0).slice (win1_14.rect t)).set ↔ _
  rw [View.set_slice_whole, Rect.mem_set_unit]
  exact Iff.rfl

/-- Every row is in some point's block: row `p` in point `p / 5000`'s. -/
theorem cover_14 (i : S100000x32.Idx) :
    ∃ t : Fin cfg1.N, (cfg1.win 14).flush t = true ∧ i ∈ ((cfg1.win 14).blk t).view.set := by
  have hi0 : (i 0).val < 100000 := (i 0).isLt
  have hi1 : (i 1).val < 32 := (i 1).isLt
  refine ⟨⟨(i 0).val / 5000, by show (i 0).val / 5000 < 20; omega⟩, flush1_14 _, ?_⟩
  rw [mem_blk_14]
  obtain ⟨e0, e1⟩ := rowIdx_14 (⟨(i 0).val / 5000, by show (i 0).val / 5000 < 20; omega⟩ : Fin cfg1.N)
  intro a
  match a with
  | ⟨0, _⟩ =>
    show win1_14.index _ (0 : Fin 2) * 5000 ≤ (i 0).val ∧ (i 0).val < win1_14.index _ (0 : Fin 2) * 5000 + 5000
    rw [e0]; show (i 0).val / 5000 * 5000 ≤ (i 0).val ∧ (i 0).val < (i 0).val / 5000 * 5000 + 5000; omega
  | ⟨1, _⟩ =>
    show win1_14.index _ (1 : Fin 2) * 32 ≤ (i 1).val ∧ (i 1).val < win1_14.index _ (1 : Fin 2) * 32 + 32
    rw [e1]; omega

/-- THE ARRAY after the call. -/
theorem final_14 : (dat1 V c).arrAt 14 cfg1.N = G14 V c :=
  (dat1 V c).arrAt_eq_of_cover 14 (G14 V c) (fun t _ => flushed_14 V c t) (cover_14)

/-- What output 15's array ends holding: the negative half, `max(n1·W_top + n2·W_bot + zn·W_r + b, 0)`. -/
def G15 : S100000x32.Idx → EReal :=
  dense3 (n := 100000) (k := 32) (c := 32) (V c main_v91 : S100000x32.Idx → EReal) (V c main_v107 : S32x32.Idx → EReal)
    (V c main_v104 : S100000x32.Idx → EReal) (V c main_v108 : S32x32.Idx → EReal)
    (V c main_v52_1 : S100000x32.Idx → EReal) (V c main_arg13 : S32x32.Idx → EReal) (V c main_v110 : S1x32.Idx → EReal)

/-- Entry `(r, q)` of point `t`'s block of output 15 is entry `(5000·t + r, q)` of the array. -/
theorem outEmb_15 (t : Fin cfg1.N) (r : Fin 5000) (q : Fin 32) (i0 : Fin 100000) (h : i0.val = t.val * 5000 + r.val) :
    ((cfg1.win 15).blk t).view.emb (ix2 r q) = (ix2 i0 q : S100000x32.Idx) := by
  refine funext fun a => Fin.ext ?_
  obtain ⟨e0, e1⟩ := rowIdx_15 t
  match a with
  | ⟨0, _⟩ => show win1_15.index t (0 : Fin 2) * 5000 + 1 * r.val = i0.val; omega
  | ⟨1, _⟩ => show win1_15.index t (1 : Fin 2) * 32 + 1 * q.val = q.val; omega

/-- WHAT POINT `t` WRITES BACK is block `t` of that function. -/
theorem flushed_15 (t : Fin cfg1.N) :
    (dat1 V c).flushed 15 t = ((cfg1.win 15).blk t).view.read (Elt Ideal) (G15 V c) := by
  show (cfg1.win 15).cut (grid1.coords t) ((dat1 V c).after 15 t) = _
  rw [after1_15]
  unfold out1_15
  rw [View.canon_unit_zero hz]
  simp only [View.ld_unit_zero (S := S5000x32) hz, View.ld_unit_zero (S := S32x32) hz, View.ld_unit_zero (S := S1x32) hz]
  funext j
  obtain ⟨r, q, rfl⟩ : ∃ (r : Fin 5000) (q : Fin 32), j = ix2 r q := ⟨j 0, j 1, eq_ix2 j⟩
  have ht : t.val < 20 := t.isLt
  have hr : r.val < 5000 := r.isLt
  obtain ⟨i0, h0⟩ : ∃ i0 : Fin 100000, i0.val = t.val * 5000 + r.val := ⟨⟨t.val * 5000 + r.val, by omega⟩, rfl⟩
  refine (negBlock_apply (iblk1 V c 1 t) (iblk1 V c 4 t) (iblk1 V c 5 t) (iblk1 V c 9 t) (iblk1 V c 10 t) (iblk1 V c 11 t) (iblk1 V c 13 t) r q).trans ?_
  show _ = G15 V c (((cfg1.win 15).blk t).view.emb (ix2 r q))
  rw [outEmb_15 t r q i0 h0]
  unfold G15
  rw [dense3_apply]
  refine congrArg₂ max ?_ rfl
  refine congrArg₂ (· + ·) (congrArg₂ (· + ·) (congrArg₂ (· + ·) (Finset.sum_congr rfl fun k _ => ?_) (Finset.sum_congr rfl fun k _ => ?_)) (Finset.sum_congr rfl fun k _ => ?_)) ?_
  · rw [rowRead_4 V c t r k i0 h0, fixRead_9 V c t k q]
  · rw [rowRead_5 V c t r k i0 h0, fixRead_10 V c t k q]
  · rw [rowRead_1 V c t r k i0 h0, fixRead_11 V c t k q]
  · exact fixRead_13 V c t 0 q

/-- An index of the array is in point `t`'s block iff each coordinate is in the block's range on its axis. -/
theorem mem_blk_15 (t : Fin cfg1.N) (i : S100000x32.Idx) :
    i ∈ ((cfg1.win 15).blk t).view.set ↔ ∀ a : Fin 2, win1_15.index t a * S5000x32.size a ≤ (i a).val ∧ (i a).val < win1_15.index t a * S5000x32.size a + S5000x32.size a := by
  show i ∈ ((View.whole main_v111_1).slice (win1_15.rect t)).set ↔ _
  rw [View.set_slice_whole, Rect.mem_set_unit]
  exact Iff.rfl

/-- Every row is in some point's block: row `p` in point `p / 5000`'s. -/
theorem cover_15 (i : S100000x32.Idx) :
    ∃ t : Fin cfg1.N, (cfg1.win 15).flush t = true ∧ i ∈ ((cfg1.win 15).blk t).view.set := by
  have hi0 : (i 0).val < 100000 := (i 0).isLt
  have hi1 : (i 1).val < 32 := (i 1).isLt
  refine ⟨⟨(i 0).val / 5000, by show (i 0).val / 5000 < 20; omega⟩, flush1_15 _, ?_⟩
  rw [mem_blk_15]
  obtain ⟨e0, e1⟩ := rowIdx_15 (⟨(i 0).val / 5000, by show (i 0).val / 5000 < 20; omega⟩ : Fin cfg1.N)
  intro a
  match a with
  | ⟨0, _⟩ =>
    show win1_15.index _ (0 : Fin 2) * 5000 ≤ (i 0).val ∧ (i 0).val < win1_15.index _ (0 : Fin 2) * 5000 + 5000
    rw [e0]; show (i 0).val / 5000 * 5000 ≤ (i 0).val ∧ (i 0).val < (i 0).val / 5000 * 5000 + 5000; omega
  | ⟨1, _⟩ =>
    show win1_15.index _ (1 : Fin 2) * 32 ≤ (i 1).val ∧ (i 1).val < win1_15.index _ (1 : Fin 2) * 32 + 32
    rw [e1]; omega

/-- THE ARRAY after the call. -/
theorem final_15 : (dat1 V c).arrAt 15 cfg1.N = G15 V c :=
  (dat1 V c).arrAt_eq_of_cover 15 (G15 V c) (fun t _ => flushed_15 V c t) (cover_15)

end Cert.KernelIdeal.Conv2

end
-- ==== Proof.KValue.lean ====
/-
  The kernel program's result buffer, read through the five segments of @main back to the arguments.

  The last host operation joins the second call's two outputs.  Each output array of a call is the whole-array
  function of what the call finds in its operands (the blocks cover every row); what the second call finds is the
  host operations' terms of what the first call left; what the first call finds is the host operations' terms of the
  arguments.  Composed, the result is `kernelOut` of the fifteen argument arrays.
-/
import proofs.«119586_j75204877353504_1_alg».proof.Proof.Gen.KernelIdeal.Frame
import proofs.«119586_j75204877353504_1_alg».proof.Proof.KOut
import proofs.«119586_j75204877353504_1_alg».proof.Proof.KHost0
import proofs.«119586_j75204877353504_1_alg».proof.Proof.KHost1
import proofs.«119586_j75204877353504_1_alg».proof.Proof.KRegion0
import proofs.«119586_j75204877353504_1_alg».proof.Proof.KRegion1
import Idealize.ShloMosaic.Lib.StableHlo.Run

set_option maxRecDepth 16384

noncomputable section

namespace Cert.KernelIdeal.Result

open Cert.KernelIdeal Cert.KernelIdeal.Gen Cert.KernelIdeal.Terms
open Idealize.ShloMosaic Idealize.ShloMosaic.TcCoe Idealize.SL.Sem Idealize.ShloMosaic.StableHlo
open Cert.SignedConv

variable (m : (ℓ : Loc nD τ sig) → Buf (Elt Ideal) ℓ) (ρ : Dev nD → PrngReg) (c : Dev nD)

/-! ## Buffers the first call does not touch keep what the host operations before it wrote -/

theorem kept_srcP : W2 (F := Ideal) m ρ c (Proc.devRef .tc main_v1) = srcOf (m ((c : Thread nD τ).loc main_arg1)) :=
  (W2_of_ne m ρ c main_v1 (by decide)).trans (Entry0.at_srcP m ρ c)

theorem kept_dstP : W2 (F := Ideal) m ρ c (Proc.devRef .tc main_v3) = dstOf (m ((c : Thread nD τ).loc main_arg1)) :=
  (W2_of_ne m ρ c main_v3 (by decide)).trans (Entry0.at_dstP m ρ c)

theorem kept_srcN : W2 (F := Ideal) m ρ c (Proc.devRef .tc main_v5) = srcOf (m ((c : Thread nD τ).loc main_arg2)) :=
  (W2_of_ne m ρ c main_v5 (by decide)).trans (Entry0.at_srcN m ρ c)

theorem kept_dstN : W2 (F := Ideal) m ρ c (Proc.devRef .tc main_v7) = dstOf (m ((c : Thread nD τ).loc main_arg2)) :=
  (W2_of_ne m ρ c main_v7 (by decide)).trans (Entry0.at_dstN m ρ c)

theorem kept_recipP : W2 (F := Ideal) m ρ c (Proc.devRef .tc main_v15) = recip (dstOf (m ((c : Thread nD τ).loc main_arg1))) :=
  (W2_of_ne m ρ c main_v15 (by decide)).trans (Entry0.at_recipP m ρ c)

theorem kept_recipN : W2 (F := Ideal) m ρ c (Proc.devRef .tc main_v23) = recip (dstOf (m ((c : Thread nD τ).loc main_arg2))) :=
  (W2_of_ne m ρ c main_v23 (by decide)).trans (Entry0.at_recipN m ρ c)

theorem kept_arg9 : W2 (F := Ideal) m ρ c (Proc.devRef .tc main_arg9) = (m ((c : Thread nD τ).loc main_arg9)) :=
  (W2_of_ne m ρ c main_arg9 (by decide)).trans (Entry0.at_arg9 m ρ c)

theorem kept_arg10 : W2 (F := Ideal) m ρ c (Proc.devRef .tc main_arg10) = (m ((c : Thread nD τ).loc main_arg10)) :=
  (W2_of_ne m ρ c main_arg10 (by decide)).trans (Entry0.at_arg10 m ρ c)

theorem kept_arg11 : W2 (F := Ideal) m ρ c (Proc.devRef .tc main_arg11) = (m ((c : Thread nD τ).loc main_arg11)) :=
  (W2_of_ne m ρ c main_arg11 (by decide)).trans (Entry0.at_arg11 m ρ c)

theorem kept_arg12 : W2 (F := Ideal) m ρ c (Proc.devRef .tc main_arg12) = (m ((c : Thread nD τ).loc main_arg12)) :=
  (W2_of_ne m ρ c main_arg12 (by decide)).trans (Entry0.at_arg12 m ρ c)

theorem kept_arg13 : W2 (F := Ideal) m ρ c (Proc.devRef .tc main_arg13) = (m ((c : Thread nD τ).loc main_arg13)) :=
  (W2_of_ne m ρ c main_arg13 (by decide)).trans (Entry0.at_arg13 m ρ c)

theorem kept_arg14 : W2 (F := Ideal) m ρ c (Proc.devRef .tc main_arg14) = (m ((c : Thread nD τ).loc main_arg14)) :=
  (W2_of_ne m ρ c main_arg14 (by decide)).trans (Entry0.at_arg14 m ρ c)

/-! ## Layer one: the first call's two outputs -/

/-- The positive half of layer one. -/
theorem zp_eq : (W2 (F := Ideal) m ρ c (Proc.devRef .tc main_v52_0) : Feat32) = (layer1 (m ((c : Thread nD τ).loc main_arg0)) (m ((c : Thread nD τ).loc main_arg1)) (m ((c : Thread nD τ).loc main_arg3)) (m ((c : Thread nD τ).loc main_arg4)) (m ((c : Thread nD τ).loc main_arg5))) := by
  refine ((W2_arr m ρ c 9).trans (Conv1.final_9 (V1 m ρ) c)).trans ?_
  unfold Conv1.G9 layer1
  dsimp only [V1]
  rw [Entry0.at_aggP m ρ c, Entry0.at_arg3 m ρ c, Entry0.at_arg0 m ρ c, Entry0.at_arg4 m ρ c, Entry0.at_b1p m ρ c]
  rfl

/-- The negative half of layer one. -/
theorem zn_eq : (W2 (F := Ideal) m ρ c (Proc.devRef .tc main_v52_1) : Feat32) = (layer1 (m ((c : Thread nD τ).loc main_arg0)) (m ((c : Thread nD τ).loc main_arg2)) (m ((c : Thread nD τ).loc main_arg6)) (m ((c : Thread nD τ).loc main_arg7)) (m ((c : Thread nD τ).loc main_arg8))) := by
  refine ((W2_arr m ρ c 10).trans (Conv1.final_10 (V1 m ρ) c)).trans ?_
  unfold Conv1.G10 layer1
  dsimp only [V1]
  rw [Entry0.at_aggN m ρ c, Entry0.at_arg6 m ρ c, Entry0.at_arg0 m ρ c, Entry0.at_arg7 m ρ c, Entry0.at_b1n m ρ c]
  rfl

/-! ## Layer two: the second call's two outputs -/

theorem zp2_eq : (W4 (F := Ideal) m ρ c (Proc.devRef .tc main_v111_0) : Feat32) = layer2 (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (layer1 (m ((c : Thread nD τ).loc main_arg0)) (m ((c : Thread nD τ).loc main_arg2)) (m ((c : Thread nD τ).loc main_arg6)) (m ((c : Thread nD τ).loc main_arg7)) (m ((c : Thread nD τ).loc main_arg8))) (m ((c : Thread nD τ).loc main_arg2)) (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg9)) (m ((c : Thread nD τ).loc main_arg10)) (m ((c : Thread nD τ).loc main_arg11)) := by
  refine ((W4_arr m ρ c 14).trans (Conv2.final_14 (V3 m ρ) c)).trans ?_
  unfold Conv2.G14 layer2
  dsimp only [V3]
  rw [Entry1.at_p1 m ρ c, Entry1.at_topP m ρ c, Entry1.at_p2 m ρ c, Entry1.at_botP m ρ c, Entry1.at_v52_0 m ρ c,
    Entry1.at_arg10 m ρ c, Entry1.at_b2p m ρ c]
  rw [zp_eq m ρ c, zn_eq m ρ c, kept_srcP m ρ c, kept_dstP m ρ c, kept_srcN m ρ c, kept_dstN m ρ c, kept_recipP m ρ c,
    kept_recipN m ρ c, kept_arg9 m ρ c, kept_arg10 m ρ c, kept_arg11 m ρ c]

theorem zn2_eq : (W4 (F := Ideal) m ρ c (Proc.devRef .tc main_v111_1) : Feat32) = layer2 (layer1 (m ((c : Thread nD τ).loc main_arg0)) (m ((c : Thread nD τ).loc main_arg2)) (m ((c : Thread nD τ).loc main_arg6)) (m ((c : Thread nD τ).loc main_arg7)) (m ((c : Thread nD τ).loc main_arg8))) (m ((c : Thread nD τ).loc main_arg1)) (layer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg2)) (layer1 (m ((c : Thread nD τ).loc main_arg0)) (m ((c : Thread nD τ).loc main_arg2)) (m ((c : Thread nD τ).loc main_arg6)) (m ((c : Thread nD τ).loc main_arg7)) (m ((c : Thread nD τ).loc main_arg8))) (m ((c : Thread nD τ).loc main_arg12)) (m ((c : Thread nD τ).loc main_arg13)) (m ((c : Thread nD τ).loc main_arg14)) := by
  refine ((W4_arr m ρ c 15).trans (Conv2.final_15 (V3 m ρ) c)).trans ?_
  unfold Conv2.G15 layer2
  dsimp only [V3]
  rw [Entry1.at_n1 m ρ c, Entry1.at_topN m ρ c, Entry1.at_n2 m ρ c, Entry1.at_botN m ρ c, Entry1.at_v52_1 m ρ c,
    Entry1.at_arg13 m ρ c, Entry1.at_b2n m ρ c]
  rw [zp_eq m ρ c, zn_eq m ρ c, kept_srcP m ρ c, kept_dstP m ρ c, kept_srcN m ρ c, kept_dstN m ρ c, kept_recipP m ρ c,
    kept_recipN m ρ c, kept_arg12 m ρ c, kept_arg13 m ρ c, kept_arg14 m ρ c]

/-! ## The result -/

/-- THE RESULT BUFFER at the last boundary is `kernelOut` of the arguments' launch contents. -/
theorem result : (W5 (F := Ideal) m ρ c (Proc.devRef .tc main_v112) : Feat64)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h : (W5 (F := Ideal) m ρ c (Proc.devRef .tc main_v112) : Feat64)
      = concatenate S100000x64 1 [⟨S100000x32, (W4 (F := Ideal) m ρ c (Proc.devRef .tc main_v111_0) : Feat32)⟩,
          ⟨S100000x32, (W4 (F := Ideal) m ρ c (Proc.devRef .tc main_v111_1) : Feat32)⟩]
          concatenates_S100000x32_S100000x32_S100000x64_d1 := by
    dsimp only [W5, hostOps2]
    after_results
  rw [h, zp2_eq m ρ c, zn2_eq m ρ c]
  rfl

end Cert.KernelIdeal.Result

end
-- ==== Proof.RStages.lean ====
/-
  The reference program stage by stage: each function is the value one host operation writes, as a function of
  the argument arrays of the program it depends on, in program order.

  The program is a two-layer signed graph convolution.  Per layer and per edge list: the two rows of the edge list
  (sources, destinations), a negative source index wrapped by the number of nodes, the sources' feature rows
  gathered and added up at the destinations, the number of arriving edges counted the same way, clamped below at one,
  and the quotient of the two (the mean message).  Then the dense halves: products with the weight matrices, the
  bias as a row repeated down the rows, the two halves' columns joined, and the clamp below at zero.
-/
import proofs.«119586_j75204877353504_1_alg».proof.Proof.Gen.ReferenceIdeal
import Idealize.ShloMosaic.Lib.Pipeline.Value
import Idealize.ShloMosaic.Lib.ValueIdx
import Idealize.ShloMosaic.PureOps.Ideal.Laws

noncomputable section

namespace Cert.RefStages

open Cert.ReferenceIdeal Cert.ReferenceIdeal.Gen Idealize.ShloMosaic

variable {F : FTy → Type} [FloatOps F]

def val_main_v0 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v1 (x1 : (⟨S2x1600000, .i32⟩ : BufTy).Contents (Elt F)) : (⟨S1600000, .i32⟩ : BufTy).Contents (Elt F) :=
  shapeCast _ (val_main_v0 (F := F) x1) shapeCasts_S1x1600000_S1600000

def val_main_v2 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v3 (x1 : (⟨S2x1600000, .i32⟩ : BufTy).Contents (Elt F)) : (⟨S1600000, .i32⟩ : BufTy).Contents (Elt F) :=
  shapeCast _ (val_main_v2 (F := F) x1) shapeCasts_S1x1600000_S1600000

def val_main_c : (⟨S_, .i32⟩ : BufTy).Contents (Elt F) :=
  constantI S_ 32 0#32

def val_main_v4 : (⟨S1600000, .i32⟩ : BufTy).Contents (Elt F) :=
  broadcastInDim S1600000 ![] bcast_S_S1600000 (val_main_c (F := F))

def val_main_v5 (x1 : (⟨S2x1600000, .i32⟩ : BufTy).Contents (Elt F)) : (⟨S1600000, .i1⟩ : BufTy).Contents (Elt F) :=
  cmpi .slt (val_main_v1 (F := F) x1) (val_main_v4 (F := F))

def val_main_c_0 : (⟨S_, .i32⟩ : BufTy).Contents (Elt F) :=
  constantI S_ 32 100000#32

def val_main_v6 : (⟨S1600000, .i32⟩ : BufTy).Contents (Elt F) :=
  broadcastInDim S1600000 ![] bcast_S_S1600000 (val_main_c_0 (F := F))

def val_main_v7 (x1 : (⟨S2x1600000, .i32⟩ : BufTy).Contents (Elt F)) : (⟨S1600000, .i32⟩ : BufTy).Contents (Elt F) :=
  addi (val_main_v1 (F := F) x1) (val_main_v6 (F := F))

def val_main_v8 (x1 : (⟨S2x1600000, .i32⟩ : BufTy).Contents (Elt F)) : (⟨S1600000, .i32⟩ : BufTy).Contents (Elt F) :=
  select (val_main_v5 (F := F) x1) (val_main_v7 (F := F) x1) (val_main_v1 (F := F) x1)

def val_main_v9 (x1 : (⟨S2x1600000, .i32⟩ : BufTy).Contents (Elt F)) : (⟨S1600000x1, .i32⟩ : BufTy).Contents (Elt F) :=
  broadcastInDim S1600000x1 ![0] bcast_S1600000_S1600000x1_0 (val_main_v8 (F := F) x1)

def val_main_v10 (x0 : (⟨S100000x64, .f32⟩ : BufTy).Contents (Elt F)) (x1 : (⟨S2x1600000, .i32⟩ : BufTy).Contents (Elt F)) : (⟨S1600000x64, .f32⟩ : BufTy).Contents (Elt F) :=
  Host.gather gather_S100000x64_S1600000x1_S1600000x64_1_0_n_n_0_1_164 (x0) (val_main_v9 (F := F) x1)

def val_main_cst : (⟨S_, .f32⟩ : BufTy).Contents (Elt F) :=
  constant S_ .f32 0x00000000#32

def val_main_v11 : (⟨S100000x64, .f32⟩ : BufTy).Contents (Elt F) :=
  broadcastInDim S100000x64 ![] bcast_S_S100000x64 (val_main_cst (F := F))

def val_main_v12 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v13 (x0 : (⟨S100000x64, .f32⟩ : BufTy).Contents (Elt F)) (x1 : (⟨S2x1600000, .i32⟩ : BufTy).Contents (Elt F)) : (⟨S100000x64, .f32⟩ : BufTy).Contents (Elt F) :=
  Host.scatterAdd scatter_S100000x64_S1600000x1_S1600000x64_1_0_0_1 (val_main_v11 (F := F)) (val_main_v12 (F := F) x1) (val_main_v10 (F := F) x0 x1)

def val_main_cst_1 : (⟨S_, .f32⟩ : BufTy).Contents (Elt F) :=
  constant S_ .f32 0x3F800000#32

def val_main_v14 : (⟨S1600000, .f32⟩ : BufTy).Contents (Elt F) :=
  broadcastInDim S1600000 ![] bcast_S_S1600000 (val_main_cst_1 (F := F))

def val_main_cst_2 : (⟨S_, .f32⟩ : BufTy).Contents (Elt F) :=
  constant S_ .f32 0x00000000#32

def val_main_v15 : (⟨S100000, .f32⟩ : BufTy).Contents (Elt F) :=
  broadcastInDim S100000 ![] bcast_S_S100000 (val_main_cst_2 (F := F))

def val_main_v16 (x1 : (⟨S2x1600000, .i32⟩ : BufTy).Contents (Elt F)) : (⟨S1600000x1, .i32⟩ : BufTy).Contents (Elt F) :=
  broadcastInDim S1600000x1 ![0] bcast_S1600000_S1600000x1_0 (val_main_v3 (F := F) x1)

def val_main_v17 (x1 : (⟨S2x1600000, .i32⟩ : BufTy).Contents (Elt F)) : (⟨S100000, .f32⟩ : BufTy).Contents (Elt F) :=
  Host.scatterAdd scatter_S100000_S1600000x1_S1600000_n_0_0_1 (val_main_v15 (F := F)) (val_main_v16 (F := F) x1) (val_main_v14 (F := F))

def val_main_cst_3 : (⟨S_, .f32⟩ : BufTy).Contents (Elt F) :=
  constant S_ .f32 0x3F800000#32

def val_main_v18 : (⟨S100000, .f32⟩ : BufTy).Contents (Elt F) :=
  broadcastInDim S100000 ![] bcast_S_S100000 (val_main_cst_3 (F := F))

def val_main_v19 (x1 : (⟨S2x1600000, .i32⟩ : BufTy).Contents (Elt F)) : (⟨S100000, .f32⟩ : BufTy).Contents (Elt F) :=
  maximumf (val_main_v17 (F := F) x1) (val_main_v18 (F := F))

def val_main_v20 (x1 : (⟨S2x1600000, .i32⟩ : BufTy).Contents (Elt F)) : (⟨S100000x1, .f32⟩ : BufTy).Contents (Elt F) :=
  broadcastInDim S100000x1 ![0] bcast_S100000_S100000x1_0 (val_main_v19 (F := F) x1)

def val_main_v21 (x1 : (⟨S2x1600000, .i32⟩ : BufTy).Contents (Elt F)) : (⟨S100000x64, .f32⟩ : BufTy).Contents (Elt F) :=
  broadcastInDim S100000x64 ![0, 1] bcast_S100000x1_S100000x64_0_1 (val_main_v20 (F := F) x1)

def val_main_v22 (x0 : (⟨S100000x64, .f32⟩ : BufTy).Contents (Elt F)) (x1 : (⟨S2x1600000, .i32⟩ : BufTy).Contents (Elt F)) : (⟨S100000x64, .f32⟩ : BufTy).Contents (Elt F) :=
  Host.divf (val_main_v13 (F := F) x0 x1) (val_main_v21 (F := F) x1)

def val_main_v23 (x2 : (⟨S2x1600000, .i32⟩ : BufTy).Contents (Elt F)) : (⟨S1x1600000, .i32⟩ : BufTy).Contents (Elt F) :=
  extractStridedSlice S1x1600000 ![0, 0] (x2) slices_S2x1600000_S1x1600000_0_0

def val_main_v24 (x2 : (⟨S2x1600000, .i32⟩ : BufTy).Contents (Elt F)) : (⟨S1600000, .i32⟩ : BufTy).Contents (Elt F) :=
  shapeCast _ (val_main_v23 (F := F) x2) shapeCasts_S1x1600000_S1600000

def val_main_v25 (x2 : (⟨S2x1600000, .i32⟩ : BufTy).Contents (Elt F)) : (⟨S1x1600000, .i32⟩ : BufTy).Contents (Elt F) :=
  extractStridedSlice S1x1600000 ![1, 0] (x2) slices_S2x1600000_S1x1600000_1_0

def val_main_v26 (x2 : (⟨S2x1600000, .i32⟩ : BufTy).Contents (Elt F)) : (⟨S1600000, .i32⟩ : BufTy).Contents (Elt F) :=
  shapeCast _ (val_main_v25 (F := F) x2) shapeCasts_S1x1600000_S1600000

def val_main_c_4 : (⟨S_, .i32⟩ : BufTy).Contents (Elt F) :=
  constantI S_ 32 0#32

def val_main_v27 : (⟨S1600000, .i32⟩ : BufTy).Contents (Elt F) :=
  broadcastInDim S1600000 ![] bcast_S_S1600000 (val_main_c_4 (F := F))

def val_main_v28 (x2 : (⟨S2x1600000, .i32⟩ : BufTy).Contents (Elt F)) : (⟨S1600000, .i1⟩ : BufTy).Contents (Elt F) :=
  cmpi .slt (val_main_v24 (F := F) x2) (val_main_v27 (F := F))

def val_main_c_5 : (⟨S_, .i32⟩ : BufTy).Contents (Elt F) :=
  constantI S_ 32 100000#32

def val_main_v29 : (⟨S1600000, .i32⟩ : BufTy).Contents (Elt F) :=
  broadcastInDim S1600000 ![] bcast_S_S1600000 (val_main_c_5 (F := F))

def val_main_v30 (x2 : (⟨S2x1600000, .i32⟩ : BufTy).Contents (Elt F)) : (⟨S1600000, .i32⟩ : BufTy).Contents (Elt F) :=
  addi (val_main_v24 (F := F) x2) (val_main_v29 (F := F))

def val_main_v31 (x2 : (⟨S2x1600000, .i32⟩ : BufTy).Contents (Elt F)) : (⟨S1600000, .i32⟩ : BufTy).Contents (Elt F) :=
  select (val_main_v28 (F := F) x2) (val_main_v30 (F := F) x2) (val_main_v24 (F := F) x2)

def val_main_v32 (x2 : (⟨S2x1600000, .i32⟩ : BufTy).Contents (Elt F)) : (⟨S1600000x1, .i32⟩ : BufTy).Contents (Elt F) :=
  broadcastInDim S1600000x1 ![0] bcast_S1600000_S1600000x1_0 (val_main_v31 (F := F) x2)

def val_main_v33 (x0 : (⟨S100000x64, .f32⟩ : BufTy).Contents (Elt F)) (x2 : (⟨S2x1600000, .i32⟩ : BufTy).Contents (Elt F)) : (⟨S1600000x64, .f32⟩ : BufTy).Contents (Elt F) :=
  Host.gather gather_S100000x64_S1600000x1_S1600000x64_1_0_n_n_0_1_164 (x0) (val_main_v32 (F := F) x2)

def val_main_cst_6 : (⟨S_, .f32⟩ : BufTy).Contents (Elt F) :=
  constant S_ .f32 0x00000000#32

def val_main_v34 : (⟨S100000x64, .f32⟩ : BufTy).Contents (Elt F) :=
  broadcastInDim S100000x64 ![] bcast_S_S100000x64 (val_main_cst_6 (F := F))

def val_main_v35 (x2 : (⟨S2x1600000, .i32⟩ : BufTy).Contents (Elt F)) : (⟨S1600000x1, .i32⟩ : BufTy).Contents (Elt F) :=
  broadcastInDim S1600000x1 ![0] bcast_S1600000_S1600000x1_0 (val_main_v26 (F := F) x2)

def val_main_v36 (x0 : (⟨S100000x64, .f32⟩ : BufTy).Contents (Elt F)) (x2 : (⟨S2x1600000, .i32⟩ : BufTy).Contents (Elt F)) : (⟨S100000x64, .f32⟩ : BufTy).Contents (Elt F) :=
  Host.scatterAdd scatter_S100000x64_S1600000x1_S1600000x64_1_0_0_1 (val_main_v34 (F := F)) (val_main_v35 (F := F) x2) (val_main_v33 (F := F) x0 x2)

def val_main_cst_7 : (⟨S_, .f32⟩ : BufTy).Contents (Elt F) :=
  constant S_ .f32 0x3F800000#32

def val_main_v37 : (⟨S1600000, .f32⟩ : BufTy).Contents (Elt F) :=
  broadcastInDim S1600000 ![] bcast_S_S1600000 (val_main_cst_7 (F := F))

def val_main_cst_8 : (⟨S_, .f32⟩ : BufTy).Contents (Elt F) :=
  constant S_ .f32 0x00000000#32

def val_main_v38 : (⟨S100000, .f32⟩ : BufTy).Contents (Elt F) :=
  broadcastInDim S100000 ![] bcast_S_S100000 (val_main_cst_8 (F := F))

def val_main_v39 (x2 : (⟨S2x1600000, .i32⟩ : BufTy).Contents (Elt F)) : (⟨S1600000x1, .i32⟩ : BufTy).Contents (Elt F) :=
  broadcastInDim S1600000x1 ![0] bcast_S1600000_S1600000x1_0 (val_main_v26 (F := F) x2)

def val_main_v40 (x2 : (⟨S2x1600000, .i32⟩ : BufTy).Contents (Elt F)) : (⟨S100000, .f32⟩ : BufTy).Contents (Elt F) :=
  Host.scatterAdd scatter_S100000_S1600000x1_S1600000_n_0_0_1 (val_main_v38 (F := F)) (val_main_v39 (F := F) x2) (val_main_v37 (F := F))

def val_main_cst_9 : (⟨S_, .f32⟩ : BufTy).Contents (Elt F) :=
  constant S_ .f32 0x3F800000#32

def val_main_v41 : (⟨S100000, .f32⟩ : BufTy).Contents (Elt F) :=
  broadcastInDim S100000 ![] bcast_S_S100000 (val_main_cst_9 (F := F))

def val_main_v42 (x2 : (⟨S2x1600000, .i32⟩ : BufTy).Contents (Elt F)) : (⟨S100000, .f32⟩ : BufTy).Contents (Elt F) :=
  maximumf (val_main_v40 (F := F) x2) (val_main_v41 (F := F))

def val_main_v43 (x2 : (⟨S2x1600000, .i32⟩ : BufTy).Contents (Elt F)) : (⟨S100000x1, .f32⟩ : BufTy).Contents (Elt F) :=
  broadcastInDim S100000x1 ![0] bcast_S100000_S100000x1_0 (val_main_v42 (F := F) x2)

def val_main_v44 (x2 : (⟨S2x1600000, .i32⟩ : BufTy).Contents (Elt F)) : (⟨S100000x64, .f32⟩ : BufTy).Contents (Elt F) :=
  broadcastInDim S100000x64 ![0, 1] bcast_S100000x1_S100000x64_0_1 (val_main_v43 (F := F) x2)

def val_main_v45 (x0 : (⟨S100000x64, .f32⟩ : BufTy).Contents (Elt F)) (x2 : (⟨S2x1600000, .i32⟩ : BufTy).Contents (Elt F)) : (⟨S100000x64, .f32⟩ : BufTy).Contents (Elt F) :=
  Host.divf (val_main_v36 (F := F) x0 x2) (val_main_v44 (F := F) x2)

def val_main_v46 (x0 : (⟨S100000x64, .f32⟩ : BufTy).Contents (Elt F)) (x1 : (⟨S2x1600000, .i32⟩ : BufTy).Contents (Elt F)) (x3 : (⟨S64x32, .f32⟩ : BufTy).Contents (Elt F)) : (⟨S100000x32, .f32⟩ : BufTy).Contents (Elt F) :=
  Host.dotGeneral dot_S100000x64_S64x32_S100000x32_1_0_0_1_n_n none (val_main_v22 (F := F) x0 x1) (x3)

def val_main_v47 (x0 : (⟨S100000x64, .f32⟩ : BufTy).Contents (Elt F)) (x4 : (⟨S64x32, .f32⟩ : BufTy).Contents (Elt F)) : (⟨S100000x32, .f32⟩ : BufTy).Contents (Elt F) :=
  Host.dotGeneral dot_S100000x64_S64x32_S100000x32_1_0_0_1_n_n none (x0) (x4)

def val_main_v48 (x0 : (⟨S100000x64, .f32⟩ : BufTy).Contents (Elt F)) (x1 : (⟨S2x1600000, .i32⟩ : BufTy).Contents (Elt F)) (x3 x4 : (⟨S64x32, .f32⟩ : BufTy).Contents (Elt F)) : (⟨S100000x32, .f32⟩ : BufTy).Contents (Elt F) :=
  addf (val_main_v46 (F := F) x0 x1 x3) (val_main_v47 (F := F) x0 x4)

def val_main_v49 (x5 : (⟨S32, .f32⟩ : BufTy).Contents (Elt F)) : (⟨S1x32, .f32⟩ : BufTy).Contents (Elt F) :=
  broadcastInDim S1x32 ![1] bcast_S32_S1x32_1 (x5)

def val_main_v50 (x5 : (⟨S32, .f32⟩ : BufTy).Contents (Elt F)) : (⟨S100000x32, .f32⟩ : BufTy).Contents (Elt F) :=
  broadcastInDim S100000x32 ![0, 1] bcast_S1x32_S100000x32_0_1 (val_main_v49 (F := F) x5)

def val_main_v51 (x0 : (⟨S100000x64, .f32⟩ : BufTy).Contents (Elt F)) (x1 : (⟨S2x1600000, .i32⟩ : BufTy).Contents (Elt F)) (x3 x4 : (⟨S64x32, .f32⟩ : BufTy).Contents (Elt F)) (x5 : (⟨S32, .f32⟩ : BufTy).Contents (Elt F)) : (⟨S100000x32, .f32⟩ : BufTy).Contents (Elt F) :=
  addf (val_main_v48 (F := F) x0 x1 x3 x4) (val_main_v50 (F := F) x5)

def val_main_v52 (x0 : (⟨S100000x64, .f32⟩ : BufTy).Contents (Elt F)) (x2 : (⟨S2x1600000, .i32⟩ : BufTy).Contents (Elt F)) (x6 : (⟨S64x32, .f32⟩ : BufTy).Contents (Elt F)) : (⟨S100000x32, .f32⟩ : BufTy).Contents (Elt F) :=
  Host.dotGeneral dot_S100000x64_S64x32_S100000x32_1_0_0_1_n_n none (val_main_v45 (F := F) x0 x2) (x6)

def val_main_v53 (x0 : (⟨S100000x64, .f32⟩ : BufTy).Contents (Elt F)) (x7 : (⟨S64x32, .f32⟩ : BufTy).Contents (Elt F)) : (⟨S100000x32, .f32⟩ : BufTy).Contents (Elt F) :=
  Host.dotGeneral dot_S100000x64_S64x32_S100000x32_1_0_0_1_n_n none (x0) (x7)

def val_main_v54 (x0 : (⟨S100000x64, .f32⟩ : BufTy).Contents (Elt F)) (x2 : (⟨S2x1600000, .i32⟩ : BufTy).Contents (Elt F)) (x6 x7 : (⟨S64x32, .f32⟩ : BufTy).Contents (Elt F)) : (⟨S100000x32, .f32⟩ : BufTy).Contents (Elt F) :=
  addf (val_main_v52 (F := F) x0 x2 x6) (val_main_v53 (F := F) x0 x7)

def val_main_v55 (x8 : (⟨S32, .f32⟩ : BufTy).Contents (Elt F)) : (⟨S1x32, .f32⟩ : BufTy).Contents (Elt F) :=
  broadcastInDim S1x32 ![1] bcast_S32_S1x32_1 (x8)

def val_main_v56 (x8 : (⟨S32, .f32⟩ : BufTy).Contents (Elt F)) : (⟨S100000x32, .f32⟩ : BufTy).Contents (Elt F) :=
  broadcastInDim S100000x32 ![0, 1] bcast_S1x32_S100000x32_0_1 (val_main_v55 (F := F) x8)

def val_main_v57 (x0 : (⟨S100000x64, .f32⟩ : BufTy).Contents (Elt F)) (x2 : (⟨S2x1600000, .i32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  addf (val_main_v54 (F := F) x0 x2 x6 x7) (val_main_v56 (F := F) x8)

def val_main_v58 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x64, .f32⟩ : BufTy).Contents (Elt F) :=
  concatenate S100000x64 1 [⟨S100000x32, (val_main_v51 (F := F) x0 x1 x3 x4 x5)⟩, ⟨S100000x32, (val_main_v57 (F := F) x0 x2 x6 x7 x8)⟩] concatenates_S100000x32_S100000x32_S100000x64_d1

def val_main_call0_cst : (⟨S_, .f32⟩ : BufTy).Contents (Elt F) :=
  constant S_ .f32 0x00000000#32

def val_main_call0_v0 : (⟨S100000x64, .f32⟩ : BufTy).Contents (Elt F) :=
  broadcastInDim S100000x64 ![] bcast_S_S100000x64 (val_main_call0_cst (F := F))

def val_main_v59 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x64, .f32⟩ : BufTy).Contents (Elt F) :=
  maximumf (val_main_v58 (F := F) x0 x1 x2 x3 x4 x5 x6 x7 x8) (val_main_call0_v0 (F := F))

def val_main_v60 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  extractStridedSlice S100000x32 ![0, 0] (val_main_v59 (F := F) x0 x1 x2 x3 x4 x5 x6 x7 x8) slices_S100000x64_S100000x32_0_0

def val_main_v61 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  extractStridedSlice S100000x32 ![0, 32] (val_main_v59 (F := F) x0 x1 x2 x3 x4 x5 x6 x7 x8) slices_S100000x64_S100000x32_0_32

def val_main_v62 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v63 (x1 : (⟨S2x1600000, .i32⟩ : BufTy).Contents (Elt F)) : (⟨S1600000, .i32⟩ : BufTy).Contents (Elt F) :=
  shapeCast _ (val_main_v62 (F := F) x1) shapeCasts_S1x1600000_S1600000

def val_main_v64 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v65 (x1 : (⟨S2x1600000, .i32⟩ : BufTy).Contents (Elt F)) : (⟨S1600000, .i32⟩ : BufTy).Contents (Elt F) :=
  shapeCast _ (val_main_v64 (F := F) x1) shapeCasts_S1x1600000_S1600000

def val_main_c_10 : (⟨S_, .i32⟩ : BufTy).Contents (Elt F) :=
  constantI S_ 32 0#32

def val_main_v66 : (⟨S1600000, .i32⟩ : BufTy).Contents (Elt F) :=
  broadcastInDim S1600000 ![] bcast_S_S1600000 (val_main_c_10 (F := F))

def val_main_v67 (x1 : (⟨S2x1600000, .i32⟩ : BufTy).Contents (Elt F)) : (⟨S1600000, .i1⟩ : BufTy).Contents (Elt F) :=
  cmpi .slt (val_main_v63 (F := F) x1) (val_main_v66 (F := F))

def val_main_c_11 : (⟨S_, .i32⟩ : BufTy).Contents (Elt F) :=
  constantI S_ 32 100000#32

def val_main_v68 : (⟨S1600000, .i32⟩ : BufTy).Contents (Elt F) :=
  broadcastInDim S1600000 ![] bcast_S_S1600000 (val_main_c_11 (F := F))

def val_main_v69 (x1 : (⟨S2x1600000, .i32⟩ : BufTy).Contents (Elt F)) : (⟨S1600000, .i32⟩ : BufTy).Contents (Elt F) :=
  addi (val_main_v63 (F := F) x1) (val_main_v68 (F := F))

def val_main_v70 (x1 : (⟨S2x1600000, .i32⟩ : BufTy).Contents (Elt F)) : (⟨S1600000, .i32⟩ : BufTy).Contents (Elt F) :=
  select (val_main_v67 (F := F) x1) (val_main_v69 (F := F) x1) (val_main_v63 (F := F) x1)

def val_main_v71 (x1 : (⟨S2x1600000, .i32⟩ : BufTy).Contents (Elt F)) : (⟨S1600000x1, .i32⟩ : BufTy).Contents (Elt F) :=
  broadcastInDim S1600000x1 ![0] bcast_S1600000_S1600000x1_0 (val_main_v70 (F := F) x1)

def val_main_v72 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S1600000x32, .f32⟩ : BufTy).Contents (Elt F) :=
  Host.gather gather_S100000x32_S1600000x1_S1600000x32_1_0_n_n_0_1_132 (val_main_v60 (F := F) x0 x1 x2 x3 x4 x5 x6 x7 x8) (val_main_v71 (F := F) x1)

def val_main_cst_12 : (⟨S_, .f32⟩ : BufTy).Contents (Elt F) :=
  constant S_ .f32 0x00000000#32

def val_main_v73 : (⟨S100000x32, .f32⟩ : BufTy).Contents (Elt F) :=
  broadcastInDim S100000x32 ![] bcast_S_S100000x32 (val_main_cst_12 (F := F))

def val_main_v74 (x1 : (⟨S2x1600000, .i32⟩ : BufTy).Contents (Elt F)) : (⟨S1600000x1, .i32⟩ : BufTy).Contents (Elt F) :=
  broadcastInDim S1600000x1 ![0] bcast_S1600000_S1600000x1_0 (val_main_v65 (F := F) x1)

def val_main_v75 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.scatterAdd scatter_S100000x32_S1600000x1_S1600000x32_1_0_0_1 (val_main_v73 (F := F)) (val_main_v74 (F := F) x1) (val_main_v72 (F := F) x0 x1 x2 x3 x4 x5 x6 x7 x8)

def val_main_cst_13 : (⟨S_, .f32⟩ : BufTy).Contents (Elt F) :=
  constant S_ .f32 0x3F800000#32

def val_main_v76 : (⟨S1600000, .f32⟩ : BufTy).Contents (Elt F) :=
  broadcastInDim S1600000 ![] bcast_S_S1600000 (val_main_cst_13 (F := F))

def val_main_cst_14 : (⟨S_, .f32⟩ : BufTy).Contents (Elt F) :=
  constant S_ .f32 0x00000000#32

def val_main_v77 : (⟨S100000, .f32⟩ : BufTy).Contents (Elt F) :=
  broadcastInDim S100000 ![] bcast_S_S100000 (val_main_cst_14 (F := F))

def val_main_v78 (x1 : (⟨S2x1600000, .i32⟩ : BufTy).Contents (Elt F)) : (⟨S1600000x1, .i32⟩ : BufTy).Contents (Elt F) :=
  broadcastInDim S1600000x1 ![0] bcast_S1600000_S1600000x1_0 (val_main_v65 (F := F) x1)

def val_main_v79 (x1 : (⟨S2x1600000, .i32⟩ : BufTy).Contents (Elt F)) : (⟨S100000, .f32⟩ : BufTy).Contents (Elt F) :=
  Host.scatterAdd scatter_S100000_S1600000x1_S1600000_n_0_0_1 (val_main_v77 (F := F)) (val_main_v78 (F := F) x1) (val_main_v76 (F := F))

def val_main_cst_15 : (⟨S_, .f32⟩ : BufTy).Contents (Elt F) :=
  constant S_ .f32 0x3F800000#32

def val_main_v80 : (⟨S100000, .f32⟩ : BufTy).Contents (Elt F) :=
  broadcastInDim S100000 ![] bcast_S_S100000 (val_main_cst_15 (F := F))

def val_main_v81 (x1 : (⟨S2x1600000, .i32⟩ : BufTy).Contents (Elt F)) : (⟨S100000, .f32⟩ : BufTy).Contents (Elt F) :=
  maximumf (val_main_v79 (F := F) x1) (val_main_v80 (F := F))

def val_main_v82 (x1 : (⟨S2x1600000, .i32⟩ : BufTy).Contents (Elt F)) : (⟨S100000x1, .f32⟩ : BufTy).Contents (Elt F) :=
  broadcastInDim S100000x1 ![0] bcast_S100000_S100000x1_0 (val_main_v81 (F := F) x1)

def val_main_v83 (x1 : (⟨S2x1600000, .i32⟩ : BufTy).Contents (Elt F)) : (⟨S100000x32, .f32⟩ : BufTy).Contents (Elt F) :=
  broadcastInDim S100000x32 ![0, 1] bcast_S100000x1_S100000x32_0_1 (val_main_v82 (F := F) x1)

def val_main_v84 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.divf (val_main_v75 (F := F) x0 x1 x2 x3 x4 x5 x6 x7 x8) (val_main_v83 (F := F) x1)

def val_main_v85 (x2 : (⟨S2x1600000, .i32⟩ : BufTy).Contents (Elt F)) : (⟨S1x1600000, .i32⟩ : BufTy).Contents (Elt F) :=
  extractStridedSlice S1x1600000 ![0, 0] (x2) slices_S2x1600000_S1x1600000_0_0

def val_main_v86 (x2 : (⟨S2x1600000, .i32⟩ : BufTy).Contents (Elt F)) : (⟨S1600000, .i32⟩ : BufTy).Contents (Elt F) :=
  shapeCast _ (val_main_v85 (F := F) x2) shapeCasts_S1x1600000_S1600000

def val_main_v87 (x2 : (⟨S2x1600000, .i32⟩ : BufTy).Contents (Elt F)) : (⟨S1x1600000, .i32⟩ : BufTy).Contents (Elt F) :=
  extractStridedSlice S1x1600000 ![1, 0] (x2) slices_S2x1600000_S1x1600000_1_0

def val_main_v88 (x2 : (⟨S2x1600000, .i32⟩ : BufTy).Contents (Elt F)) : (⟨S1600000, .i32⟩ : BufTy).Contents (Elt F) :=
  shapeCast _ (val_main_v87 (F := F) x2) shapeCasts_S1x1600000_S1600000

def val_main_c_16 : (⟨S_, .i32⟩ : BufTy).Contents (Elt F) :=
  constantI S_ 32 0#32

def val_main_v89 : (⟨S1600000, .i32⟩ : BufTy).Contents (Elt F) :=
  broadcastInDim S1600000 ![] bcast_S_S1600000 (val_main_c_16 (F := F))

def val_main_v90 (x2 : (⟨S2x1600000, .i32⟩ : BufTy).Contents (Elt F)) : (⟨S1600000, .i1⟩ : BufTy).Contents (Elt F) :=
  cmpi .slt (val_main_v86 (F := F) x2) (val_main_v89 (F := F))

def val_main_c_17 : (⟨S_, .i32⟩ : BufTy).Contents (Elt F) :=
  constantI S_ 32 100000#32

def val_main_v91 : (⟨S1600000, .i32⟩ : BufTy).Contents (Elt F) :=
  broadcastInDim S1600000 ![] bcast_S_S1600000 (val_main_c_17 (F := F))

def val_main_v92 (x2 : (⟨S2x1600000, .i32⟩ : BufTy).Contents (Elt F)) : (⟨S1600000, .i32⟩ : BufTy).Contents (Elt F) :=
  addi (val_main_v86 (F := F) x2) (val_main_v91 (F := F))

def val_main_v93 (x2 : (⟨S2x1600000, .i32⟩ : BufTy).Contents (Elt F)) : (⟨S1600000, .i32⟩ : BufTy).Contents (Elt F) :=
  select (val_main_v90 (F := F) x2) (val_main_v92 (F := F) x2) (val_main_v86 (F := F) x2)

def val_main_v94 (x2 : (⟨S2x1600000, .i32⟩ : BufTy).Contents (Elt F)) : (⟨S1600000x1, .i32⟩ : BufTy).Contents (Elt F) :=
  broadcastInDim S1600000x1 ![0] bcast_S1600000_S1600000x1_0 (val_main_v93 (F := F) x2)

def val_main_v95 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S1600000x32, .f32⟩ : BufTy).Contents (Elt F) :=
  Host.gather gather_S100000x32_S1600000x1_S1600000x32_1_0_n_n_0_1_132 (val_main_v61 (F := F) x0 x1 x2 x3 x4 x5 x6 x7 x8) (val_main_v94 (F := F) x2)

def val_main_cst_18 : (⟨S_, .f32⟩ : BufTy).Contents (Elt F) :=
  constant S_ .f32 0x00000000#32

def val_main_v96 : (⟨S100000x32, .f32⟩ : BufTy).Contents (Elt F) :=
  broadcastInDim S100000x32 ![] bcast_S_S100000x32 (val_main_cst_18 (F := F))

def val_main_v97 (x2 : (⟨S2x1600000, .i32⟩ : BufTy).Contents (Elt F)) : (⟨S1600000x1, .i32⟩ : BufTy).Contents (Elt F) :=
  broadcastInDim S1600000x1 ![0] bcast_S1600000_S1600000x1_0 (val_main_v88 (F := F) x2)

def val_main_v98 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.scatterAdd scatter_S100000x32_S1600000x1_S1600000x32_1_0_0_1 (val_main_v96 (F := F)) (val_main_v97 (F := F) x2) (val_main_v95 (F := F) x0 x1 x2 x3 x4 x5 x6 x7 x8)

def val_main_cst_19 : (⟨S_, .f32⟩ : BufTy).Contents (Elt F) :=
  constant S_ .f32 0x3F800000#32

def val_main_v99 : (⟨S1600000, .f32⟩ : BufTy).Contents (Elt F) :=
  broadcastInDim S1600000 ![] bcast_S_S1600000 (val_main_cst_19 (F := F))

def val_main_cst_20 : (⟨S_, .f32⟩ : BufTy).Contents (Elt F) :=
  constant S_ .f32 0x00000000#32

def val_main_v100 : (⟨S100000, .f32⟩ : BufTy).Contents (Elt F) :=
  broadcastInDim S100000 ![] bcast_S_S100000 (val_main_cst_20 (F := F))

def val_main_v101 (x2 : (⟨S2x1600000, .i32⟩ : BufTy).Contents (Elt F)) : (⟨S1600000x1, .i32⟩ : BufTy).Contents (Elt F) :=
  broadcastInDim S1600000x1 ![0] bcast_S1600000_S1600000x1_0 (val_main_v88 (F := F) x2)

def val_main_v102 (x2 : (⟨S2x1600000, .i32⟩ : BufTy).Contents (Elt F)) : (⟨S100000, .f32⟩ : BufTy).Contents (Elt F) :=
  Host.scatterAdd scatter_S100000_S1600000x1_S1600000_n_0_0_1 (val_main_v100 (F := F)) (val_main_v101 (F := F) x2) (val_main_v99 (F := F))

def val_main_cst_21 : (⟨S_, .f32⟩ : BufTy).Contents (Elt F) :=
  constant S_ .f32 0x3F800000#32

def val_main_v103 : (⟨S100000, .f32⟩ : BufTy).Contents (Elt F) :=
  broadcastInDim S100000 ![] bcast_S_S100000 (val_main_cst_21 (F := F))

def val_main_v104 (x2 : (⟨S2x1600000, .i32⟩ : BufTy).Contents (Elt F)) : (⟨S100000, .f32⟩ : BufTy).Contents (Elt F) :=
  maximumf (val_main_v102 (F := F) x2) (val_main_v103 (F := F))

def val_main_v105 (x2 : (⟨S2x1600000, .i32⟩ : BufTy).Contents (Elt F)) : (⟨S100000x1, .f32⟩ : BufTy).Contents (Elt F) :=
  broadcastInDim S100000x1 ![0] bcast_S100000_S100000x1_0 (val_main_v104 (F := F) x2)

def val_main_v106 (x2 : (⟨S2x1600000, .i32⟩ : BufTy).Contents (Elt F)) : (⟨S100000x32, .f32⟩ : BufTy).Contents (Elt F) :=
  broadcastInDim S100000x32 ![0, 1] bcast_S100000x1_S100000x32_0_1 (val_main_v105 (F := F) x2)

def val_main_v107 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.divf (val_main_v98 (F := F) x0 x1 x2 x3 x4 x5 x6 x7 x8) (val_main_v106 (F := F) x2)

def val_main_v108 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x64, .f32⟩ : BufTy).Contents (Elt F) :=
  concatenate S100000x64 1 [⟨S100000x32, (val_main_v84 (F := F) x0 x1 x2 x3 x4 x5 x6 x7 x8)⟩, ⟨S100000x32, (val_main_v107 (F := F) x0 x1 x2 x3 x4 x5 x6 x7 x8)⟩] concatenates_S100000x32_S100000x32_S100000x64_d1

def val_main_v109 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x9 : (⟨S64x32, .f32⟩ : BufTy).Contents (Elt F)) : (⟨S100000x32, .f32⟩ : BufTy).Contents (Elt F) :=
  Host.dotGeneral dot_S100000x64_S64x32_S100000x32_1_0_0_1_n_n none (val_main_v108 (F := F) x0 x1 x2 x3 x4 x5 x6 x7 x8) (x9)

def val_main_v110 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x10 : (⟨S32x32, .f32⟩ : BufTy).Contents (Elt F)) : (⟨S100000x32, .f32⟩ : BufTy).Contents (Elt F) :=
  Host.dotGeneral dot_S100000x32_S32x32_S100000x32_1_0_0_1_n_n none (val_main_v60 (F := F) x0 x1 x2 x3 x4 x5 x6 x7 x8) (x10)

def val_main_v111 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x9 : (⟨S64x32, .f32⟩ : BufTy).Contents (Elt F)) (x10 : (⟨S32x32, .f32⟩ : BufTy).Contents (Elt F)) : (⟨S100000x32, .f32⟩ : BufTy).Contents (Elt F) :=
  addf (val_main_v109 (F := F) x0 x1 x2 x3 x4 x5 x6 x7 x8 x9) (val_main_v110 (F := F) x0 x1 x2 x3 x4 x5 x6 x7 x8 x10)

def val_main_v112 (x11 : (⟨S32, .f32⟩ : BufTy).Contents (Elt F)) : (⟨S1x32, .f32⟩ : BufTy).Contents (Elt F) :=
  broadcastInDim S1x32 ![1] bcast_S32_S1x32_1 (x11)

def val_main_v113 (x11 : (⟨S32, .f32⟩ : BufTy).Contents (Elt F)) : (⟨S100000x32, .f32⟩ : BufTy).Contents (Elt F) :=
  broadcastInDim S100000x32 ![0, 1] bcast_S1x32_S100000x32_0_1 (val_main_v112 (F := F) x11)

def val_main_v114 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x9 : (⟨S64x32, .f32⟩ : BufTy).Contents (Elt F)) (x10 : (⟨S32x32, .f32⟩ : BufTy).Contents (Elt F)) (x11 : (⟨S32, .f32⟩ : BufTy).Contents (Elt F)) : (⟨S100000x32, .f32⟩ : BufTy).Contents (Elt F) :=
  addf (val_main_v111 (F := F) x0 x1 x2 x3 x4 x5 x6 x7 x8 x9 x10) (val_main_v113 (F := F) x11)

def val_main_v115 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v116 (x1 : (⟨S2x1600000, .i32⟩ : BufTy).Contents (Elt F)) : (⟨S1600000, .i32⟩ : BufTy).Contents (Elt F) :=
  shapeCast _ (val_main_v115 (F := F) x1) shapeCasts_S1x1600000_S1600000

def val_main_v117 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v118 (x1 : (⟨S2x1600000, .i32⟩ : BufTy).Contents (Elt F)) : (⟨S1600000, .i32⟩ : BufTy).Contents (Elt F) :=
  shapeCast _ (val_main_v117 (F := F) x1) shapeCasts_S1x1600000_S1600000

def val_main_c_22 : (⟨S_, .i32⟩ : BufTy).Contents (Elt F) :=
  constantI S_ 32 0#32

def val_main_v119 : (⟨S1600000, .i32⟩ : BufTy).Contents (Elt F) :=
  broadcastInDim S1600000 ![] bcast_S_S1600000 (val_main_c_22 (F := F))

def val_main_v120 (x1 : (⟨S2x1600000, .i32⟩ : BufTy).Contents (Elt F)) : (⟨S1600000, .i1⟩ : BufTy).Contents (Elt F) :=
  cmpi .slt (val_main_v116 (F := F) x1) (val_main_v119 (F := F))

def val_main_c_23 : (⟨S_, .i32⟩ : BufTy).Contents (Elt F) :=
  constantI S_ 32 100000#32

def val_main_v121 : (⟨S1600000, .i32⟩ : BufTy).Contents (Elt F) :=
  broadcastInDim S1600000 ![] bcast_S_S1600000 (val_main_c_23 (F := F))

def val_main_v122 (x1 : (⟨S2x1600000, .i32⟩ : BufTy).Contents (Elt F)) : (⟨S1600000, .i32⟩ : BufTy).Contents (Elt F) :=
  addi (val_main_v116 (F := F) x1) (val_main_v121 (F := F))

def val_main_v123 (x1 : (⟨S2x1600000, .i32⟩ : BufTy).Contents (Elt F)) : (⟨S1600000, .i32⟩ : BufTy).Contents (Elt F) :=
  select (val_main_v120 (F := F) x1) (val_main_v122 (F := F) x1) (val_main_v116 (F := F) x1)

def val_main_v124 (x1 : (⟨S2x1600000, .i32⟩ : BufTy).Contents (Elt F)) : (⟨S1600000x1, .i32⟩ : BufTy).Contents (Elt F) :=
  broadcastInDim S1600000x1 ![0] bcast_S1600000_S1600000x1_0 (val_main_v123 (F := F) x1)

def val_main_v125 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S1600000x32, .f32⟩ : BufTy).Contents (Elt F) :=
  Host.gather gather_S100000x32_S1600000x1_S1600000x32_1_0_n_n_0_1_132 (val_main_v61 (F := F) x0 x1 x2 x3 x4 x5 x6 x7 x8) (val_main_v124 (F := F) x1)

def val_main_cst_24 : (⟨S_, .f32⟩ : BufTy).Contents (Elt F) :=
  constant S_ .f32 0x00000000#32

def val_main_v126 : (⟨S100000x32, .f32⟩ : BufTy).Contents (Elt F) :=
  broadcastInDim S100000x32 ![] bcast_S_S100000x32 (val_main_cst_24 (F := F))

def val_main_v127 (x1 : (⟨S2x1600000, .i32⟩ : BufTy).Contents (Elt F)) : (⟨S1600000x1, .i32⟩ : BufTy).Contents (Elt F) :=
  broadcastInDim S1600000x1 ![0] bcast_S1600000_S1600000x1_0 (val_main_v118 (F := F) x1)

def val_main_v128 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.scatterAdd scatter_S100000x32_S1600000x1_S1600000x32_1_0_0_1 (val_main_v126 (F := F)) (val_main_v127 (F := F) x1) (val_main_v125 (F := F) x0 x1 x2 x3 x4 x5 x6 x7 x8)

def val_main_cst_25 : (⟨S_, .f32⟩ : BufTy).Contents (Elt F) :=
  constant S_ .f32 0x3F800000#32

def val_main_v129 : (⟨S1600000, .f32⟩ : BufTy).Contents (Elt F) :=
  broadcastInDim S1600000 ![] bcast_S_S1600000 (val_main_cst_25 (F := F))

def val_main_cst_26 : (⟨S_, .f32⟩ : BufTy).Contents (Elt F) :=
  constant S_ .f32 0x00000000#32

def val_main_v130 : (⟨S100000, .f32⟩ : BufTy).Contents (Elt F) :=
  broadcastInDim S100000 ![] bcast_S_S100000 (val_main_cst_26 (F := F))

def val_main_v131 (x1 : (⟨S2x1600000, .i32⟩ : BufTy).Contents (Elt F)) : (⟨S1600000x1, .i32⟩ : BufTy).Contents (Elt F) :=
  broadcastInDim S1600000x1 ![0] bcast_S1600000_S1600000x1_0 (val_main_v118 (F := F) x1)

def val_main_v132 (x1 : (⟨S2x1600000, .i32⟩ : BufTy).Contents (Elt F)) : (⟨S100000, .f32⟩ : BufTy).Contents (Elt F) :=
  Host.scatterAdd scatter_S100000_S1600000x1_S1600000_n_0_0_1 (val_main_v130 (F := F)) (val_main_v131 (F := F) x1) (val_main_v129 (F := F))

def val_main_cst_27 : (⟨S_, .f32⟩ : BufTy).Contents (Elt F) :=
  constant S_ .f32 0x3F800000#32

def val_main_v133 : (⟨S100000, .f32⟩ : BufTy).Contents (Elt F) :=
  broadcastInDim S100000 ![] bcast_S_S100000 (val_main_cst_27 (F := F))

def val_main_v134 (x1 : (⟨S2x1600000, .i32⟩ : BufTy).Contents (Elt F)) : (⟨S100000, .f32⟩ : BufTy).Contents (Elt F) :=
  maximumf (val_main_v132 (F := F) x1) (val_main_v133 (F := F))

def val_main_v135 (x1 : (⟨S2x1600000, .i32⟩ : BufTy).Contents (Elt F)) : (⟨S100000x1, .f32⟩ : BufTy).Contents (Elt F) :=
  broadcastInDim S100000x1 ![0] bcast_S100000_S100000x1_0 (val_main_v134 (F := F) x1)

def val_main_v136 (x1 : (⟨S2x1600000, .i32⟩ : BufTy).Contents (Elt F)) : (⟨S100000x32, .f32⟩ : BufTy).Contents (Elt F) :=
  broadcastInDim S100000x32 ![0, 1] bcast_S100000x1_S100000x32_0_1 (val_main_v135 (F := F) x1)

def val_main_v137 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.divf (val_main_v128 (F := F) x0 x1 x2 x3 x4 x5 x6 x7 x8) (val_main_v136 (F := F) x1)

def val_main_v138 (x2 : (⟨S2x1600000, .i32⟩ : BufTy).Contents (Elt F)) : (⟨S1x1600000, .i32⟩ : BufTy).Contents (Elt F) :=
  extractStridedSlice S1x1600000 ![0, 0] (x2) slices_S2x1600000_S1x1600000_0_0

def val_main_v139 (x2 : (⟨S2x1600000, .i32⟩ : BufTy).Contents (Elt F)) : (⟨S1600000, .i32⟩ : BufTy).Contents (Elt F) :=
  shapeCast _ (val_main_v138 (F := F) x2) shapeCasts_S1x1600000_S1600000

def val_main_v140 (x2 : (⟨S2x1600000, .i32⟩ : BufTy).Contents (Elt F)) : (⟨S1x1600000, .i32⟩ : BufTy).Contents (Elt F) :=
  extractStridedSlice S1x1600000 ![1, 0] (x2) slices_S2x1600000_S1x1600000_1_0

def val_main_v141 (x2 : (⟨S2x1600000, .i32⟩ : BufTy).Contents (Elt F)) : (⟨S1600000, .i32⟩ : BufTy).Contents (Elt F) :=
  shapeCast _ (val_main_v140 (F := F) x2) shapeCasts_S1x1600000_S1600000

def val_main_c_28 : (⟨S_, .i32⟩ : BufTy).Contents (Elt F) :=
  constantI S_ 32 0#32

def val_main_v142 : (⟨S1600000, .i32⟩ : BufTy).Contents (Elt F) :=
  broadcastInDim S1600000 ![] bcast_S_S1600000 (val_main_c_28 (F := F))

def val_main_v143 (x2 : (⟨S2x1600000, .i32⟩ : BufTy).Contents (Elt F)) : (⟨S1600000, .i1⟩ : BufTy).Contents (Elt F) :=
  cmpi .slt (val_main_v139 (F := F) x2) (val_main_v142 (F := F))

def val_main_c_29 : (⟨S_, .i32⟩ : BufTy).Contents (Elt F) :=
  constantI S_ 32 100000#32

def val_main_v144 : (⟨S1600000, .i32⟩ : BufTy).Contents (Elt F) :=
  broadcastInDim S1600000 ![] bcast_S_S1600000 (val_main_c_29 (F := F))

def val_main_v145 (x2 : (⟨S2x1600000, .i32⟩ : BufTy).Contents (Elt F)) : (⟨S1600000, .i32⟩ : BufTy).Contents (Elt F) :=
  addi (val_main_v139 (F := F) x2) (val_main_v144 (F := F))

def val_main_v146 (x2 : (⟨S2x1600000, .i32⟩ : BufTy).Contents (Elt F)) : (⟨S1600000, .i32⟩ : BufTy).Contents (Elt F) :=
  select (val_main_v143 (F := F) x2) (val_main_v145 (F := F) x2) (val_main_v139 (F := F) x2)

def val_main_v147 (x2 : (⟨S2x1600000, .i32⟩ : BufTy).Contents (Elt F)) : (⟨S1600000x1, .i32⟩ : BufTy).Contents (Elt F) :=
  broadcastInDim S1600000x1 ![0] bcast_S1600000_S1600000x1_0 (val_main_v146 (F := F) x2)

def val_main_v148 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S1600000x32, .f32⟩ : BufTy).Contents (Elt F) :=
  Host.gather gather_S100000x32_S1600000x1_S1600000x32_1_0_n_n_0_1_132 (val_main_v60 (F := F) x0 x1 x2 x3 x4 x5 x6 x7 x8) (val_main_v147 (F := F) x2)

def val_main_cst_30 : (⟨S_, .f32⟩ : BufTy).Contents (Elt F) :=
  constant S_ .f32 0x00000000#32

def val_main_v149 : (⟨S100000x32, .f32⟩ : BufTy).Contents (Elt F) :=
  broadcastInDim S100000x32 ![] bcast_S_S100000x32 (val_main_cst_30 (F := F))

def val_main_v150 (x2 : (⟨S2x1600000, .i32⟩ : BufTy).Contents (Elt F)) : (⟨S1600000x1, .i32⟩ : BufTy).Contents (Elt F) :=
  broadcastInDim S1600000x1 ![0] bcast_S1600000_S1600000x1_0 (val_main_v141 (F := F) x2)

def val_main_v151 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.scatterAdd scatter_S100000x32_S1600000x1_S1600000x32_1_0_0_1 (val_main_v149 (F := F)) (val_main_v150 (F := F) x2) (val_main_v148 (F := F) x0 x1 x2 x3 x4 x5 x6 x7 x8)

def val_main_cst_31 : (⟨S_, .f32⟩ : BufTy).Contents (Elt F) :=
  constant S_ .f32 0x3F800000#32

def val_main_v152 : (⟨S1600000, .f32⟩ : BufTy).Contents (Elt F) :=
  broadcastInDim S1600000 ![] bcast_S_S1600000 (val_main_cst_31 (F := F))

def val_main_cst_32 : (⟨S_, .f32⟩ : BufTy).Contents (Elt F) :=
  constant S_ .f32 0x00000000#32

def val_main_v153 : (⟨S100000, .f32⟩ : BufTy).Contents (Elt F) :=
  broadcastInDim S100000 ![] bcast_S_S100000 (val_main_cst_32 (F := F))

def val_main_v154 (x2 : (⟨S2x1600000, .i32⟩ : BufTy).Contents (Elt F)) : (⟨S1600000x1, .i32⟩ : BufTy).Contents (Elt F) :=
  broadcastInDim S1600000x1 ![0] bcast_S1600000_S1600000x1_0 (val_main_v141 (F := F) x2)

def val_main_v155 (x2 : (⟨S2x1600000, .i32⟩ : BufTy).Contents (Elt F)) : (⟨S100000, .f32⟩ : BufTy).Contents (Elt F) :=
  Host.scatterAdd scatter_S100000_S1600000x1_S1600000_n_0_0_1 (val_main_v153 (F := F)) (val_main_v154 (F := F) x2) (val_main_v152 (F := F))

def val_main_cst_33 : (⟨S_, .f32⟩ : BufTy).Contents (Elt F) :=
  constant S_ .f32 0x3F800000#32

def val_main_v156 : (⟨S100000, .f32⟩ : BufTy).Contents (Elt F) :=
  broadcastInDim S100000 ![] bcast_S_S100000 (val_main_cst_33 (F := F))

def val_main_v157 (x2 : (⟨S2x1600000, .i32⟩ : BufTy).Contents (Elt F)) : (⟨S100000, .f32⟩ : BufTy).Contents (Elt F) :=
  maximumf (val_main_v155 (F := F) x2) (val_main_v156 (F := F))

def val_main_v158 (x2 : (⟨S2x1600000, .i32⟩ : BufTy).Contents (Elt F)) : (⟨S100000x1, .f32⟩ : BufTy).Contents (Elt F) :=
  broadcastInDim S100000x1 ![0] bcast_S100000_S100000x1_0 (val_main_v157 (F := F) x2)

def val_main_v159 (x2 : (⟨S2x1600000, .i32⟩ : BufTy).Contents (Elt F)) : (⟨S100000x32, .f32⟩ : BufTy).Contents (Elt F) :=
  broadcastInDim S100000x32 ![0, 1] bcast_S100000x1_S100000x32_0_1 (val_main_v158 (F := F) x2)

def val_main_v160 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x32, .f32⟩ : BufTy).Contents (Elt F) :=
  Host.divf (val_main_v151 (F := F) x0 x1 x2 x3 x4 x5 x6 x7 x8) (val_main_v159 (F := F) x2)

def val_main_v161 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) : (⟨S100000x64, .f32⟩ : BufTy).Contents (Elt F) :=
  concatenate S100000x64 1 [⟨S100000x32, (val_main_v137 (F := F) x0 x1 x2 x3 x4 x5 x6 x7 x8)⟩, ⟨S100000x32, (val_main_v160 (F := F) x0 x1 x2 x3 x4 x5 x6 x7 x8)⟩] concatenates_S100000x32_S100000x32_S100000x64_d1

def val_main_v162 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x12 : (⟨S64x32, .f32⟩ : BufTy).Contents (Elt F)) : (⟨S100000x32, .f32⟩ : BufTy).Contents (Elt F) :=
  Host.dotGeneral dot_S100000x64_S64x32_S100000x32_1_0_0_1_n_n none (val_main_v161 (F := F) x0 x1 x2 x3 x4 x5 x6 x7 x8) (x12)

def val_main_v163 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x13 : (⟨S32x32, .f32⟩ : BufTy).Contents (Elt F)) : (⟨S100000x32, .f32⟩ : BufTy).Contents (Elt F) :=
  Host.dotGeneral dot_S100000x32_S32x32_S100000x32_1_0_0_1_n_n none (val_main_v61 (F := F) x0 x1 x2 x3 x4 x5 x6 x7 x8) (x13)

def val_main_v164 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x12 : (⟨S64x32, .f32⟩ : BufTy).Contents (Elt F)) (x13 : (⟨S32x32, .f32⟩ : BufTy).Contents (Elt F)) : (⟨S100000x32, .f32⟩ : BufTy).Contents (Elt F) :=
  addf (val_main_v162 (F := F) x0 x1 x2 x3 x4 x5 x6 x7 x8 x12) (val_main_v163 (F := F) x0 x1 x2 x3 x4 x5 x6 x7 x8 x13)

def val_main_v165 (x14 : (⟨S32, .f32⟩ : BufTy).Contents (Elt F)) : (⟨S1x32, .f32⟩ : BufTy).Contents (Elt F) :=
  broadcastInDim S1x32 ![1] bcast_S32_S1x32_1 (x14)

def val_main_v166 (x14 : (⟨S32, .f32⟩ : BufTy).Contents (Elt F)) : (⟨S100000x32, .f32⟩ : BufTy).Contents (Elt F) :=
  broadcastInDim S100000x32 ![0, 1] bcast_S1x32_S100000x32_0_1 (val_main_v165 (F := F) x14)

def val_main_v167 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x12 : (⟨S64x32, .f32⟩ : BufTy).Contents (Elt F)) (x13 : (⟨S32x32, .f32⟩ : BufTy).Contents (Elt F)) (x14 : (⟨S32, .f32⟩ : BufTy).Contents (Elt F)) : (⟨S100000x32, .f32⟩ : BufTy).Contents (Elt F) :=
  addf (val_main_v164 (F := F) x0 x1 x2 x3 x4 x5 x6 x7 x8 x12 x13) (val_main_v166 (F := F) x14)

def val_main_v168 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x9 : (⟨S64x32, .f32⟩ : BufTy).Contents (Elt F)) (x10 : (⟨S32x32, .f32⟩ : BufTy).Contents (Elt F)) (x11 : (⟨S32, .f32⟩ : BufTy).Contents (Elt F)) (x12 : (⟨S64x32, .f32⟩ : BufTy).Contents (Elt F)) (x13 : (⟨S32x32, .f32⟩ : BufTy).Contents (Elt F)) (x14 : (⟨S32, .f32⟩ : BufTy).Contents (Elt F)) : (⟨S100000x64, .f32⟩ : BufTy).Contents (Elt F) :=
  concatenate S100000x64 1 [⟨S100000x32, (val_main_v114 (F := F) x0 x1 x2 x3 x4 x5 x6 x7 x8 x9 x10 x11)⟩, ⟨S100000x32, (val_main_v167 (F := F) x0 x1 x2 x3 x4 x5 x6 x7 x8 x12 x13 x14)⟩] concatenates_S100000x32_S100000x32_S100000x64_d1

def val_main_call1_cst : (⟨S_, .f32⟩ : BufTy).Contents (Elt F) :=
  constant S_ .f32 0x00000000#32

def val_main_call1_v0 : (⟨S100000x64, .f32⟩ : BufTy).Contents (Elt F) :=
  broadcastInDim S100000x64 ![] bcast_S_S100000x64 (val_main_call1_cst (F := F))

def val_main_v169 (x0 : (⟨S100000x64, .f32⟩ : BufTy).Contents (Elt F)) (x1 x2 : (⟨S2x1600000, .i32⟩ : BufTy).Contents (Elt F)) (x3 x4 : (⟨S64x32, .f32⟩ : BufTy).Contents (Elt F)) (x5 : (⟨S32, .f32⟩ : BufTy).Contents (Elt F)) (x6 x7 : (⟨S64x32, .f32⟩ : BufTy).Contents (Elt F)) (x8 : (⟨S32, .f32⟩ : BufTy).Contents (Elt F)) (x9 : (⟨S64x32, .f32⟩ : BufTy).Contents (Elt F)) (x10 : (⟨S32x32, .f32⟩ : BufTy).Contents (Elt F)) (x11 : (⟨S32, .f32⟩ : BufTy).Contents (Elt F)) (x12 : (⟨S64x32, .f32⟩ : BufTy).Contents (Elt F)) (x13 : (⟨S32x32, .f32⟩ : BufTy).Contents (Elt F)) (x14 : (⟨S32, .f32⟩ : BufTy).Contents (Elt F)) : (⟨S100000x64, .f32⟩ : BufTy).Contents (Elt F) :=
  maximumf (val_main_v168 (F := F) x0 x1 x2 x3 x4 x5 x6 x7 x8 x9 x10 x11 x12 x13 x14) (val_main_call1_v0 (F := F))

end Cert.RefStages

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.RRun.lean ====
/-
  The reference program's run, read back stage by stage.

  @main is a straight line of 210 host operations.  Every weakly fair execution terminates with each buffer at the
  fold of the operations' results over its launch contents.  That fold is read here in eleven consecutive stretches —
  the two mean messages of layer one, the dense stage of layer one, the four mean messages and the two dense halves of
  layer two — each stretch from what the one before left: at a stretch's end every value a later stretch reads is
  the corresponding stage function (`Cert.RefStages`) of the arguments, and the arguments are still as launched.
-/
import proofs.«119586_j75204877353504_1_alg».proof.Proof.Gen.ReferenceIdeal
import proofs.«119586_j75204877353504_1_alg».proof.Proof.RStages
import proofs.«119586_j75204877353504_1_alg».proof.Proof.LibAfterAppend
import Idealize.ShloMosaic.Lib.StableHlo.Run
import Idealize.ShloMosaic.PureOps.Ideal

noncomputable section

namespace Cert.RefRun

open Cert.ReferenceIdeal Cert.ReferenceIdeal.Gen Cert.RefStages Idealize.ShloMosaic Idealize.ShloMosaic.TcCoe Idealize.SL.Sem Idealize.ShloMosaic.StableHlo

variable {F : FTy → Type} [FloatOps F]

/-- @main's 210 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    unary main_arg2 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg2 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_4 (constantI S_ 32 0#32),
    unary main_c_4 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_arg0 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v34 (broadcastInDim S100000x64 ![] bcast_S_S100000x64 : (⟨S_, .f32⟩ : BufTy).Contents (Elt F) → (⟨S100000x64, .f32⟩ : BufTy).Contents (Elt F)),
    unary main_v26 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v37 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v38 (broadcastInDim S100000 ![] bcast_S_S100000 : (⟨S_, .f32⟩ : BufTy).Contents (Elt F) → (⟨S100000, .f32⟩ : BufTy).Contents (Elt F)),
    unary main_v26 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v36 main_v44 main_v45 (Host.divf : (⟨S100000x64, .f32⟩ : BufTy).Contents (Elt F) → (⟨S100000x64, .f32⟩ : BufTy).Contents (Elt F) → (⟨S100000x64, .f32⟩ : BufTy).Contents (Elt F)),
    binary main_v22 main_arg3 main_v46 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_arg0 main_arg4 main_v47 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v46 main_v47 main_v48 (addf : (⟨S100000x32, .f32⟩ : BufTy).Contents (Elt F) → (⟨S100000x32, .f32⟩ : BufTy).Contents (Elt F) → (⟨S100000x32, .f32⟩ : BufTy).Contents (Elt F)),
    unary main_arg5 main_v49 (broadcastInDim S1x32 ![1] bcast_S32_S1x32_1 : (⟨S32, .f32⟩ : BufTy).Contents (Elt F) → (⟨S1x32, .f32⟩ : BufTy).Contents (Elt F)),
    unary main_v49 main_v50 (broadcastInDim S100000x32 ![0, 1] bcast_S1x32_S100000x32_0_1 : (⟨S1x32, .f32⟩ : BufTy).Contents (Elt F) → (⟨S100000x32, .f32⟩ : BufTy).Contents (Elt F)),
    binary main_v48 main_v50 main_v51 (addf : (⟨S100000x32, .f32⟩ : BufTy).Contents (Elt F) → (⟨S100000x32, .f32⟩ : BufTy).Contents (Elt F) → (⟨S100000x32, .f32⟩ : BufTy).Contents (Elt F)),
    binary main_v45 main_arg6 main_v52 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_arg0 main_arg7 main_v53 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v52 main_v53 main_v54 (addf : (⟨S100000x32, .f32⟩ : BufTy).Contents (Elt F) → (⟨S100000x32, .f32⟩ : BufTy).Contents (Elt F) → (⟨S100000x32, .f32⟩ : BufTy).Contents (Elt F)),
    unary main_arg8 main_v55 (broadcastInDim S1x32 ![1] bcast_S32_S1x32_1 : (⟨S32, .f32⟩ : BufTy).Contents (Elt F) → (⟨S1x32, .f32⟩ : BufTy).Contents (Elt F)),
    unary main_v55 main_v56 (broadcastInDim S100000x32 ![0, 1] bcast_S1x32_S100000x32_0_1 : (⟨S1x32, .f32⟩ : BufTy).Contents (Elt F) → (⟨S100000x32, .f32⟩ : BufTy).Contents (Elt F)),
    binary main_v54 main_v56 main_v57 (addf : (⟨S100000x32, .f32⟩ : BufTy).Contents (Elt F) → (⟨S100000x32, .f32⟩ : BufTy).Contents (Elt F) → (⟨S100000x32, .f32⟩ : BufTy).Contents (Elt F)),
    binary main_v51 main_v57 main_v58 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v58) (TRef.of (T := ⟨S100000x64, .f32⟩) main_call0_v0) (TRef.of (T := ⟨S100000x64, .f32⟩) main_v59) maximumf,
    unary main_v59 main_v60 ((extractStridedSlice S100000x32 ![0, 0] · slices_S100000x64_S100000x32_0_0) : (⟨S100000x64, .f32⟩ : BufTy).Contents (Elt F) → (⟨S100000x32, .f32⟩ : BufTy).Contents (Elt F)),
    unary main_v59 main_v61 ((extractStridedSlice S100000x32 ![0, 32] · slices_S100000x64_S100000x32_0_32) : (⟨S100000x64, .f32⟩ : BufTy).Contents (Elt F) → (⟨S100000x32, .f32⟩ : BufTy).Contents (Elt F)),
    unary main_arg1 main_v62 ((extractStridedSlice S1x1600000 ![0, 0] · slices_S2x1600000_S1x1600000_0_0) : (⟨S2x1600000, .i32⟩ : BufTy).Contents (Elt F) → (⟨S1x1600000, .i32⟩ : BufTy).Contents (Elt F)),
    reshape main_v62 main_v63 rfl shapeCasts_S1x1600000_S1600000,
    unary main_arg1 main_v64 ((extractStridedSlice S1x1600000 ![1, 0] · slices_S2x1600000_S1x1600000_1_0) : (⟨S2x1600000, .i32⟩ : BufTy).Contents (Elt F) → (⟨S1x1600000, .i32⟩ : BufTy).Contents (Elt F)),
    reshape main_v64 main_v65 rfl shapeCasts_S1x1600000_S1600000,
    nullary main_c_10 (constantI S_ 32 0#32),
    unary main_c_10 main_v66 (broadcastInDim S1600000 ![] bcast_S_S1600000 : (⟨S_, .i32⟩ : BufTy).Contents (Elt F) → (⟨S1600000, .i32⟩ : BufTy).Contents (Elt F)),
    binary main_v63 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v68 (broadcastInDim S1600000 ![] bcast_S_S1600000 : (⟨S_, .i32⟩ : BufTy).Contents (Elt F) → (⟨S1600000, .i32⟩ : BufTy).Contents (Elt F)),
    binary main_v63 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v63 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v60 main_v71 main_v72 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_12 (constant S_ .f32 0x00000000#32),
    unary main_cst_12 main_v73 (broadcastInDim S100000x32 ![] bcast_S_S100000x32 : (⟨S_, .f32⟩ : BufTy).Contents (Elt F) → (⟨S100000x32, .f32⟩ : BufTy).Contents (Elt F)),
    unary main_v65 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_13 (constant S_ .f32 0x3F800000#32),
    unary main_cst_13 main_v76 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v77 (broadcastInDim S100000 ![] bcast_S_S100000 : (⟨S_, .f32⟩ : BufTy).Contents (Elt F) → (⟨S100000, .f32⟩ : BufTy).Contents (Elt F)),
    unary main_v65 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v80 (broadcastInDim S100000 ![] bcast_S_S100000 : (⟨S_, .f32⟩ : BufTy).Contents (Elt F) → (⟨S100000, .f32⟩ : BufTy).Contents (Elt F)),
    binary main_v79 main_v80 main_v81 (maximumf : (⟨S100000, .f32⟩ : BufTy).Contents (Elt F) → (⟨S100000, .f32⟩ : BufTy).Contents (Elt F) → (⟨S100000, .f32⟩ : BufTy).Contents (Elt F)),
    unary main_v81 main_v82 (broadcastInDim S100000x1 ![0] bcast_S100000_S100000x1_0 : (⟨S100000, .f32⟩ : BufTy).Contents (Elt F) → (⟨S100000x1, .f32⟩ : BufTy).Contents (Elt F)),
    unary main_v82 main_v83 (broadcastInDim S100000x32 ![0, 1] bcast_S100000x1_S100000x32_0_1 : (⟨S100000x1, .f32⟩ : BufTy).Contents (Elt F) → (⟨S100000x32, .f32⟩ : BufTy).Contents (Elt F)),
    binary main_v75 main_v83 main_v84 (Host.divf : (⟨S100000x32, .f32⟩ : BufTy).Contents (Elt F) → (⟨S100000x32, .f32⟩ : BufTy).Contents (Elt F) → (⟨S100000x32, .f32⟩ : BufTy).Contents (Elt F)),
    unary main_arg2 main_v85 ((extractStridedSlice S1x1600000 ![0, 0] · slices_S2x1600000_S1x1600000_0_0) : (⟨S2x1600000, .i32⟩ : BufTy).Contents (Elt F) → (⟨S1x1600000, .i32⟩ : BufTy).Contents (Elt F)),
    reshape main_v85 main_v86 rfl shapeCasts_S1x1600000_S1600000,
    unary main_arg2 main_v87 ((extractStridedSlice S1x1600000 ![1, 0] · slices_S2x1600000_S1x1600000_1_0) : (⟨S2x1600000, .i32⟩ : BufTy).Contents (Elt F) → (⟨S1x1600000, .i32⟩ : BufTy).Contents (Elt F)),
    reshape main_v87 main_v88 rfl shapeCasts_S1x1600000_S1600000,
    nullary main_c_16 (constantI S_ 32 0#32),
    unary main_c_16 main_v89 (broadcastInDim S1600000 ![] bcast_S_S1600000 : (⟨S_, .i32⟩ : BufTy).Contents (Elt F) → (⟨S1600000, .i32⟩ : BufTy).Contents (Elt F)),
    binary main_v86 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v91 (broadcastInDim S1600000 ![] bcast_S_S1600000 : (⟨S_, .i32⟩ : BufTy).Contents (Elt F) → (⟨S1600000, .i32⟩ : BufTy).Contents (Elt F)),
    binary main_v86 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v86 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v61 main_v94 main_v95 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_18 (constant S_ .f32 0x00000000#32),
    unary main_cst_18 main_v96 (broadcastInDim S100000x32 ![] bcast_S_S100000x32 : (⟨S_, .f32⟩ : BufTy).Contents (Elt F) → (⟨S100000x32, .f32⟩ : BufTy).Contents (Elt F)),
    unary main_v88 main_v97 (broadcastInDim S1600000x1 ![0] bcast_S1600000_S1600000x1_0 : (⟨S1600000, .i32⟩ : BufTy).Contents (Elt F) → (⟨S1600000x1, .i32⟩ : BufTy).Contents (Elt F)),
    ternary main_v96 main_v97 main_v95 main_v98 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_19 (constant S_ .f32 0x3F800000#32),
    unary main_cst_19 main_v99 (broadcastInDim S1600000 ![] bcast_S_S1600000 : (⟨S_, .f32⟩ : BufTy).Contents (Elt F) → (⟨S1600000, .f32⟩ : BufTy).Contents (Elt F)),
    nullary main_cst_20 (constant S_ .f32 0x00000000#32),
    unary main_cst_20 main_v100 (broadcastInDim S100000 ![] bcast_S_S100000 : (⟨S_, .f32⟩ : BufTy).Contents (Elt F) → (⟨S100000, .f32⟩ : BufTy).Contents (Elt F)),
    unary main_v88 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_21 (constant S_ .f32 0x3F800000#32),
    unary main_cst_21 main_v103 (broadcastInDim S100000 ![] bcast_S_S100000 : (⟨S_, .f32⟩ : BufTy).Contents (Elt F) → (⟨S100000, .f32⟩ : BufTy).Contents (Elt F)),
    binary main_v102 main_v103 main_v104 (maximumf : (⟨S100000, .f32⟩ : BufTy).Contents (Elt F) → (⟨S100000, .f32⟩ : BufTy).Contents (Elt F) → (⟨S100000, .f32⟩ : BufTy).Contents (Elt F)),
    unary main_v104 main_v105 (broadcastInDim S100000x1 ![0] bcast_S100000_S100000x1_0 : (⟨S100000, .f32⟩ : BufTy).Contents (Elt F) → (⟨S100000x1, .f32⟩ : BufTy).Contents (Elt F)),
    unary main_v105 main_v106 (broadcastInDim S100000x32 ![0, 1] bcast_S100000x1_S100000x32_0_1 : (⟨S100000x1, .f32⟩ : BufTy).Contents (Elt F) → (⟨S100000x32, .f32⟩ : BufTy).Contents (Elt F)),
    binary main_v98 main_v106 main_v107 (Host.divf : (⟨S100000x32, .f32⟩ : BufTy).Contents (Elt F) → (⟨S100000x32, .f32⟩ : BufTy).Contents (Elt F) → (⟨S100000x32, .f32⟩ : BufTy).Contents (Elt F)),
    binary main_v84 main_v107 main_v108 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v108 main_arg9 main_v109 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v60 main_arg10 main_v110 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v109 main_v110 main_v111 (addf : (⟨S100000x32, .f32⟩ : BufTy).Contents (Elt F) → (⟨S100000x32, .f32⟩ : BufTy).Contents (Elt F) → (⟨S100000x32, .f32⟩ : BufTy).Contents (Elt F)),
    unary main_arg11 main_v112 (broadcastInDim S1x32 ![1] bcast_S32_S1x32_1 : (⟨S32, .f32⟩ : BufTy).Contents (Elt F) → (⟨S1x32, .f32⟩ : BufTy).Contents (Elt F)),
    unary main_v112 main_v113 (broadcastInDim S100000x32 ![0, 1] bcast_S1x32_S100000x32_0_1 : (⟨S1x32, .f32⟩ : BufTy).Contents (Elt F) → (⟨S100000x32, .f32⟩ : BufTy).Contents (Elt F)),
    binary main_v111 main_v113 main_v114 (addf : (⟨S100000x32, .f32⟩ : BufTy).Contents (Elt F) → (⟨S100000x32, .f32⟩ : BufTy).Contents (Elt F) → (⟨S100000x32, .f32⟩ : BufTy).Contents (Elt F)),
    unary main_arg1 main_v115 ((extractStridedSlice S1x1600000 ![0, 0] · slices_S2x1600000_S1x1600000_0_0) : (⟨S2x1600000, .i32⟩ : BufTy).Contents (Elt F) → (⟨S1x1600000, .i32⟩ : BufTy).Contents (Elt F)),
    reshape main_v115 main_v116 rfl shapeCasts_S1x1600000_S1600000,
    unary main_arg1 main_v117 ((extractStridedSlice S1x1600000 ![1, 0] · slices_S2x1600000_S1x1600000_1_0) : (⟨S2x1600000, .i32⟩ : BufTy).Contents (Elt F) → (⟨S1x1600000, .i32⟩ : BufTy).Contents (Elt F)),
    reshape main_v117 main_v118 rfl shapeCasts_S1x1600000_S1600000,
    nullary main_c_22 (constantI S_ 32 0#32),
    unary main_c_22 main_v119 (broadcastInDim S1600000 ![] bcast_S_S1600000 : (⟨S_, .i32⟩ : BufTy).Contents (Elt F) → (⟨S1600000, .i32⟩ : BufTy).Contents (Elt F)),
    binary main_v116 main_v119 main_v120 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v121 (broadcastInDim S1600000 ![] bcast_S_S1600000 : (⟨S_, .i32⟩ : BufTy).Contents (Elt F) → (⟨S1600000, .i32⟩ : BufTy).Contents (Elt F)),
    binary main_v116 main_v121 main_v122 (addi : (⟨S1600000, .i32⟩ : BufTy).Contents (Elt F) → (⟨S1600000, .i32⟩ : BufTy).Contents (Elt F) → (⟨S1600000, .i32⟩ : BufTy).Contents (Elt F)),
    ternary main_v120 main_v122 main_v116 main_v123 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v123 main_v124 (broadcastInDim S1600000x1 ![0] bcast_S1600000_S1600000x1_0 : (⟨S1600000, .i32⟩ : BufTy).Contents (Elt F) → (⟨S1600000x1, .i32⟩ : BufTy).Contents (Elt F)),
    binary main_v61 main_v124 main_v125 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_24 (constant S_ .f32 0x00000000#32),
    unary main_cst_24 main_v126 (broadcastInDim S100000x32 ![] bcast_S_S100000x32 : (⟨S_, .f32⟩ : BufTy).Contents (Elt F) → (⟨S100000x32, .f32⟩ : BufTy).Contents (Elt F)),
    unary main_v118 main_v127 (broadcastInDim S1600000x1 ![0] bcast_S1600000_S1600000x1_0 : (⟨S1600000, .i32⟩ : BufTy).Contents (Elt F) → (⟨S1600000x1, .i32⟩ : BufTy).Contents (Elt F)),
    ternary main_v126 main_v127 main_v125 main_v128 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_25 (constant S_ .f32 0x3F800000#32),
    unary main_cst_25 main_v129 (broadcastInDim S1600000 ![] bcast_S_S1600000 : (⟨S_, .f32⟩ : BufTy).Contents (Elt F) → (⟨S1600000, .f32⟩ : BufTy).Contents (Elt F)),
    nullary main_cst_26 (constant S_ .f32 0x00000000#32),
    unary main_cst_26 main_v130 (broadcastInDim S100000 ![] bcast_S_S100000 : (⟨S_, .f32⟩ : BufTy).Contents (Elt F) → (⟨S100000, .f32⟩ : BufTy).Contents (Elt F)),
    unary main_v118 main_v131 (broadcastInDim S1600000x1 ![0] bcast_S1600000_S1600000x1_0 : (⟨S1600000, .i32⟩ : BufTy).Contents (Elt F) → (⟨S1600000x1, .i32⟩ : BufTy).Contents (Elt F)),
    ternary main_v130 main_v131 main_v129 main_v132 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_27 (constant S_ .f32 0x3F800000#32),
    unary main_cst_27 main_v133 (broadcastInDim S100000 ![] bcast_S_S100000 : (⟨S_, .f32⟩ : BufTy).Contents (Elt F) → (⟨S100000, .f32⟩ : BufTy).Contents (Elt F)),
    binary main_v132 main_v133 main_v134 (maximumf : (⟨S100000, .f32⟩ : BufTy).Contents (Elt F) → (⟨S100000, .f32⟩ : BufTy).Contents (Elt F) → (⟨S100000, .f32⟩ : BufTy).Contents (Elt F)),
    unary main_v134 main_v135 (broadcastInDim S100000x1 ![0] bcast_S100000_S100000x1_0 : (⟨S100000, .f32⟩ : BufTy).Contents (Elt F) → (⟨S100000x1, .f32⟩ : BufTy).Contents (Elt F)),
    unary main_v135 main_v136 (broadcastInDim S100000x32 ![0, 1] bcast_S100000x1_S100000x32_0_1 : (⟨S100000x1, .f32⟩ : BufTy).Contents (Elt F) → (⟨S100000x32, .f32⟩ : BufTy).Contents (Elt F)),
    binary main_v128 main_v136 main_v137 (Host.divf : (⟨S100000x32, .f32⟩ : BufTy).Contents (Elt F) → (⟨S100000x32, .f32⟩ : BufTy).Contents (Elt F) → (⟨S100000x32, .f32⟩ : BufTy).Contents (Elt F)),
    unary main_arg2 main_v138 ((extractStridedSlice S1x1600000 ![0, 0] · slices_S2x1600000_S1x1600000_0_0) : (⟨S2x1600000, .i32⟩ : BufTy).Contents (Elt F) → (⟨S1x1600000, .i32⟩ : BufTy).Contents (Elt F)),
    reshape main_v138 main_v139 rfl shapeCasts_S1x1600000_S1600000,
    unary main_arg2 main_v140 ((extractStridedSlice S1x1600000 ![1, 0] · slices_S2x1600000_S1x1600000_1_0) : (⟨S2x1600000, .i32⟩ : BufTy).Contents (Elt F) → (⟨S1x1600000, .i32⟩ : BufTy).Contents (Elt F)),
    reshape main_v140 main_v141 rfl shapeCasts_S1x1600000_S1600000,
    nullary main_c_28 (constantI S_ 32 0#32),
    unary main_c_28 main_v142 (broadcastInDim S1600000 ![] bcast_S_S1600000 : (⟨S_, .i32⟩ : BufTy).Contents (Elt F) → (⟨S1600000, .i32⟩ : BufTy).Contents (Elt F)),
    binary main_v139 main_v142 main_v143 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v144 (broadcastInDim S1600000 ![] bcast_S_S1600000 : (⟨S_, .i32⟩ : BufTy).Contents (Elt F) → (⟨S1600000, .i32⟩ : BufTy).Contents (Elt F)),
    binary main_v139 main_v144 main_v145 (addi : (⟨S1600000, .i32⟩ : BufTy).Contents (Elt F) → (⟨S1600000, .i32⟩ : BufTy).Contents (Elt F) → (⟨S1600000, .i32⟩ : BufTy).Contents (Elt F)),
    ternary main_v143 main_v145 main_v139 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v146 main_v147 (broadcastInDim S1600000x1 ![0] bcast_S1600000_S1600000x1_0 : (⟨S1600000, .i32⟩ : BufTy).Contents (Elt F) → (⟨S1600000x1, .i32⟩ : BufTy).Contents (Elt F)),
    binary main_v60 main_v147 main_v148 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_30 (constant S_ .f32 0x00000000#32),
    unary main_cst_30 main_v149 (broadcastInDim S100000x32 ![] bcast_S_S100000x32 : (⟨S_, .f32⟩ : BufTy).Contents (Elt F) → (⟨S100000x32, .f32⟩ : BufTy).Contents (Elt F)),
    unary main_v141 main_v150 (broadcastInDim S1600000x1 ![0] bcast_S1600000_S1600000x1_0 : (⟨S1600000, .i32⟩ : BufTy).Contents (Elt F) → (⟨S1600000x1, .i32⟩ : BufTy).Contents (Elt F)),
    ternary main_v149 main_v150 main_v148 main_v151 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_31 (constant S_ .f32 0x3F800000#32),
    unary main_cst_31 main_v152 (broadcastInDim S1600000 ![] bcast_S_S1600000 : (⟨S_, .f32⟩ : BufTy).Contents (Elt F) → (⟨S1600000, .f32⟩ : BufTy).Contents (Elt F)),
    nullary main_cst_32 (constant S_ .f32 0x00000000#32),
    unary main_cst_32 main_v153 (broadcastInDim S100000 ![] bcast_S_S100000 : (⟨S_, .f32⟩ : BufTy).Contents (Elt F) → (⟨S100000, .f32⟩ : BufTy).Contents (Elt F)),
    unary main_v141 main_v154 (broadcastInDim S1600000x1 ![0] bcast_S1600000_S1600000x1_0 : (⟨S1600000, .i32⟩ : BufTy).Contents (Elt F) → (⟨S1600000x1, .i32⟩ : BufTy).Contents (Elt F)),
    ternary main_v153 main_v154 main_v152 main_v155 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_33 (constant S_ .f32 0x3F800000#32),
    unary main_cst_33 main_v156 (broadcastInDim S100000 ![] bcast_S_S100000 : (⟨S_, .f32⟩ : BufTy).Contents (Elt F) → (⟨S100000, .f32⟩ : BufTy).Contents (Elt F)),
    binary main_v155 main_v156 main_v157 (maximumf : (⟨S100000, .f32⟩ : BufTy).Contents (Elt F) → (⟨S100000, .f32⟩ : BufTy).Contents (Elt F) → (⟨S100000, .f32⟩ : BufTy).Contents (Elt F)),
    unary main_v157 main_v158 (broadcastInDim S100000x1 ![0] bcast_S100000_S100000x1_0 : (⟨S100000, .f32⟩ : BufTy).Contents (Elt F) → (⟨S100000x1, .f32⟩ : BufTy).Contents (Elt F)),
    unary main_v158 main_v159 (broadcastInDim S100000x32 ![0, 1] bcast_S100000x1_S100000x32_0_1 : (⟨S100000x1, .f32⟩ : BufTy).Contents (Elt F) → (⟨S100000x32, .f32⟩ : BufTy).Contents (Elt F)),
    binary main_v151 main_v159 main_v160 (Host.divf : (⟨S100000x32, .f32⟩ : BufTy).Contents (Elt F) → (⟨S100000x32, .f32⟩ : BufTy).Contents (Elt F) → (⟨S100000x32, .f32⟩ : BufTy).Contents (Elt F)),
    binary main_v137 main_v160 main_v161 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v161 main_arg12 main_v162 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v61 main_arg13 main_v163 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v162 main_v163 main_v164 (addf : (⟨S100000x32, .f32⟩ : BufTy).Contents (Elt F) → (⟨S100000x32, .f32⟩ : BufTy).Contents (Elt F) → (⟨S100000x32, .f32⟩ : BufTy).Contents (Elt F)),
    unary main_arg14 main_v165 (broadcastInDim S1x32 ![1] bcast_S32_S1x32_1 : (⟨S32, .f32⟩ : BufTy).Contents (Elt F) → (⟨S1x32, .f32⟩ : BufTy).Contents (Elt F)),
    unary main_v165 main_v166 (broadcastInDim S100000x32 ![0, 1] bcast_S1x32_S100000x32_0_1 : (⟨S1x32, .f32⟩ : BufTy).Contents (Elt F) → (⟨S100000x32, .f32⟩ : BufTy).Contents (Elt F)),
    binary main_v164 main_v166 main_v167 (addf : (⟨S100000x32, .f32⟩ : BufTy).Contents (Elt F) → (⟨S100000x32, .f32⟩ : BufTy).Contents (Elt F) → (⟨S100000x32, .f32⟩ : BufTy).Contents (Elt F)),
    binary main_v114 main_v167 main_v168 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v168) (TRef.of (T := ⟨S100000x64, .f32⟩) main_call1_v0) (TRef.of (T := ⟨S100000x64, .f32⟩) main_v169) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., nullary_bufs_sub .., unary_bufs_sub .., binary_bufs_sub .., unary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., binary_bufs_sub .., unary_bufs_sub .., unary_bufs_sub .., binary_bufs_sub .., binary_bufs_sub .., nullary_bufs_sub .., unary_bufs_sub .., binary_bufs_sub ..⟩

/-! ## The stretches -/

abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

abbrev ops1 : List (HloOp τ sig (Elt F)) :=
  [ unary main_arg2 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg2 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_4 (constantI S_ 32 0#32),
    unary main_c_4 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_arg0 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v34 (broadcastInDim S100000x64 ![] bcast_S_S100000x64 : (⟨S_, .f32⟩ : BufTy).Contents (Elt F) → (⟨S100000x64, .f32⟩ : BufTy).Contents (Elt F)),
    unary main_v26 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v37 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v38 (broadcastInDim S100000 ![] bcast_S_S100000 : (⟨S_, .f32⟩ : BufTy).Contents (Elt F) → (⟨S100000, .f32⟩ : BufTy).Contents (Elt F)),
    unary main_v26 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v41 (broadcastInDim S100000 ![] bcast_S_S100000 : (⟨S_, .f32⟩ : BufTy).Contents (Elt F) → (⟨S100000, .f32⟩ : BufTy).Contents (Elt F)),
    binary main_v40 main_v41 main_v42 (maximumf : (⟨S100000, .f32⟩ : BufTy).Contents (Elt F) → (⟨S100000, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v36 main_v44 main_v45 (Host.divf : (⟨S100000x64, .f32⟩ : BufTy).Contents (Elt F) → (⟨S100000x64, .f32⟩ : BufTy).Contents (Elt F) → (⟨S100000x64, .f32⟩ : BufTy).Contents (Elt F)) ]

abbrev ops2 : List (HloOp τ sig (Elt F)) :=
  [ binary main_v22 main_arg3 main_v46 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_arg0 main_arg4 main_v47 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v46 main_v47 main_v48 (addf : (⟨S100000x32, .f32⟩ : BufTy).Contents (Elt F) → (⟨S100000x32, .f32⟩ : BufTy).Contents (Elt F) → (⟨S100000x32, .f32⟩ : BufTy).Contents (Elt F)),
    unary main_arg5 main_v49 (broadcastInDim S1x32 ![1] bcast_S32_S1x32_1 : (⟨S32, .f32⟩ : BufTy).Contents (Elt F) → (⟨S1x32, .f32⟩ : BufTy).Contents (Elt F)),
    unary main_v49 main_v50 (broadcastInDim S100000x32 ![0, 1] bcast_S1x32_S100000x32_0_1 : (⟨S1x32, .f32⟩ : BufTy).Contents (Elt F) → (⟨S100000x32, .f32⟩ : BufTy).Contents (Elt F)),
    binary main_v48 main_v50 main_v51 (addf : (⟨S100000x32, .f32⟩ : BufTy).Contents (Elt F) → (⟨S100000x32, .f32⟩ : BufTy).Contents (Elt F) → (⟨S100000x32, .f32⟩ : BufTy).Contents (Elt F)),
    binary main_v45 main_arg6 main_v52 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_arg0 main_arg7 main_v53 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v52 main_v53 main_v54 (addf : (⟨S100000x32, .f32⟩ : BufTy).Contents (Elt F) → (⟨S100000x32, .f32⟩ : BufTy).Contents (Elt F) → (⟨S100000x32, .f32⟩ : BufTy).Contents (Elt F)),
    unary main_arg8 main_v55 (broadcastInDim S1x32 ![1] bcast_S32_S1x32_1 : (⟨S32, .f32⟩ : BufTy).Contents (Elt F) → (⟨S1x32, .f32⟩ : BufTy).Contents (Elt F)),
    unary main_v55 main_v56 (broadcastInDim S100000x32 ![0, 1] bcast_S1x32_S100000x32_0_1 : (⟨S1x32, .f32⟩ : BufTy).Contents (Elt F) → (⟨S100000x32, .f32⟩ : BufTy).Contents (Elt F)),
    binary main_v54 main_v56 main_v57 (addf : (⟨S100000x32, .f32⟩ : BufTy).Contents (Elt F) → (⟨S100000x32, .f32⟩ : BufTy).Contents (Elt F) → (⟨S100000x32, .f32⟩ : BufTy).Contents (Elt F)) ]

abbrev ops3 : List (HloOp τ sig (Elt F)) :=
  [ binary main_v51 main_v57 main_v58 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v58) (TRef.of (T := ⟨S100000x64, .f32⟩) main_call0_v0) (TRef.of (T := ⟨S100000x64, .f32⟩) main_v59) maximumf,
    unary main_v59 main_v60 ((extractStridedSlice S100000x32 ![0, 0] · slices_S100000x64_S100000x32_0_0) : (⟨S100000x64, .f32⟩ : BufTy).Contents (Elt F) → (⟨S100000x32, .f32⟩ : BufTy).Contents (Elt F)),
    unary main_v59 main_v61 ((extractStridedSlice S100000x32 ![0, 32] · slices_S100000x64_S100000x32_0_32) : (⟨S100000x64, .f32⟩ : BufTy).Contents (Elt F) → (⟨S100000x32, .f32⟩ : BufTy).Contents (Elt F)) ]

abbrev ops4 : List (HloOp τ sig (Elt F)) :=
  [ unary main_arg1 main_v62 ((extractStridedSlice S1x1600000 ![0, 0] · slices_S2x1600000_S1x1600000_0_0) : (⟨S2x1600000, .i32⟩ : BufTy).Contents (Elt F) → (⟨S1x1600000, .i32⟩ : BufTy).Contents (Elt F)),
    reshape main_v62 main_v63 rfl shapeCasts_S1x1600000_S1600000,
    unary main_arg1 main_v64 ((extractStridedSlice S1x1600000 ![1, 0] · slices_S2x1600000_S1x1600000_1_0) : (⟨S2x1600000, .i32⟩ : BufTy).Contents (Elt F) → (⟨S1x1600000, .i32⟩ : BufTy).Contents (Elt F)),
    reshape main_v64 main_v65 rfl shapeCasts_S1x1600000_S1600000,
    nullary main_c_10 (constantI S_ 32 0#32),
    unary main_c_10 main_v66 (broadcastInDim S1600000 ![] bcast_S_S1600000 : (⟨S_, .i32⟩ : BufTy).Contents (Elt F) → (⟨S1600000, .i32⟩ : BufTy).Contents (Elt F)),
    binary main_v63 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v68 (broadcastInDim S1600000 ![] bcast_S_S1600000 : (⟨S_, .i32⟩ : BufTy).Contents (Elt F) → (⟨S1600000, .i32⟩ : BufTy).Contents (Elt F)),
    binary main_v63 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v63 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v60 main_v71 main_v72 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_12 (constant S_ .f32 0x00000000#32),
    unary main_cst_12 main_v73 (broadcastInDim S100000x32 ![] bcast_S_S100000x32 : (⟨S_, .f32⟩ : BufTy).Contents (Elt F) → (⟨S100000x32, .f32⟩ : BufTy).Contents (Elt F)),
    unary main_v65 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_13 (constant S_ .f32 0x3F800000#32),
    unary main_cst_13 main_v76 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v77 (broadcastInDim S100000 ![] bcast_S_S100000 : (⟨S_, .f32⟩ : BufTy).Contents (Elt F) → (⟨S100000, .f32⟩ : BufTy).Contents (Elt F)),
    unary main_v65 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v80 (broadcastInDim S100000 ![] bcast_S_S100000 : (⟨S_, .f32⟩ : BufTy).Contents (Elt F) → (⟨S100000, .f32⟩ : BufTy).Contents (Elt F)),
    binary main_v79 main_v80 main_v81 (maximumf : (⟨S100000, .f32⟩ : BufTy).Contents (Elt F) → (⟨S100000, .f32⟩ : BufTy).Contents (Elt F) → (⟨S100000, .f32⟩ : BufTy).Contents (Elt F)),
    unary main_v81 main_v82 (broadcastInDim S100000x1 ![0] bcast_S100000_S100000x1_0 : (⟨S100000, .f32⟩ : BufTy).Contents (Elt F) → (⟨S100000x1, .f32⟩ : BufTy).Contents (Elt F)),
    unary main_v82 main_v83 (broadcastInDim S100000x32 ![0, 1] bcast_S100000x1_S100000x32_0_1 : (⟨S100000x1, .f32⟩ : BufTy).Contents (Elt F) → (⟨S100000x32, .f32⟩ : BufTy).Contents (Elt F)),
    binary main_v75 main_v83 main_v84 (Host.divf : (⟨S100000x32, .f32⟩ : BufTy).Contents (Elt F) → (⟨S100000x32, .f32⟩ : BufTy).Contents (Elt F) → (⟨S100000x32, .f32⟩ : BufTy).Contents (Elt F)) ]

abbrev ops5 : List (HloOp τ sig (Elt F)) :=
  [ unary main_arg2 main_v85 ((extractStridedSlice S1x1600000 ![0, 0] · slices_S2x1600000_S1x1600000_0_0) : (⟨S2x1600000, .i32⟩ : BufTy).Contents (Elt F) → (⟨S1x1600000, .i32⟩ : BufTy).Contents (Elt F)),
    reshape main_v85 main_v86 rfl shapeCasts_S1x1600000_S1600000,
    unary main_arg2 main_v87 ((extractStridedSlice S1x1600000 ![1, 0] · slices_S2x1600000_S1x1600000_1_0) : (⟨S2x1600000, .i32⟩ : BufTy).Contents (Elt F) → (⟨S1x1600000, .i32⟩ : BufTy).Contents (Elt F)),
    reshape main_v87 main_v88 rfl shapeCasts_S1x1600000_S1600000,
    nullary main_c_16 (constantI S_ 32 0#32),
    unary main_c_16 main_v89 (broadcastInDim S1600000 ![] bcast_S_S1600000 : (⟨S_, .i32⟩ : BufTy).Contents (Elt F) → (⟨S1600000, .i32⟩ : BufTy).Contents (Elt F)),
    binary main_v86 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v91 (broadcastInDim S1600000 ![] bcast_S_S1600000 : (⟨S_, .i32⟩ : BufTy).Contents (Elt F) → (⟨S1600000, .i32⟩ : BufTy).Contents (Elt F)),
    binary main_v86 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v86 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v61 main_v94 main_v95 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_18 (constant S_ .f32 0x00000000#32),
    unary main_cst_18 main_v96 (broadcastInDim S100000x32 ![] bcast_S_S100000x32 : (⟨S_, .f32⟩ : BufTy).Contents (Elt F) → (⟨S100000x32, .f32⟩ : BufTy).Contents (Elt F)),
    unary main_v88 main_v97 (broadcastInDim S1600000x1 ![0] bcast_S1600000_S1600000x1_0 : (⟨S1600000, .i32⟩ : BufTy).Contents (Elt F) → (⟨S1600000x1, .i32⟩ : BufTy).Contents (Elt F)),
    ternary main_v96 main_v97 main_v95 main_v98 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_19 (constant S_ .f32 0x3F800000#32),
    unary main_cst_19 main_v99 (broadcastInDim S1600000 ![] bcast_S_S1600000 : (⟨S_, .f32⟩ : BufTy).Contents (Elt F) → (⟨S1600000, .f32⟩ : BufTy).Contents (Elt F)),
    nullary main_cst_20 (constant S_ .f32 0x00000000#32),
    unary main_cst_20 main_v100 (broadcastInDim S100000 ![] bcast_S_S100000 : (⟨S_, .f32⟩ : BufTy).Contents (Elt F) → (⟨S100000, .f32⟩ : BufTy).Contents (Elt F)),
    unary main_v88 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_21 (constant S_ .f32 0x3F800000#32),
    unary main_cst_21 main_v103 (broadcastInDim S100000 ![] bcast_S_S100000 : (⟨S_, .f32⟩ : BufTy).Contents (Elt F) → (⟨S100000, .f32⟩ : BufTy).Contents (Elt F)),
    binary main_v102 main_v103 main_v104 (maximumf : (⟨S100000, .f32⟩ : BufTy).Contents (Elt F) → (⟨S100000, .f32⟩ : BufTy).Contents (Elt F) → (⟨S100000, .f32⟩ : BufTy).Contents (Elt F)),
    unary main_v104 main_v105 (broadcastInDim S100000x1 ![0] bcast_S100000_S100000x1_0 : (⟨S100000, .f32⟩ : BufTy).Contents (Elt F) → (⟨S100000x1, .f32⟩ : BufTy).Contents (Elt F)),
    unary main_v105 main_v106 (broadcastInDim S100000x32 ![0, 1] bcast_S100000x1_S100000x32_0_1 : (⟨S100000x1, .f32⟩ : BufTy).Contents (Elt F) → (⟨S100000x32, .f32⟩ : BufTy).Contents (Elt F)),
    binary main_v98 main_v106 main_v107 (Host.divf : (⟨S100000x32, .f32⟩ : BufTy).Contents (Elt F) → (⟨S100000x32, .f32⟩ : BufTy).Contents (Elt F) → (⟨S100000x32, .f32⟩ : BufTy).Contents (Elt F)) ]

abbrev ops6 : List (HloOp τ sig (Elt F)) :=
  [ binary main_v84 main_v107 main_v108 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v108 main_arg9 main_v109 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v60 main_arg10 main_v110 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v109 main_v110 main_v111 (addf : (⟨S100000x32, .f32⟩ : BufTy).Contents (Elt F) → (⟨S100000x32, .f32⟩ : BufTy).Contents (Elt F) → (⟨S100000x32, .f32⟩ : BufTy).Contents (Elt F)),
    unary main_arg11 main_v112 (broadcastInDim S1x32 ![1] bcast_S32_S1x32_1 : (⟨S32, .f32⟩ : BufTy).Contents (Elt F) → (⟨S1x32, .f32⟩ : BufTy).Contents (Elt F)),
    unary main_v112 main_v113 (broadcastInDim S100000x32 ![0, 1] bcast_S1x32_S100000x32_0_1 : (⟨S1x32, .f32⟩ : BufTy).Contents (Elt F) → (⟨S100000x32, .f32⟩ : BufTy).Contents (Elt F)),
    binary main_v111 main_v113 main_v114 (addf : (⟨S100000x32, .f32⟩ : BufTy).Contents (Elt F) → (⟨S100000x32, .f32⟩ : BufTy).Contents (Elt F) → (⟨S100000x32, .f32⟩ : BufTy).Contents (Elt F)) ]

abbrev ops7 : List (HloOp τ sig (Elt F)) :=
  [ unary main_arg1 main_v115 ((extractStridedSlice S1x1600000 ![0, 0] · slices_S2x1600000_S1x1600000_0_0) : (⟨S2x1600000, .i32⟩ : BufTy).Contents (Elt F) → (⟨S1x1600000, .i32⟩ : BufTy).Contents (Elt F)),
    reshape main_v115 main_v116 rfl shapeCasts_S1x1600000_S1600000,
    unary main_arg1 main_v117 ((extractStridedSlice S1x1600000 ![1, 0] · slices_S2x1600000_S1x1600000_1_0) : (⟨S2x1600000, .i32⟩ : BufTy).Contents (Elt F) → (⟨S1x1600000, .i32⟩ : BufTy).Contents (Elt F)),
    reshape main_v117 main_v118 rfl shapeCasts_S1x1600000_S1600000,
    nullary main_c_22 (constantI S_ 32 0#32),
    unary main_c_22 main_v119 (broadcastInDim S1600000 ![] bcast_S_S1600000 : (⟨S_, .i32⟩ : BufTy).Contents (Elt F) → (⟨S1600000, .i32⟩ : BufTy).Contents (Elt F)),
    binary main_v116 main_v119 main_v120 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v121 (broadcastInDim S1600000 ![] bcast_S_S1600000 : (⟨S_, .i32⟩ : BufTy).Contents (Elt F) → (⟨S1600000, .i32⟩ : BufTy).Contents (Elt F)),
    binary main_v116 main_v121 main_v122 (addi : (⟨S1600000, .i32⟩ : BufTy).Contents (Elt F) → (⟨S1600000, .i32⟩ : BufTy).Contents (Elt F) → (⟨S1600000, .i32⟩ : BufTy).Contents (Elt F)),
    ternary main_v120 main_v122 main_v116 main_v123 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v123 main_v124 (broadcastInDim S1600000x1 ![0] bcast_S1600000_S1600000x1_0 : (⟨S1600000, .i32⟩ : BufTy).Contents (Elt F) → (⟨S1600000x1, .i32⟩ : BufTy).Contents (Elt F)),
    binary main_v61 main_v124 main_v125 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_24 (constant S_ .f32 0x00000000#32),
    unary main_cst_24 main_v126 (broadcastInDim S100000x32 ![] bcast_S_S100000x32 : (⟨S_, .f32⟩ : BufTy).Contents (Elt F) → (⟨S100000x32, .f32⟩ : BufTy).Contents (Elt F)),
    unary main_v118 main_v127 (broadcastInDim S1600000x1 ![0] bcast_S1600000_S1600000x1_0 : (⟨S1600000, .i32⟩ : BufTy).Contents (Elt F) → (⟨S1600000x1, .i32⟩ : BufTy).Contents (Elt F)),
    ternary main_v126 main_v127 main_v125 main_v128 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_25 (constant S_ .f32 0x3F800000#32),
    unary main_cst_25 main_v129 (broadcastInDim S1600000 ![] bcast_S_S1600000 : (⟨S_, .f32⟩ : BufTy).Contents (Elt F) → (⟨S1600000, .f32⟩ : BufTy).Contents (Elt F)),
    nullary main_cst_26 (constant S_ .f32 0x00000000#32),
    unary main_cst_26 main_v130 (broadcastInDim S100000 ![] bcast_S_S100000 : (⟨S_, .f32⟩ : BufTy).Contents (Elt F) → (⟨S100000, .f32⟩ : BufTy).Contents (Elt F)),
    unary main_v118 main_v131 (broadcastInDim S1600000x1 ![0] bcast_S1600000_S1600000x1_0 : (⟨S1600000, .i32⟩ : BufTy).Contents (Elt F) → (⟨S1600000x1, .i32⟩ : BufTy).Contents (Elt F)),
    ternary main_v130 main_v131 main_v129 main_v132 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_27 (constant S_ .f32 0x3F800000#32),
    unary main_cst_27 main_v133 (broadcastInDim S100000 ![] bcast_S_S100000 : (⟨S_, .f32⟩ : BufTy).Contents (Elt F) → (⟨S100000, .f32⟩ : BufTy).Contents (Elt F)),
    binary main_v132 main_v133 main_v134 (maximumf : (⟨S100000, .f32⟩ : BufTy).Contents (Elt F) → (⟨S100000, .f32⟩ : BufTy).Contents (Elt F) → (⟨S100000, .f32⟩ : BufTy).Contents (Elt F)),
    unary main_v134 main_v135 (broadcastInDim S100000x1 ![0] bcast_S100000_S100000x1_0 : (⟨S100000, .f32⟩ : BufTy).Contents (Elt F) → (⟨S100000x1, .f32⟩ : BufTy).Contents (Elt F)),
    unary main_v135 main_v136 (broadcastInDim S100000x32 ![0, 1] bcast_S100000x1_S100000x32_0_1 : (⟨S100000x1, .f32⟩ : BufTy).Contents (Elt F) → (⟨S100000x32, .f32⟩ : BufTy).Contents (Elt F)),
    binary main_v128 main_v136 main_v137 (Host.divf : (⟨S100000x32, .f32⟩ : BufTy).Contents (Elt F) → (⟨S100000x32, .f32⟩ : BufTy).Contents (Elt F) → (⟨S100000x32, .f32⟩ : BufTy).Contents (Elt F)) ]

abbrev ops8 : List (HloOp τ sig (Elt F)) :=
  [ unary main_arg2 main_v138 ((extractStridedSlice S1x1600000 ![0, 0] · slices_S2x1600000_S1x1600000_0_0) : (⟨S2x1600000, .i32⟩ : BufTy).Contents (Elt F) → (⟨S1x1600000, .i32⟩ : BufTy).Contents (Elt F)),
    reshape main_v138 main_v139 rfl shapeCasts_S1x1600000_S1600000,
    unary main_arg2 main_v140 ((extractStridedSlice S1x1600000 ![1, 0] · slices_S2x1600000_S1x1600000_1_0) : (⟨S2x1600000, .i32⟩ : BufTy).Contents (Elt F) → (⟨S1x1600000, .i32⟩ : BufTy).Contents (Elt F)),
    reshape main_v140 main_v141 rfl shapeCasts_S1x1600000_S1600000,
    nullary main_c_28 (constantI S_ 32 0#32),
    unary main_c_28 main_v142 (broadcastInDim S1600000 ![] bcast_S_S1600000 : (⟨S_, .i32⟩ : BufTy).Contents (Elt F) → (⟨S1600000, .i32⟩ : BufTy).Contents (Elt F)),
    binary main_v139 main_v142 main_v143 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v144 (broadcastInDim S1600000 ![] bcast_S_S1600000 : (⟨S_, .i32⟩ : BufTy).Contents (Elt F) → (⟨S1600000, .i32⟩ : BufTy).Contents (Elt F)),
    binary main_v139 main_v144 main_v145 (addi : (⟨S1600000, .i32⟩ : BufTy).Contents (Elt F) → (⟨S1600000, .i32⟩ : BufTy).Contents (Elt F) → (⟨S1600000, .i32⟩ : BufTy).Contents (Elt F)),
    ternary main_v143 main_v145 main_v139 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v146 main_v147 (broadcastInDim S1600000x1 ![0] bcast_S1600000_S1600000x1_0 : (⟨S1600000, .i32⟩ : BufTy).Contents (Elt F) → (⟨S1600000x1, .i32⟩ : BufTy).Contents (Elt F)),
    binary main_v60 main_v147 main_v148 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_30 (constant S_ .f32 0x00000000#32),
    unary main_cst_30 main_v149 (broadcastInDim S100000x32 ![] bcast_S_S100000x32 : (⟨S_, .f32⟩ : BufTy).Contents (Elt F) → (⟨S100000x32, .f32⟩ : BufTy).Contents (Elt F)),
    unary main_v141 main_v150 (broadcastInDim S1600000x1 ![0] bcast_S1600000_S1600000x1_0 : (⟨S1600000, .i32⟩ : BufTy).Contents (Elt F) → (⟨S1600000x1, .i32⟩ : BufTy).Contents (Elt F)),
    ternary main_v149 main_v150 main_v148 main_v151 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_31 (constant S_ .f32 0x3F800000#32),
    unary main_cst_31 main_v152 (broadcastInDim S1600000 ![] bcast_S_S1600000 : (⟨S_, .f32⟩ : BufTy).Contents (Elt F) → (⟨S1600000, .f32⟩ : BufTy).Contents (Elt F)),
    nullary main_cst_32 (constant S_ .f32 0x00000000#32),
    unary main_cst_32 main_v153 (broadcastInDim S100000 ![] bcast_S_S100000 : (⟨S_, .f32⟩ : BufTy).Contents (Elt F) → (⟨S100000, .f32⟩ : BufTy).Contents (Elt F)),
    unary main_v141 main_v154 (broadcastInDim S1600000x1 ![0] bcast_S1600000_S1600000x1_0 : (⟨S1600000, .i32⟩ : BufTy).Contents (Elt F) → (⟨S1600000x1, .i32⟩ : BufTy).Contents (Elt F)),
    ternary main_v153 main_v154 main_v152 main_v155 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_33 (constant S_ .f32 0x3F800000#32),
    unary main_cst_33 main_v156 (broadcastInDim S100000 ![] bcast_S_S100000 : (⟨S_, .f32⟩ : BufTy).Contents (Elt F) → (⟨S100000, .f32⟩ : BufTy).Contents (Elt F)),
    binary main_v155 main_v156 main_v157 (maximumf : (⟨S100000, .f32⟩ : BufTy).Contents (Elt F) → (⟨S100000, .f32⟩ : BufTy).Contents (Elt F) → (⟨S100000, .f32⟩ : BufTy).Contents (Elt F)),
    unary main_v157 main_v158 (broadcastInDim S100000x1 ![0] bcast_S100000_S100000x1_0 : (⟨S100000, .f32⟩ : BufTy).Contents (Elt F) → (⟨S100000x1, .f32⟩ : BufTy).Contents (Elt F)),
    unary main_v158 main_v159 (broadcastInDim S100000x32 ![0, 1] bcast_S100000x1_S100000x32_0_1 : (⟨S100000x1, .f32⟩ : BufTy).Contents (Elt F) → (⟨S100000x32, .f32⟩ : BufTy).Contents (Elt F)),
    binary main_v151 main_v159 main_v160 (Host.divf : (⟨S100000x32, .f32⟩ : BufTy).Contents (Elt F) → (⟨S100000x32, .f32⟩ : BufTy).Contents (Elt F) → (⟨S100000x32, .f32⟩ : BufTy).Contents (Elt F)) ]

abbrev ops9 : List (HloOp τ sig (Elt F)) :=
  [ binary main_v137 main_v160 main_v161 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v161 main_arg12 main_v162 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v61 main_arg13 main_v163 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v162 main_v163 main_v164 (addf : (⟨S100000x32, .f32⟩ : BufTy).Contents (Elt F) → (⟨S100000x32, .f32⟩ : BufTy).Contents (Elt F) → (⟨S100000x32, .f32⟩ : BufTy).Contents (Elt F)),
    unary main_arg14 main_v165 (broadcastInDim S1x32 ![1] bcast_S32_S1x32_1 : (⟨S32, .f32⟩ : BufTy).Contents (Elt F) → (⟨S1x32, .f32⟩ : BufTy).Contents (Elt F)),
    unary main_v165 main_v166 (broadcastInDim S100000x32 ![0, 1] bcast_S1x32_S100000x32_0_1 : (⟨S1x32, .f32⟩ : BufTy).Contents (Elt F) → (⟨S100000x32, .f32⟩ : BufTy).Contents (Elt F)),
    binary main_v164 main_v166 main_v167 (addf : (⟨S100000x32, .f32⟩ : BufTy).Contents (Elt F) → (⟨S100000x32, .f32⟩ : BufTy).Contents (Elt F) → (⟨S100000x32, .f32⟩ : BufTy).Contents (Elt F)) ]

abbrev ops10 : List (HloOp τ sig (Elt F)) :=
  [ binary main_v114 main_v167 main_v168 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v168) (TRef.of (T := ⟨S100000x64, .f32⟩) main_call1_v0) (TRef.of (T := ⟨S100000x64, .f32⟩) main_v169) maximumf ]

set_option maxRecDepth 8192 in
theorem ops_split : (ops : List (HloOp τ sig (Elt F))) = ops0 ++ (ops1 ++ (ops2 ++ (ops3 ++ (ops4 ++ (ops5 ++ (ops6 ++ (ops7 ++ (ops8 ++ (ops9 ++ (ops10)))))))))) := rfl

/-! ## One stretch at a time: what it leaves, from what it finds

A stretch that joins two arrays along an axis starts with the joining operation, so that the joined pieces are values
the stretch finds, not values it computes. -/

set_option maxRecDepth 8192 in
theorem step0_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops0 : List (HloOp τ sig (Elt Ideal))) W (Proc.devRef .tc main_arg0) = x0 := by
  dsimp only [ops0]
  after_results_simp
  exact h_arg0

set_option maxRecDepth 8192 in
theorem step0_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops0 : List (HloOp τ sig (Elt Ideal))) W (Proc.devRef .tc main_arg1) = x1 := by
  dsimp only [ops0]
  after_results_simp
  exact h_arg1

set_option maxRecDepth 8192 in
theorem step0_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops0 : List (HloOp τ sig (Elt Ideal))) W (Proc.devRef .tc main_arg2) = x2 := by
  dsimp only [ops0]
  after_results_simp
  exact h_arg2

set_option maxRecDepth 8192 in
theorem step0_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops0 : List (HloOp τ sig (Elt Ideal))) W (Proc.devRef .tc main_arg3) = x3 := by
  dsimp only [ops0]
  after_results_simp
  exact h_arg3

set_option maxRecDepth 8192 in
theorem step0_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops0 : List (HloOp τ sig (Elt Ideal))) W (Proc.devRef .tc main_arg4) = x4 := by
  dsimp only [ops0]
  after_results_simp
  exact h_arg4

set_option maxRecDepth 8192 in
theorem step0_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops0 : List (HloOp τ sig (Elt Ideal))) W (Proc.devRef .tc main_arg5) = x5 := by
  dsimp only [ops0]
  after_results_simp
  exact h_arg5

set_option maxRecDepth 8192 in
theorem step0_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops0 : List (HloOp τ sig (Elt Ideal))) W (Proc.devRef .tc main_arg6) = x6 := by
  dsimp only [ops0]
  after_results_simp
  exact h_arg6

set_option maxRecDepth 8192 in
theorem step0_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops0 : List (HloOp τ sig (Elt Ideal))) W (Proc.devRef .tc main_arg7) = x7 := by
  dsimp only [ops0]
  after_results_simp
  exact h_arg7

set_option maxRecDepth 8192 in
theorem step0_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops0 : List (HloOp τ sig (Elt Ideal))) W (Proc.devRef .tc main_arg8) = x8 := by
  dsimp only [ops0]
  after_results_simp
  exact h_arg8

set_option maxRecDepth 8192 in
theorem step0_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops0 : List (HloOp τ sig (Elt Ideal))) W (Proc.devRef .tc main_arg9) = x9 := by
  dsimp only [ops0]
  after_results_simp
  exact h_arg9

set_option maxRecDepth 8192 in
theorem step0_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops0 : List (HloOp τ sig (Elt Ideal))) W (Proc.devRef .tc main_arg10) = x10 := by
  dsimp only [ops0]
  after_results_simp
  exact h_arg10

set_option maxRecDepth 8192 in
theorem step0_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops0 : List (HloOp τ sig (Elt Ideal))) W (Proc.devRef .tc main_arg11) = x11 := by
  dsimp only [ops0]
  after_results_simp
  exact h_arg11

set_option maxRecDepth 8192 in
theorem step0_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops0 : List (HloOp τ sig (Elt Ideal))) W (Proc.devRef .tc main_arg12) = x12 := by
  dsimp only [ops0]
  after_results_simp
  exact h_arg12

set_option maxRecDepth 8192 in
theorem step0_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops0 : List (HloOp τ sig (Elt Ideal))) W (Proc.devRef .tc main_arg13) = x13 := by
  dsimp only [ops0]
  after_results_simp
  exact h_arg13

set_option maxRecDepth 8192 in
theorem step0_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops0 : List (HloOp τ sig (Elt Ideal))) W (Proc.devRef .tc main_arg14) = x14 := by
  dsimp only [ops0]
  after_results_simp
  exact h_arg14

set_option maxRecDepth 8192 in
theorem step0_v22 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) :
    after (ops0 : List (HloOp τ sig (Elt Ideal))) W (Proc.devRef .tc main_v22) = (val_main_v22 (F := Ideal) x0 x1) := by
  dsimp only [ops0]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rfl

set_option maxRecDepth 8192 in
theorem step1_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops1 : List (HloOp τ sig (Elt Ideal))) W (Proc.devRef .tc main_arg0) = x0 := by
  dsimp only [ops1]
  after_results_simp
  exact h_arg0

set_option maxRecDepth 8192 in
theorem step1_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops1 : List (HloOp τ sig (Elt Ideal))) W (Proc.devRef .tc main_arg1) = x1 := by
  dsimp only [ops1]
  after_results_simp
  exact h_arg1

set_option maxRecDepth 8192 in
theorem step1_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops1 : List (HloOp τ sig (Elt Ideal))) W (Proc.devRef .tc main_arg2) = x2 := by
  dsimp only [ops1]
  after_results_simp
  exact h_arg2

set_option maxRecDepth 8192 in
theorem step1_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops1 : List (HloOp τ sig (Elt Ideal))) W (Proc.devRef .tc main_arg3) = x3 := by
  dsimp only [ops1]
  after_results_simp
  exact h_arg3

set_option maxRecDepth 8192 in
theorem step1_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops1 : List (HloOp τ sig (Elt Ideal))) W (Proc.devRef .tc main_arg4) = x4 := by
  dsimp only [ops1]
  after_results_simp
  exact h_arg4

set_option maxRecDepth 8192 in
theorem step1_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops1 : List (HloOp τ sig (Elt Ideal))) W (Proc.devRef .tc main_arg5) = x5 := by
  dsimp only [ops1]
  after_results_simp
  exact h_arg5

set_option maxRecDepth 8192 in
theorem step1_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops1 : List (HloOp τ sig (Elt Ideal))) W (Proc.devRef .tc main_arg6) = x6 := by
  dsimp only [ops1]
  after_results_simp
  exact h_arg6

set_option maxRecDepth 8192 in
theorem step1_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops1 : List (HloOp τ sig (Elt Ideal))) W (Proc.devRef .tc main_arg7) = x7 := by
  dsimp only [ops1]
  after_results_simp
  exact h_arg7

set_option maxRecDepth 8192 in
theorem step1_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops1 : List (HloOp τ sig (Elt Ideal))) W (Proc.devRef .tc main_arg8) = x8 := by
  dsimp only [ops1]
  after_results_simp
  exact h_arg8

set_option maxRecDepth 8192 in
theorem step1_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops1 : List (HloOp τ sig (Elt Ideal))) W (Proc.devRef .tc main_arg9) = x9 := by
  dsimp only [ops1]
  after_results_simp
  exact h_arg9

set_option maxRecDepth 8192 in
theorem step1_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops1 : List (HloOp τ sig (Elt Ideal))) W (Proc.devRef .tc main_arg10) = x10 := by
  dsimp only [ops1]
  after_results_simp
  exact h_arg10

set_option maxRecDepth 8192 in
theorem step1_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops1 : List (HloOp τ sig (Elt Ideal))) W (Proc.devRef .tc main_arg11) = x11 := by
  dsimp only [ops1]
  after_results_simp
  exact h_arg11

set_option maxRecDepth 8192 in
theorem step1_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops1 : List (HloOp τ sig (Elt Ideal))) W (Proc.devRef .tc main_arg12) = x12 := by
  dsimp only [ops1]
  after_results_simp
  exact h_arg12

set_option maxRecDepth 8192 in
theorem step1_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops1 : List (HloOp τ sig (Elt Ideal))) W (Proc.devRef .tc main_arg13) = x13 := by
  dsimp only [ops1]
  after_results_simp
  exact h_arg13

set_option maxRecDepth 8192 in
theorem step1_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops1 : List (HloOp τ sig (Elt Ideal))) W (Proc.devRef .tc main_arg14) = x14 := by
  dsimp only [ops1]
  after_results_simp
  exact h_arg14

set_option maxRecDepth 8192 in
theorem step1_v22 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v22 : W (Proc.devRef .tc main_v22) = (val_main_v22 (F := Ideal) x0 x1)) :
    after (ops1 : List (HloOp τ sig (Elt Ideal))) W (Proc.devRef .tc main_v22) = (val_main_v22 (F := Ideal) x0 x1) := by
  dsimp only [ops1]
  after_results_simp
  exact h_v22

set_option maxRecDepth 8192 in
theorem step1_v45 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v22 : W (Proc.devRef .tc main_v22) = (val_main_v22 (F := Ideal) x0 x1)) :
    after (ops1 : List (HloOp τ sig (Elt Ideal))) W (Proc.devRef .tc main_v45) = (val_main_v45 (F := Ideal) x0 x2) := by
  dsimp only [ops1]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v22]
  try rfl

set_option maxRecDepth 8192 in
theorem step2_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops2 : List (HloOp τ sig (Elt Ideal))) W (Proc.devRef .tc main_arg0) = x0 := by
  dsimp only [ops2]
  after_results_simp
  exact h_arg0

set_option maxRecDepth 8192 in
theorem step2_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops2 : List (HloOp τ sig (Elt Ideal))) W (Proc.devRef .tc main_arg1) = x1 := by
  dsimp only [ops2]
  after_results_simp
  exact h_arg1

set_option maxRecDepth 8192 in
theorem step2_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops2 : List (HloOp τ sig (Elt Ideal))) W (Proc.devRef .tc main_arg2) = x2 := by
  dsimp only [ops2]
  after_results_simp
  exact h_arg2

set_option maxRecDepth 8192 in
theorem step2_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops2 : List (HloOp τ sig (Elt Ideal))) W (Proc.devRef .tc main_arg3) = x3 := by
  dsimp only [ops2]
  after_results_simp
  exact h_arg3

set_option maxRecDepth 8192 in
theorem step2_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops2 : List (HloOp τ sig (Elt Ideal))) W (Proc.devRef .tc main_arg4) = x4 := by
  dsimp only [ops2]
  after_results_simp
  exact h_arg4

set_option maxRecDepth 8192 in
theorem step2_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops2 : List (HloOp τ sig (Elt Ideal))) W (Proc.devRef .tc main_arg5) = x5 := by
  dsimp only [ops2]
  after_results_simp
  exact h_arg5

set_option maxRecDepth 8192 in
theorem step2_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops2 : List (HloOp τ sig (Elt Ideal))) W (Proc.devRef .tc main_arg6) = x6 := by
  dsimp only [ops2]
  after_results_simp
  exact h_arg6

set_option maxRecDepth 8192 in
theorem step2_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops2 : List (HloOp τ sig (Elt Ideal))) W (Proc.devRef .tc main_arg7) = x7 := by
  dsimp only [ops2]
  after_results_simp
  exact h_arg7

set_option maxRecDepth 8192 in
theorem step2_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops2 : List (HloOp τ sig (Elt Ideal))) W (Proc.devRef .tc main_arg8) = x8 := by
  dsimp only [ops2]
  after_results_simp
  exact h_arg8

set_option maxRecDepth 8192 in
theorem step2_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops2 : List (HloOp τ sig (Elt Ideal))) W (Proc.devRef .tc main_arg9) = x9 := by
  dsimp only [ops2]
  after_results_simp
  exact h_arg9

set_option maxRecDepth 8192 in
theorem step2_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops2 : List (HloOp τ sig (Elt Ideal))) W (Proc.devRef .tc main_arg10) = x10 := by
  dsimp only [ops2]
  after_results_simp
  exact h_arg10

set_option maxRecDepth 8192 in
theorem step2_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops2 : List (HloOp τ sig (Elt Ideal))) W (Proc.devRef .tc main_arg11) = x11 := by
  dsimp only [ops2]
  after_results_simp
  exact h_arg11

set_option maxRecDepth 8192 in
theorem step2_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops2 : List (HloOp τ sig (Elt Ideal))) W (Proc.devRef .tc main_arg12) = x12 := by
  dsimp only [ops2]
  after_results_simp
  exact h_arg12

set_option maxRecDepth 8192 in
theorem step2_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops2 : List (HloOp τ sig (Elt Ideal))) W (Proc.devRef .tc main_arg13) = x13 := by
  dsimp only [ops2]
  after_results_simp
  exact h_arg13

set_option maxRecDepth 8192 in
theorem step2_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops2 : List (HloOp τ sig (Elt Ideal))) W (Proc.devRef .tc main_arg14) = x14 := by
  dsimp only [ops2]
  after_results_simp
  exact h_arg14

set_option maxRecDepth 8192 in
theorem step2_v51 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v22 : W (Proc.devRef .tc main_v22) = (val_main_v22 (F := Ideal) x0 x1)) (h_v45 : W (Proc.devRef .tc main_v45) = (val_main_v45 (F := Ideal) x0 x2)) :
    after (ops2 : List (HloOp τ sig (Elt Ideal))) W (Proc.devRef .tc main_v51) = (val_main_v51 (F := Ideal) x0 x1 x3 x4 x5) := by
  dsimp only [ops2]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v22]
  try rw [h_v45]
  try rfl

set_option maxRecDepth 8192 in
theorem step2_v57 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v22 : W (Proc.devRef .tc main_v22) = (val_main_v22 (F := Ideal) x0 x1)) (h_v45 : W (Proc.devRef .tc main_v45) = (val_main_v45 (F := Ideal) x0 x2)) :
    after (ops2 : List (HloOp τ sig (Elt Ideal))) W (Proc.devRef .tc main_v57) = (val_main_v57 (F := Ideal) x0 x2 x6 x7 x8) := by
  dsimp only [ops2]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v22]
  try rw [h_v45]
  try rfl

set_option maxRecDepth 8192 in
theorem step3_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops3 : List (HloOp τ sig (Elt Ideal))) W (Proc.devRef .tc main_arg0) = x0 := by
  dsimp only [ops3]
  after_results_simp
  exact h_arg0

set_option maxRecDepth 8192 in
theorem step3_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops3 : List (HloOp τ sig (Elt Ideal))) W (Proc.devRef .tc main_arg1) = x1 := by
  dsimp only [ops3]
  after_results_simp
  exact h_arg1

set_option maxRecDepth 8192 in
theorem step3_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops3 : List (HloOp τ sig (Elt Ideal))) W (Proc.devRef .tc main_arg2) = x2 := by
  dsimp only [ops3]
  after_results_simp
  exact h_arg2

set_option maxRecDepth 8192 in
theorem step3_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops3 : List (HloOp τ sig (Elt Ideal))) W (Proc.devRef .tc main_arg3) = x3 := by
  dsimp only [ops3]
  after_results_simp
  exact h_arg3

set_option maxRecDepth 8192 in
theorem step3_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops3 : List (HloOp τ sig (Elt Ideal))) W (Proc.devRef .tc main_arg4) = x4 := by
  dsimp only [ops3]
  after_results_simp
  exact h_arg4

set_option maxRecDepth 8192 in
theorem step3_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops3 : List (HloOp τ sig (Elt Ideal))) W (Proc.devRef .tc main_arg5) = x5 := by
  dsimp only [ops3]
  after_results_simp
  exact h_arg5

set_option maxRecDepth 8192 in
theorem step3_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops3 : List (HloOp τ sig (Elt Ideal))) W (Proc.devRef .tc main_arg6) = x6 := by
  dsimp only [ops3]
  after_results_simp
  exact h_arg6

set_option maxRecDepth 8192 in
theorem step3_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops3 : List (HloOp τ sig (Elt Ideal))) W (Proc.devRef .tc main_arg7) = x7 := by
  dsimp only [ops3]
  after_results_simp
  exact h_arg7

set_option maxRecDepth 8192 in
theorem step3_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops3 : List (HloOp τ sig (Elt Ideal))) W (Proc.devRef .tc main_arg8) = x8 := by
  dsimp only [ops3]
  after_results_simp
  exact h_arg8

set_option maxRecDepth 8192 in
theorem step3_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops3 : List (HloOp τ sig (Elt Ideal))) W (Proc.devRef .tc main_arg9) = x9 := by
  dsimp only [ops3]
  after_results_simp
  exact h_arg9

set_option maxRecDepth 8192 in
theorem step3_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops3 : List (HloOp τ sig (Elt Ideal))) W (Proc.devRef .tc main_arg10) = x10 := by
  dsimp only [ops3]
  after_results_simp
  exact h_arg10

set_option maxRecDepth 8192 in
theorem step3_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops3 : List (HloOp τ sig (Elt Ideal))) W (Proc.devRef .tc main_arg11) = x11 := by
  dsimp only [ops3]
  after_results_simp
  exact h_arg11

set_option maxRecDepth 8192 in
theorem step3_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops3 : List (HloOp τ sig (Elt Ideal))) W (Proc.devRef .tc main_arg12) = x12 := by
  dsimp only [ops3]
  after_results_simp
  exact h_arg12

set_option maxRecDepth 8192 in
theorem step3_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops3 : List (HloOp τ sig (Elt Ideal))) W (Proc.devRef .tc main_arg13) = x13 := by
  dsimp only [ops3]
  after_results_simp
  exact h_arg13

set_option maxRecDepth 8192 in
theorem step3_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops3 : List (HloOp τ sig (Elt Ideal))) W (Proc.devRef .tc main_arg14) = x14 := by
  dsimp only [ops3]
  after_results_simp
  exact h_arg14

set_option maxRecDepth 8192 in
theorem step3_v60 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v51 : W (Proc.devRef .tc main_v51) = (val_main_v51 (F := Ideal) x0 x1 x3 x4 x5)) (h_v57 : W (Proc.devRef .tc main_v57) = (val_main_v57 (F := Ideal) x0 x2 x6 x7 x8)) :
    after (ops3 : List (HloOp τ sig (Elt Ideal))) W (Proc.devRef .tc main_v60) = (val_main_v60 (F := Ideal) x0 x1 x2 x3 x4 x5 x6 x7 x8) := by
  dsimp only [ops3]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v51]
  try rw [h_v57]
  try rfl

set_option maxRecDepth 8192 in
theorem step3_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v51 : W (Proc.devRef .tc main_v51) = (val_main_v51 (F := Ideal) x0 x1 x3 x4 x5)) (h_v57 : W (Proc.devRef .tc main_v57) = (val_main_v57 (F := Ideal) x0 x2 x6 x7 x8)) :
    after (ops3 : List (HloOp τ sig (Elt Ideal))) W (Proc.devRef .tc main_v61) = (val_main_v61 (F := Ideal) x0 x1 x2 x3 x4 x5 x6 x7 x8) := by
  dsimp only [ops3]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v51]
  try rw [h_v57]
  try rfl

set_option maxRecDepth 8192 in
theorem step4_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops4 : List (HloOp τ sig (Elt Ideal))) W (Proc.devRef .tc main_arg0) = x0 := by
  dsimp only [ops4]
  after_results_simp
  exact h_arg0

set_option maxRecDepth 8192 in
theorem step4_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops4 : List (HloOp τ sig (Elt Ideal))) W (Proc.devRef .tc main_arg1) = x1 := by
  dsimp only [ops4]
  after_results_simp
  exact h_arg1

set_option maxRecDepth 8192 in
theorem step4_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops4 : List (HloOp τ sig (Elt Ideal))) W (Proc.devRef .tc main_arg2) = x2 := by
  dsimp only [ops4]
  after_results_simp
  exact h_arg2

set_option maxRecDepth 8192 in
theorem step4_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops4 : List (HloOp τ sig (Elt Ideal))) W (Proc.devRef .tc main_arg3) = x3 := by
  dsimp only [ops4]
  after_results_simp
  exact h_arg3

set_option maxRecDepth 8192 in
theorem step4_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops4 : List (HloOp τ sig (Elt Ideal))) W (Proc.devRef .tc main_arg4) = x4 := by
  dsimp only [ops4]
  after_results_simp
  exact h_arg4

set_option maxRecDepth 8192 in
theorem step4_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops4 : List (HloOp τ sig (Elt Ideal))) W (Proc.devRef .tc main_arg5) = x5 := by
  dsimp only [ops4]
  after_results_simp
  exact h_arg5

set_option maxRecDepth 8192 in
theorem step4_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops4 : List (HloOp τ sig (Elt Ideal))) W (Proc.devRef .tc main_arg6) = x6 := by
  dsimp only [ops4]
  after_results_simp
  exact h_arg6

set_option maxRecDepth 8192 in
theorem step4_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops4 : List (HloOp τ sig (Elt Ideal))) W (Proc.devRef .tc main_arg7) = x7 := by
  dsimp only [ops4]
  after_results_simp
  exact h_arg7

set_option maxRecDepth 8192 in
theorem step4_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops4 : List (HloOp τ sig (Elt Ideal))) W (Proc.devRef .tc main_arg8) = x8 := by
  dsimp only [ops4]
  after_results_simp
  exact h_arg8

set_option maxRecDepth 8192 in
theorem step4_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops4 : List (HloOp τ sig (Elt Ideal))) W (Proc.devRef .tc main_arg9) = x9 := by
  dsimp only [ops4]
  after_results_simp
  exact h_arg9

set_option maxRecDepth 8192 in
theorem step4_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops4 : List (HloOp τ sig (Elt Ideal))) W (Proc.devRef .tc main_arg10) = x10 := by
  dsimp only [ops4]
  after_results_simp
  exact h_arg10

set_option maxRecDepth 8192 in
theorem step4_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops4 : List (HloOp τ sig (Elt Ideal))) W (Proc.devRef .tc main_arg11) = x11 := by
  dsimp only [ops4]
  after_results_simp
  exact h_arg11

set_option maxRecDepth 8192 in
theorem step4_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops4 : List (HloOp τ sig (Elt Ideal))) W (Proc.devRef .tc main_arg12) = x12 := by
  dsimp only [ops4]
  after_results_simp
  exact h_arg12

set_option maxRecDepth 8192 in
theorem step4_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops4 : List (HloOp τ sig (Elt Ideal))) W (Proc.devRef .tc main_arg13) = x13 := by
  dsimp only [ops4]
  after_results_simp
  exact h_arg13

set_option maxRecDepth 8192 in
theorem step4_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops4 : List (HloOp τ sig (Elt Ideal))) W (Proc.devRef .tc main_arg14) = x14 := by
  dsimp only [ops4]
  after_results_simp
  exact h_arg14

set_option maxRecDepth 8192 in
theorem step4_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v61 : W (Proc.devRef .tc main_v61) = (val_main_v61 (F := Ideal) x0 x1 x2 x3 x4 x5 x6 x7 x8)) :
    after (ops4 : List (HloOp τ sig (Elt Ideal))) W (Proc.devRef .tc main_v61) = (val_main_v61 (F := Ideal) x0 x1 x2 x3 x4 x5 x6 x7 x8) := by
  dsimp only [ops4]
  after_results_simp
  exact h_v61

set_option maxRecDepth 8192 in
theorem step4_v84 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v60 : W (Proc.devRef .tc main_v60) = (val_main_v60 (F := Ideal) x0 x1 x2 x3 x4 x5 x6 x7 x8)) (h_v61 : W (Proc.devRef .tc main_v61) = (val_main_v61 (F := Ideal) x0 x1 x2 x3 x4 x5 x6 x7 x8)) :
    after (ops4 : List (HloOp τ sig (Elt Ideal))) W (Proc.devRef .tc main_v84) = (val_main_v84 (F := Ideal) x0 x1 x2 x3 x4 x5 x6 x7 x8) := by
  dsimp only [ops4]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v60]
  try rw [h_v61]
  try rfl

set_option maxRecDepth 8192 in
theorem step4_v60 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v60 : W (Proc.devRef .tc main_v60) = (val_main_v60 (F := Ideal) x0 x1 x2 x3 x4 x5 x6 x7 x8)) :
    after (ops4 : List (HloOp τ sig (Elt Ideal))) W (Proc.devRef .tc main_v60) = (val_main_v60 (F := Ideal) x0 x1 x2 x3 x4 x5 x6 x7 x8) := by
  dsimp only [ops4]
  after_results_simp
  exact h_v60

set_option maxRecDepth 8192 in
theorem step5_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops5 : List (HloOp τ sig (Elt Ideal))) W (Proc.devRef .tc main_arg0) = x0 := by
  dsimp only [ops5]
  after_results_simp
  exact h_arg0

set_option maxRecDepth 8192 in
theorem step5_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops5 : List (HloOp τ sig (Elt Ideal))) W (Proc.devRef .tc main_arg1) = x1 := by
  dsimp only [ops5]
  after_results_simp
  exact h_arg1

set_option maxRecDepth 8192 in
theorem step5_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops5 : List (HloOp τ sig (Elt Ideal))) W (Proc.devRef .tc main_arg2) = x2 := by
  dsimp only [ops5]
  after_results_simp
  exact h_arg2

set_option maxRecDepth 8192 in
theorem step5_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops5 : List (HloOp τ sig (Elt Ideal))) W (Proc.devRef .tc main_arg3) = x3 := by
  dsimp only [ops5]
  after_results_simp
  exact h_arg3

set_option maxRecDepth 8192 in
theorem step5_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops5 : List (HloOp τ sig (Elt Ideal))) W (Proc.devRef .tc main_arg4) = x4 := by
  dsimp only [ops5]
  after_results_simp
  exact h_arg4

set_option maxRecDepth 8192 in
theorem step5_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops5 : List (HloOp τ sig (Elt Ideal))) W (Proc.devRef .tc main_arg5) = x5 := by
  dsimp only [ops5]
  after_results_simp
  exact h_arg5

set_option maxRecDepth 8192 in
theorem step5_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops5 : List (HloOp τ sig (Elt Ideal))) W (Proc.devRef .tc main_arg6) = x6 := by
  dsimp only [ops5]
  after_results_simp
  exact h_arg6

set_option maxRecDepth 8192 in
theorem step5_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops5 : List (HloOp τ sig (Elt Ideal))) W (Proc.devRef .tc main_arg7) = x7 := by
  dsimp only [ops5]
  after_results_simp
  exact h_arg7

set_option maxRecDepth 8192 in
theorem step5_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops5 : List (HloOp τ sig (Elt Ideal))) W (Proc.devRef .tc main_arg8) = x8 := by
  dsimp only [ops5]
  after_results_simp
  exact h_arg8

set_option maxRecDepth 8192 in
theorem step5_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops5 : List (HloOp τ sig (Elt Ideal))) W (Proc.devRef .tc main_arg9) = x9 := by
  dsimp only [ops5]
  after_results_simp
  exact h_arg9

set_option maxRecDepth 8192 in
theorem step5_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops5 : List (HloOp τ sig (Elt Ideal))) W (Proc.devRef .tc main_arg10) = x10 := by
  dsimp only [ops5]
  after_results_simp
  exact h_arg10

set_option maxRecDepth 8192 in
theorem step5_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops5 : List (HloOp τ sig (Elt Ideal))) W (Proc.devRef .tc main_arg11) = x11 := by
  dsimp only [ops5]
  after_results_simp
  exact h_arg11

set_option maxRecDepth 8192 in
theorem step5_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops5 : List (HloOp τ sig (Elt Ideal))) W (Proc.devRef .tc main_arg12) = x12 := by
  dsimp only [ops5]
  after_results_simp
  exact h_arg12

set_option maxRecDepth 8192 in
theorem step5_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops5 : List (HloOp τ sig (Elt Ideal))) W (Proc.devRef .tc main_arg13) = x13 := by
  dsimp only [ops5]
  after_results_simp
  exact h_arg13

set_option maxRecDepth 8192 in
theorem step5_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops5 : List (HloOp τ sig (Elt Ideal))) W (Proc.devRef .tc main_arg14) = x14 := by
  dsimp only [ops5]
  after_results_simp
  exact h_arg14

set_option maxRecDepth 8192 in
theorem step5_v84 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v84 : W (Proc.devRef .tc main_v84) = (val_main_v84 (F := Ideal) x0 x1 x2 x3 x4 x5 x6 x7 x8)) :
    after (ops5 : List (HloOp τ sig (Elt Ideal))) W (Proc.devRef .tc main_v84) = (val_main_v84 (F := Ideal) x0 x1 x2 x3 x4 x5 x6 x7 x8) := by
  dsimp only [ops5]
  after_results_simp
  exact h_v84

set_option maxRecDepth 8192 in
theorem step5_v107 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v61 : W (Proc.devRef .tc main_v61) = (val_main_v61 (F := Ideal) x0 x1 x2 x3 x4 x5 x6 x7 x8)) (h_v84 : W (Proc.devRef .tc main_v84) = (val_main_v84 (F := Ideal) x0 x1 x2 x3 x4 x5 x6 x7 x8)) (h_v60 : W (Proc.devRef .tc main_v60) = (val_main_v60 (F := Ideal) x0 x1 x2 x3 x4 x5 x6 x7 x8)) :
    after (ops5 : List (HloOp τ sig (Elt Ideal))) W (Proc.devRef .tc main_v107) = (val_main_v107 (F := Ideal) x0 x1 x2 x3 x4 x5 x6 x7 x8) := by
  dsimp only [ops5]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v61]
  try rw [h_v84]
  try rw [h_v60]
  try rfl

set_option maxRecDepth 8192 in
theorem step5_v60 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v60 : W (Proc.devRef .tc main_v60) = (val_main_v60 (F := Ideal) x0 x1 x2 x3 x4 x5 x6 x7 x8)) :
    after (ops5 : List (HloOp τ sig (Elt Ideal))) W (Proc.devRef .tc main_v60) = (val_main_v60 (F := Ideal) x0 x1 x2 x3 x4 x5 x6 x7 x8) := by
  dsimp only [ops5]
  after_results_simp
  exact h_v60

set_option maxRecDepth 8192 in
theorem step5_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v61 : W (Proc.devRef .tc main_v61) = (val_main_v61 (F := Ideal) x0 x1 x2 x3 x4 x5 x6 x7 x8)) :
    after (ops5 : List (HloOp τ sig (Elt Ideal))) W (Proc.devRef .tc main_v61) = (val_main_v61 (F := Ideal) x0 x1 x2 x3 x4 x5 x6 x7 x8) := by
  dsimp only [ops5]
  after_results_simp
  exact h_v61

set_option maxRecDepth 8192 in
theorem step6_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops6 : List (HloOp τ sig (Elt Ideal))) W (Proc.devRef .tc main_arg0) = x0 := by
  dsimp only [ops6]
  after_results_simp
  exact h_arg0

set_option maxRecDepth 8192 in
theorem step6_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops6 : List (HloOp τ sig (Elt Ideal))) W (Proc.devRef .tc main_arg1) = x1 := by
  dsimp only [ops6]
  after_results_simp
  exact h_arg1

set_option maxRecDepth 8192 in
theorem step6_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops6 : List (HloOp τ sig (Elt Ideal))) W (Proc.devRef .tc main_arg2) = x2 := by
  dsimp only [ops6]
  after_results_simp
  exact h_arg2

set_option maxRecDepth 8192 in
theorem step6_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops6 : List (HloOp τ sig (Elt Ideal))) W (Proc.devRef .tc main_arg3) = x3 := by
  dsimp only [ops6]
  after_results_simp
  exact h_arg3

set_option maxRecDepth 8192 in
theorem step6_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops6 : List (HloOp τ sig (Elt Ideal))) W (Proc.devRef .tc main_arg4) = x4 := by
  dsimp only [ops6]
  after_results_simp
  exact h_arg4

set_option maxRecDepth 8192 in
theorem step6_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops6 : List (HloOp τ sig (Elt Ideal))) W (Proc.devRef .tc main_arg5) = x5 := by
  dsimp only [ops6]
  after_results_simp
  exact h_arg5

set_option maxRecDepth 8192 in
theorem step6_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops6 : List (HloOp τ sig (Elt Ideal))) W (Proc.devRef .tc main_arg6) = x6 := by
  dsimp only [ops6]
  after_results_simp
  exact h_arg6

set_option maxRecDepth 8192 in
theorem step6_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops6 : List (HloOp τ sig (Elt Ideal))) W (Proc.devRef .tc main_arg7) = x7 := by
  dsimp only [ops6]
  after_results_simp
  exact h_arg7

set_option maxRecDepth 8192 in
theorem step6_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops6 : List (HloOp τ sig (Elt Ideal))) W (Proc.devRef .tc main_arg8) = x8 := by
  dsimp only [ops6]
  after_results_simp
  exact h_arg8

set_option maxRecDepth 8192 in
theorem step6_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops6 : List (HloOp τ sig (Elt Ideal))) W (Proc.devRef .tc main_arg9) = x9 := by
  dsimp only [ops6]
  after_results_simp
  exact h_arg9

set_option maxRecDepth 8192 in
theorem step6_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops6 : List (HloOp τ sig (Elt Ideal))) W (Proc.devRef .tc main_arg10) = x10 := by
  dsimp only [ops6]
  after_results_simp
  exact h_arg10

set_option maxRecDepth 8192 in
theorem step6_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops6 : List (HloOp τ sig (Elt Ideal))) W (Proc.devRef .tc main_arg11) = x11 := by
  dsimp only [ops6]
  after_results_simp
  exact h_arg11

set_option maxRecDepth 8192 in
theorem step6_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops6 : List (HloOp τ sig (Elt Ideal))) W (Proc.devRef .tc main_arg12) = x12 := by
  dsimp only [ops6]
  after_results_simp
  exact h_arg12

set_option maxRecDepth 8192 in
theorem step6_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops6 : List (HloOp τ sig (Elt Ideal))) W (Proc.devRef .tc main_arg13) = x13 := by
  dsimp only [ops6]
  after_results_simp
  exact h_arg13

set_option maxRecDepth 8192 in
theorem step6_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops6 : List (HloOp τ sig (Elt Ideal))) W (Proc.devRef .tc main_arg14) = x14 := by
  dsimp only [ops6]
  after_results_simp
  exact h_arg14

set_option maxRecDepth 8192 in
theorem step6_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v61 : W (Proc.devRef .tc main_v61) = (val_main_v61 (F := Ideal) x0 x1 x2 x3 x4 x5 x6 x7 x8)) :
    after (ops6 : List (HloOp τ sig (Elt Ideal))) W (Proc.devRef .tc main_v61) = (val_main_v61 (F := Ideal) x0 x1 x2 x3 x4 x5 x6 x7 x8) := by
  dsimp only [ops6]
  after_results_simp
  exact h_v61

set_option maxRecDepth 8192 in
theorem step6_v60 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v60 : W (Proc.devRef .tc main_v60) = (val_main_v60 (F := Ideal) x0 x1 x2 x3 x4 x5 x6 x7 x8)) :
    after (ops6 : List (HloOp τ sig (Elt Ideal))) W (Proc.devRef .tc main_v60) = (val_main_v60 (F := Ideal) x0 x1 x2 x3 x4 x5 x6 x7 x8) := by
  dsimp only [ops6]
  after_results_simp
  exact h_v60

set_option maxRecDepth 8192 in
theorem step6_v114 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v84 : W (Proc.devRef .tc main_v84) = (val_main_v84 (F := Ideal) x0 x1 x2 x3 x4 x5 x6 x7 x8)) (h_v107 : W (Proc.devRef .tc main_v107) = (val_main_v107 (F := Ideal) x0 x1 x2 x3 x4 x5 x6 x7 x8)) (h_v60 : W (Proc.devRef .tc main_v60) = (val_main_v60 (F := Ideal) x0 x1 x2 x3 x4 x5 x6 x7 x8)) (h_v61 : W (Proc.devRef .tc main_v61) = (val_main_v61 (F := Ideal) x0 x1 x2 x3 x4 x5 x6 x7 x8)) :
    after (ops6 : List (HloOp τ sig (Elt Ideal))) W (Proc.devRef .tc main_v114) = (val_main_v114 (F := Ideal) x0 x1 x2 x3 x4 x5 x6 x7 x8 x9 x10 x11) := by
  dsimp only [ops6]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v84]
  try rw [h_v107]
  try rw [h_v60]
  try rw [h_v61]
  try rfl

set_option maxRecDepth 8192 in
theorem step7_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops7 : List (HloOp τ sig (Elt Ideal))) W (Proc.devRef .tc main_arg0) = x0 := by
  dsimp only [ops7]
  after_results_simp
  exact h_arg0

set_option maxRecDepth 8192 in
theorem step7_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops7 : List (HloOp τ sig (Elt Ideal))) W (Proc.devRef .tc main_arg1) = x1 := by
  dsimp only [ops7]
  after_results_simp
  exact h_arg1

set_option maxRecDepth 8192 in
theorem step7_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops7 : List (HloOp τ sig (Elt Ideal))) W (Proc.devRef .tc main_arg2) = x2 := by
  dsimp only [ops7]
  after_results_simp
  exact h_arg2

set_option maxRecDepth 8192 in
theorem step7_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops7 : List (HloOp τ sig (Elt Ideal))) W (Proc.devRef .tc main_arg3) = x3 := by
  dsimp only [ops7]
  after_results_simp
  exact h_arg3

set_option maxRecDepth 8192 in
theorem step7_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops7 : List (HloOp τ sig (Elt Ideal))) W (Proc.devRef .tc main_arg4) = x4 := by
  dsimp only [ops7]
  after_results_simp
  exact h_arg4

set_option maxRecDepth 8192 in
theorem step7_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops7 : List (HloOp τ sig (Elt Ideal))) W (Proc.devRef .tc main_arg5) = x5 := by
  dsimp only [ops7]
  after_results_simp
  exact h_arg5

set_option maxRecDepth 8192 in
theorem step7_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops7 : List (HloOp τ sig (Elt Ideal))) W (Proc.devRef .tc main_arg6) = x6 := by
  dsimp only [ops7]
  after_results_simp
  exact h_arg6

set_option maxRecDepth 8192 in
theorem step7_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops7 : List (HloOp τ sig (Elt Ideal))) W (Proc.devRef .tc main_arg7) = x7 := by
  dsimp only [ops7]
  after_results_simp
  exact h_arg7

set_option maxRecDepth 8192 in
theorem step7_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops7 : List (HloOp τ sig (Elt Ideal))) W (Proc.devRef .tc main_arg8) = x8 := by
  dsimp only [ops7]
  after_results_simp
  exact h_arg8

set_option maxRecDepth 8192 in
theorem step7_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops7 : List (HloOp τ sig (Elt Ideal))) W (Proc.devRef .tc main_arg9) = x9 := by
  dsimp only [ops7]
  after_results_simp
  exact h_arg9

set_option maxRecDepth 8192 in
theorem step7_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops7 : List (HloOp τ sig (Elt Ideal))) W (Proc.devRef .tc main_arg10) = x10 := by
  dsimp only [ops7]
  after_results_simp
  exact h_arg10

set_option maxRecDepth 8192 in
theorem step7_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops7 : List (HloOp τ sig (Elt Ideal))) W (Proc.devRef .tc main_arg11) = x11 := by
  dsimp only [ops7]
  after_results_simp
  exact h_arg11

set_option maxRecDepth 8192 in
theorem step7_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops7 : List (HloOp τ sig (Elt Ideal))) W (Proc.devRef .tc main_arg12) = x12 := by
  dsimp only [ops7]
  after_results_simp
  exact h_arg12

set_option maxRecDepth 8192 in
theorem step7_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops7 : List (HloOp τ sig (Elt Ideal))) W (Proc.devRef .tc main_arg13) = x13 := by
  dsimp only [ops7]
  after_results_simp
  exact h_arg13

set_option maxRecDepth 8192 in
theorem step7_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops7 : List (HloOp τ sig (Elt Ideal))) W (Proc.devRef .tc main_arg14) = x14 := by
  dsimp only [ops7]
  after_results_simp
  exact h_arg14

set_option maxRecDepth 8192 in
theorem step7_v60 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v60 : W (Proc.devRef .tc main_v60) = (val_main_v60 (F := Ideal) x0 x1 x2 x3 x4 x5 x6 x7 x8)) :
    after (ops7 : List (HloOp τ sig (Elt Ideal))) W (Proc.devRef .tc main_v60) = (val_main_v60 (F := Ideal) x0 x1 x2 x3 x4 x5 x6 x7 x8) := by
  dsimp only [ops7]
  after_results_simp
  exact h_v60

set_option maxRecDepth 8192 in
theorem step7_v137 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v61 : W (Proc.devRef .tc main_v61) = (val_main_v61 (F := Ideal) x0 x1 x2 x3 x4 x5 x6 x7 x8)) (h_v60 : W (Proc.devRef .tc main_v60) = (val_main_v60 (F := Ideal) x0 x1 x2 x3 x4 x5 x6 x7 x8)) (h_v114 : W (Proc.devRef .tc main_v114) = (val_main_v114 (F := Ideal) x0 x1 x2 x3 x4 x5 x6 x7 x8 x9 x10 x11)) :
    after (ops7 : List (HloOp τ sig (Elt Ideal))) W (Proc.devRef .tc main_v137) = (val_main_v137 (F := Ideal) x0 x1 x2 x3 x4 x5 x6 x7 x8) := by
  dsimp only [ops7]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v61]
  try rw [h_v60]
  try rw [h_v114]
  try rfl

set_option maxRecDepth 8192 in
theorem step7_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v61 : W (Proc.devRef .tc main_v61) = (val_main_v61 (F := Ideal) x0 x1 x2 x3 x4 x5 x6 x7 x8)) :
    after (ops7 : List (HloOp τ sig (Elt Ideal))) W (Proc.devRef .tc main_v61) = (val_main_v61 (F := Ideal) x0 x1 x2 x3 x4 x5 x6 x7 x8) := by
  dsimp only [ops7]
  after_results_simp
  exact h_v61

set_option maxRecDepth 8192 in
theorem step7_v114 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v114 : W (Proc.devRef .tc main_v114) = (val_main_v114 (F := Ideal) x0 x1 x2 x3 x4 x5 x6 x7 x8 x9 x10 x11)) :
    after (ops7 : List (HloOp τ sig (Elt Ideal))) W (Proc.devRef .tc main_v114) = (val_main_v114 (F := Ideal) x0 x1 x2 x3 x4 x5 x6 x7 x8 x9 x10 x11) := by
  dsimp only [ops7]
  after_results_simp
  exact h_v114

set_option maxRecDepth 8192 in
theorem step8_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops8 : List (HloOp τ sig (Elt Ideal))) W (Proc.devRef .tc main_arg0) = x0 := by
  dsimp only [ops8]
  after_results_simp
  exact h_arg0

set_option maxRecDepth 8192 in
theorem step8_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops8 : List (HloOp τ sig (Elt Ideal))) W (Proc.devRef .tc main_arg1) = x1 := by
  dsimp only [ops8]
  after_results_simp
  exact h_arg1

set_option maxRecDepth 8192 in
theorem step8_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops8 : List (HloOp τ sig (Elt Ideal))) W (Proc.devRef .tc main_arg2) = x2 := by
  dsimp only [ops8]
  after_results_simp
  exact h_arg2

set_option maxRecDepth 8192 in
theorem step8_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops8 : List (HloOp τ sig (Elt Ideal))) W (Proc.devRef .tc main_arg3) = x3 := by
  dsimp only [ops8]
  after_results_simp
  exact h_arg3

set_option maxRecDepth 8192 in
theorem step8_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops8 : List (HloOp τ sig (Elt Ideal))) W (Proc.devRef .tc main_arg4) = x4 := by
  dsimp only [ops8]
  after_results_simp
  exact h_arg4

set_option maxRecDepth 8192 in
theorem step8_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops8 : List (HloOp τ sig (Elt Ideal))) W (Proc.devRef .tc main_arg5) = x5 := by
  dsimp only [ops8]
  after_results_simp
  exact h_arg5

set_option maxRecDepth 8192 in
theorem step8_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops8 : List (HloOp τ sig (Elt Ideal))) W (Proc.devRef .tc main_arg6) = x6 := by
  dsimp only [ops8]
  after_results_simp
  exact h_arg6

set_option maxRecDepth 8192 in
theorem step8_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops8 : List (HloOp τ sig (Elt Ideal))) W (Proc.devRef .tc main_arg7) = x7 := by
  dsimp only [ops8]
  after_results_simp
  exact h_arg7

set_option maxRecDepth 8192 in
theorem step8_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops8 : List (HloOp τ sig (Elt Ideal))) W (Proc.devRef .tc main_arg8) = x8 := by
  dsimp only [ops8]
  after_results_simp
  exact h_arg8

set_option maxRecDepth 8192 in
theorem step8_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops8 : List (HloOp τ sig (Elt Ideal))) W (Proc.devRef .tc main_arg9) = x9 := by
  dsimp only [ops8]
  after_results_simp
  exact h_arg9

set_option maxRecDepth 8192 in
theorem step8_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops8 : List (HloOp τ sig (Elt Ideal))) W (Proc.devRef .tc main_arg10) = x10 := by
  dsimp only [ops8]
  after_results_simp
  exact h_arg10

set_option maxRecDepth 8192 in
theorem step8_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops8 : List (HloOp τ sig (Elt Ideal))) W (Proc.devRef .tc main_arg11) = x11 := by
  dsimp only [ops8]
  after_results_simp
  exact h_arg11

set_option maxRecDepth 8192 in
theorem step8_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops8 : List (HloOp τ sig (Elt Ideal))) W (Proc.devRef .tc main_arg12) = x12 := by
  dsimp only [ops8]
  after_results_simp
  exact h_arg12

set_option maxRecDepth 8192 in
theorem step8_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops8 : List (HloOp τ sig (Elt Ideal))) W (Proc.devRef .tc main_arg13) = x13 := by
  dsimp only [ops8]
  after_results_simp
  exact h_arg13

set_option maxRecDepth 8192 in
theorem step8_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops8 : List (HloOp τ sig (Elt Ideal))) W (Proc.devRef .tc main_arg14) = x14 := by
  dsimp only [ops8]
  after_results_simp
  exact h_arg14

set_option maxRecDepth 8192 in
theorem step8_v137 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v137 : W (Proc.devRef .tc main_v137) = (val_main_v137 (F := Ideal) x0 x1 x2 x3 x4 x5 x6 x7 x8)) :
    after (ops8 : List (HloOp τ sig (Elt Ideal))) W (Proc.devRef .tc main_v137) = (val_main_v137 (F := Ideal) x0 x1 x2 x3 x4 x5 x6 x7 x8) := by
  dsimp only [ops8]
  after_results_simp
  exact h_v137

set_option maxRecDepth 8192 in
theorem step8_v160 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v60 : W (Proc.devRef .tc main_v60) = (val_main_v60 (F := Ideal) x0 x1 x2 x3 x4 x5 x6 x7 x8)) (h_v137 : W (Proc.devRef .tc main_v137) = (val_main_v137 (F := Ideal) x0 x1 x2 x3 x4 x5 x6 x7 x8)) (h_v61 : W (Proc.devRef .tc main_v61) = (val_main_v61 (F := Ideal) x0 x1 x2 x3 x4 x5 x6 x7 x8)) (h_v114 : W (Proc.devRef .tc main_v114) = (val_main_v114 (F := Ideal) x0 x1 x2 x3 x4 x5 x6 x7 x8 x9 x10 x11)) :
    after (ops8 : List (HloOp τ sig (Elt Ideal))) W (Proc.devRef .tc main_v160) = (val_main_v160 (F := Ideal) x0 x1 x2 x3 x4 x5 x6 x7 x8) := by
  dsimp only [ops8]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v60]
  try rw [h_v137]
  try rw [h_v61]
  try rw [h_v114]
  try rfl

set_option maxRecDepth 8192 in
theorem step8_v61 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v61 : W (Proc.devRef .tc main_v61) = (val_main_v61 (F := Ideal) x0 x1 x2 x3 x4 x5 x6 x7 x8)) :
    after (ops8 : List (HloOp τ sig (Elt Ideal))) W (Proc.devRef .tc main_v61) = (val_main_v61 (F := Ideal) x0 x1 x2 x3 x4 x5 x6 x7 x8) := by
  dsimp only [ops8]
  after_results_simp
  exact h_v61

set_option maxRecDepth 8192 in
theorem step8_v114 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v114 : W (Proc.devRef .tc main_v114) = (val_main_v114 (F := Ideal) x0 x1 x2 x3 x4 x5 x6 x7 x8 x9 x10 x11)) :
    after (ops8 : List (HloOp τ sig (Elt Ideal))) W (Proc.devRef .tc main_v114) = (val_main_v114 (F := Ideal) x0 x1 x2 x3 x4 x5 x6 x7 x8 x9 x10 x11) := by
  dsimp only [ops8]
  after_results_simp
  exact h_v114

set_option maxRecDepth 8192 in
theorem step9_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops9 : List (HloOp τ sig (Elt Ideal))) W (Proc.devRef .tc main_arg0) = x0 := by
  dsimp only [ops9]
  after_results_simp
  exact h_arg0

set_option maxRecDepth 8192 in
theorem step9_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops9 : List (HloOp τ sig (Elt Ideal))) W (Proc.devRef .tc main_arg1) = x1 := by
  dsimp only [ops9]
  after_results_simp
  exact h_arg1

set_option maxRecDepth 8192 in
theorem step9_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops9 : List (HloOp τ sig (Elt Ideal))) W (Proc.devRef .tc main_arg2) = x2 := by
  dsimp only [ops9]
  after_results_simp
  exact h_arg2

set_option maxRecDepth 8192 in
theorem step9_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops9 : List (HloOp τ sig (Elt Ideal))) W (Proc.devRef .tc main_arg3) = x3 := by
  dsimp only [ops9]
  after_results_simp
  exact h_arg3

set_option maxRecDepth 8192 in
theorem step9_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops9 : List (HloOp τ sig (Elt Ideal))) W (Proc.devRef .tc main_arg4) = x4 := by
  dsimp only [ops9]
  after_results_simp
  exact h_arg4

set_option maxRecDepth 8192 in
theorem step9_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops9 : List (HloOp τ sig (Elt Ideal))) W (Proc.devRef .tc main_arg5) = x5 := by
  dsimp only [ops9]
  after_results_simp
  exact h_arg5

set_option maxRecDepth 8192 in
theorem step9_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops9 : List (HloOp τ sig (Elt Ideal))) W (Proc.devRef .tc main_arg6) = x6 := by
  dsimp only [ops9]
  after_results_simp
  exact h_arg6

set_option maxRecDepth 8192 in
theorem step9_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops9 : List (HloOp τ sig (Elt Ideal))) W (Proc.devRef .tc main_arg7) = x7 := by
  dsimp only [ops9]
  after_results_simp
  exact h_arg7

set_option maxRecDepth 8192 in
theorem step9_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops9 : List (HloOp τ sig (Elt Ideal))) W (Proc.devRef .tc main_arg8) = x8 := by
  dsimp only [ops9]
  after_results_simp
  exact h_arg8

set_option maxRecDepth 8192 in
theorem step9_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops9 : List (HloOp τ sig (Elt Ideal))) W (Proc.devRef .tc main_arg9) = x9 := by
  dsimp only [ops9]
  after_results_simp
  exact h_arg9

set_option maxRecDepth 8192 in
theorem step9_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops9 : List (HloOp τ sig (Elt Ideal))) W (Proc.devRef .tc main_arg10) = x10 := by
  dsimp only [ops9]
  after_results_simp
  exact h_arg10

set_option maxRecDepth 8192 in
theorem step9_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops9 : List (HloOp τ sig (Elt Ideal))) W (Proc.devRef .tc main_arg11) = x11 := by
  dsimp only [ops9]
  after_results_simp
  exact h_arg11

set_option maxRecDepth 8192 in
theorem step9_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops9 : List (HloOp τ sig (Elt Ideal))) W (Proc.devRef .tc main_arg12) = x12 := by
  dsimp only [ops9]
  after_results_simp
  exact h_arg12

set_option maxRecDepth 8192 in
theorem step9_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops9 : List (HloOp τ sig (Elt Ideal))) W (Proc.devRef .tc main_arg13) = x13 := by
  dsimp only [ops9]
  after_results_simp
  exact h_arg13

set_option maxRecDepth 8192 in
theorem step9_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops9 : List (HloOp τ sig (Elt Ideal))) W (Proc.devRef .tc main_arg14) = x14 := by
  dsimp only [ops9]
  after_results_simp
  exact h_arg14

set_option maxRecDepth 8192 in
theorem step9_v114 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_v114 : W (Proc.devRef .tc main_v114) = (val_main_v114 (F := Ideal) x0 x1 x2 x3 x4 x5 x6 x7 x8 x9 x10 x11)) :
    after (ops9 : List (HloOp τ sig (Elt Ideal))) W (Proc.devRef .tc main_v114) = (val_main_v114 (F := Ideal) x0 x1 x2 x3 x4 x5 x6 x7 x8 x9 x10 x11) := by
  dsimp only [ops9]
  after_results_simp
  exact h_v114

set_option maxRecDepth 8192 in
theorem step9_v167 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v137 : W (Proc.devRef .tc main_v137) = (val_main_v137 (F := Ideal) x0 x1 x2 x3 x4 x5 x6 x7 x8)) (h_v160 : W (Proc.devRef .tc main_v160) = (val_main_v160 (F := Ideal) x0 x1 x2 x3 x4 x5 x6 x7 x8)) (h_v61 : W (Proc.devRef .tc main_v61) = (val_main_v61 (F := Ideal) x0 x1 x2 x3 x4 x5 x6 x7 x8)) (h_v114 : W (Proc.devRef .tc main_v114) = (val_main_v114 (F := Ideal) x0 x1 x2 x3 x4 x5 x6 x7 x8 x9 x10 x11)) :
    after (ops9 : List (HloOp τ sig (Elt Ideal))) W (Proc.devRef .tc main_v167) = (val_main_v167 (F := Ideal) x0 x1 x2 x3 x4 x5 x6 x7 x8 x12 x13 x14) := by
  dsimp only [ops9]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v137]
  try rw [h_v160]
  try rw [h_v61]
  try rw [h_v114]
  try rfl

set_option maxRecDepth 8192 in
theorem step10_arg0 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) :
    after (ops10 : List (HloOp τ sig (Elt Ideal))) W (Proc.devRef .tc main_arg0) = x0 := by
  dsimp only [ops10]
  after_results_simp
  exact h_arg0

set_option maxRecDepth 8192 in
theorem step10_arg1 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg1 : W (Proc.devRef .tc main_arg1) = x1) :
    after (ops10 : List (HloOp τ sig (Elt Ideal))) W (Proc.devRef .tc main_arg1) = x1 := by
  dsimp only [ops10]
  after_results_simp
  exact h_arg1

set_option maxRecDepth 8192 in
theorem step10_arg2 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg2 : W (Proc.devRef .tc main_arg2) = x2) :
    after (ops10 : List (HloOp τ sig (Elt Ideal))) W (Proc.devRef .tc main_arg2) = x2 := by
  dsimp only [ops10]
  after_results_simp
  exact h_arg2

set_option maxRecDepth 8192 in
theorem step10_arg3 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg3 : W (Proc.devRef .tc main_arg3) = x3) :
    after (ops10 : List (HloOp τ sig (Elt Ideal))) W (Proc.devRef .tc main_arg3) = x3 := by
  dsimp only [ops10]
  after_results_simp
  exact h_arg3

set_option maxRecDepth 8192 in
theorem step10_arg4 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg4 : W (Proc.devRef .tc main_arg4) = x4) :
    after (ops10 : List (HloOp τ sig (Elt Ideal))) W (Proc.devRef .tc main_arg4) = x4 := by
  dsimp only [ops10]
  after_results_simp
  exact h_arg4

set_option maxRecDepth 8192 in
theorem step10_arg5 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg5 : W (Proc.devRef .tc main_arg5) = x5) :
    after (ops10 : List (HloOp τ sig (Elt Ideal))) W (Proc.devRef .tc main_arg5) = x5 := by
  dsimp only [ops10]
  after_results_simp
  exact h_arg5

set_option maxRecDepth 8192 in
theorem step10_arg6 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg6 : W (Proc.devRef .tc main_arg6) = x6) :
    after (ops10 : List (HloOp τ sig (Elt Ideal))) W (Proc.devRef .tc main_arg6) = x6 := by
  dsimp only [ops10]
  after_results_simp
  exact h_arg6

set_option maxRecDepth 8192 in
theorem step10_arg7 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg7 : W (Proc.devRef .tc main_arg7) = x7) :
    after (ops10 : List (HloOp τ sig (Elt Ideal))) W (Proc.devRef .tc main_arg7) = x7 := by
  dsimp only [ops10]
  after_results_simp
  exact h_arg7

set_option maxRecDepth 8192 in
theorem step10_arg8 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg8 : W (Proc.devRef .tc main_arg8) = x8) :
    after (ops10 : List (HloOp τ sig (Elt Ideal))) W (Proc.devRef .tc main_arg8) = x8 := by
  dsimp only [ops10]
  after_results_simp
  exact h_arg8

set_option maxRecDepth 8192 in
theorem step10_arg9 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg9 : W (Proc.devRef .tc main_arg9) = x9) :
    after (ops10 : List (HloOp τ sig (Elt Ideal))) W (Proc.devRef .tc main_arg9) = x9 := by
  dsimp only [ops10]
  after_results_simp
  exact h_arg9

set_option maxRecDepth 8192 in
theorem step10_arg10 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg10 : W (Proc.devRef .tc main_arg10) = x10) :
    after (ops10 : List (HloOp τ sig (Elt Ideal))) W (Proc.devRef .tc main_arg10) = x10 := by
  dsimp only [ops10]
  after_results_simp
  exact h_arg10

set_option maxRecDepth 8192 in
theorem step10_arg11 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg11 : W (Proc.devRef .tc main_arg11) = x11) :
    after (ops10 : List (HloOp τ sig (Elt Ideal))) W (Proc.devRef .tc main_arg11) = x11 := by
  dsimp only [ops10]
  after_results_simp
  exact h_arg11

set_option maxRecDepth 8192 in
theorem step10_arg12 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg12 : W (Proc.devRef .tc main_arg12) = x12) :
    after (ops10 : List (HloOp τ sig (Elt Ideal))) W (Proc.devRef .tc main_arg12) = x12 := by
  dsimp only [ops10]
  after_results_simp
  exact h_arg12

set_option maxRecDepth 8192 in
theorem step10_arg13 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg13 : W (Proc.devRef .tc main_arg13) = x13) :
    after (ops10 : List (HloOp τ sig (Elt Ideal))) W (Proc.devRef .tc main_arg13) = x13 := by
  dsimp only [ops10]
  after_results_simp
  exact h_arg13

set_option maxRecDepth 8192 in
theorem step10_arg14 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg14 : W (Proc.devRef .tc main_arg14) = x14) :
    after (ops10 : List (HloOp τ sig (Elt Ideal))) W (Proc.devRef .tc main_arg14) = x14 := by
  dsimp only [ops10]
  after_results_simp
  exact h_arg14

set_option maxRecDepth 8192 in
theorem step10_v169 (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (W : Valuation τ sig (Elt Ideal))
    (h_arg0 : W (Proc.devRef .tc main_arg0) = x0) (h_arg1 : W (Proc.devRef .tc main_arg1) = x1) (h_arg2 : W (Proc.devRef .tc main_arg2) = x2) (h_arg3 : W (Proc.devRef .tc main_arg3) = x3) (h_arg4 : W (Proc.devRef .tc main_arg4) = x4) (h_arg5 : W (Proc.devRef .tc main_arg5) = x5) (h_arg6 : W (Proc.devRef .tc main_arg6) = x6) (h_arg7 : W (Proc.devRef .tc main_arg7) = x7) (h_arg8 : W (Proc.devRef .tc main_arg8) = x8) (h_arg9 : W (Proc.devRef .tc main_arg9) = x9) (h_arg10 : W (Proc.devRef .tc main_arg10) = x10) (h_arg11 : W (Proc.devRef .tc main_arg11) = x11) (h_arg12 : W (Proc.devRef .tc main_arg12) = x12) (h_arg13 : W (Proc.devRef .tc main_arg13) = x13) (h_arg14 : W (Proc.devRef .tc main_arg14) = x14) (h_v114 : W (Proc.devRef .tc main_v114) = (val_main_v114 (F := Ideal) x0 x1 x2 x3 x4 x5 x6 x7 x8 x9 x10 x11)) (h_v167 : W (Proc.devRef .tc main_v167) = (val_main_v167 (F := Ideal) x0 x1 x2 x3 x4 x5 x6 x7 x8 x12 x13 x14)) :
    after (ops10 : List (HloOp τ sig (Elt Ideal))) W (Proc.devRef .tc main_v169) = (val_main_v169 (F := Ideal) x0 x1 x2 x3 x4 x5 x6 x7 x8 x9 x10 x11 x12 x13 x14) := by
  dsimp only [ops10]
  after_results_simp
  try rw [h_arg0]
  try rw [h_arg1]
  try rw [h_arg2]
  try rw [h_arg3]
  try rw [h_arg4]
  try rw [h_arg5]
  try rw [h_arg6]
  try rw [h_arg7]
  try rw [h_arg8]
  try rw [h_arg9]
  try rw [h_arg10]
  try rw [h_arg11]
  try rw [h_arg12]
  try rw [h_arg13]
  try rw [h_arg14]
  try rw [h_v114]
  try rw [h_v167]
  try rfl

/-! ## The whole fold -/

set_option maxHeartbeats 4000000 in
set_option maxRecDepth 8192 in
/-- From contents `V` holding the arguments, the fold of all 210 operations leaves the result at the last stage function
    of the arguments, and the arguments as they were. -/
theorem fold_eq (x0 : (⟨S100000x64, .f32⟩ : BufTy).Contents (Elt Ideal)) (x1 : (⟨S2x1600000, .i32⟩ : BufTy).Contents (Elt Ideal)) (x2 : (⟨S2x1600000, .i32⟩ : BufTy).Contents (Elt Ideal)) (x3 : (⟨S64x32, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S64x32, .f32⟩ : BufTy).Contents (Elt Ideal)) (x8 : (⟨S32, .f32⟩ : BufTy).Contents (Elt Ideal)) (x9 : (⟨S64x32, .f32⟩ : BufTy).Contents (Elt Ideal)) (x10 : (⟨S32x32, .f32⟩ : BufTy).Contents (Elt Ideal)) (x11 : (⟨S32, .f32⟩ : BufTy).Contents (Elt Ideal)) (x12 : (⟨S64x32, .f32⟩ : BufTy).Contents (Elt Ideal)) (x13 : (⟨S32x32, .f32⟩ : BufTy).Contents (Elt Ideal)) (x14 : (⟨S32, .f32⟩ : BufTy).Contents (Elt Ideal)) (V : Valuation τ sig (Elt Ideal))
    (f0_arg0 : V (Proc.devRef .tc main_arg0) = x0)
    (f0_arg1 : V (Proc.devRef .tc main_arg1) = x1)
    (f0_arg2 : V (Proc.devRef .tc main_arg2) = x2)
    (f0_arg3 : V (Proc.devRef .tc main_arg3) = x3)
    (f0_arg4 : V (Proc.devRef .tc main_arg4) = x4)
    (f0_arg5 : V (Proc.devRef .tc main_arg5) = x5)
    (f0_arg6 : V (Proc.devRef .tc main_arg6) = x6)
    (f0_arg7 : V (Proc.devRef .tc main_arg7) = x7)
    (f0_arg8 : V (Proc.devRef .tc main_arg8) = x8)
    (f0_arg9 : V (Proc.devRef .tc main_arg9) = x9)
    (f0_arg10 : V (Proc.devRef .tc main_arg10) = x10)
    (f0_arg11 : V (Proc.devRef .tc main_arg11) = x11)
    (f0_arg12 : V (Proc.devRef .tc main_arg12) = x12)
    (f0_arg13 : V (Proc.devRef .tc main_arg13) = x13)
    (f0_arg14 : V (Proc.devRef .tc main_arg14) = x14) :
    after (ops : List (HloOp τ sig (Elt Ideal))) V (Proc.devRef .tc main_v169) = val_main_v169 (F := Ideal) x0 x1 x2 x3 x4 x5 x6 x7 x8 x9 x10 x11 x12 x13 x14
    ∧ after (ops : List (HloOp τ sig (Elt Ideal))) V (Proc.devRef .tc main_arg0) = x0
    ∧ after (ops : List (HloOp τ sig (Elt Ideal))) V (Proc.devRef .tc main_arg1) = x1
    ∧ after (ops : List (HloOp τ sig (Elt Ideal))) V (Proc.devRef .tc main_arg2) = x2
    ∧ after (ops : List (HloOp τ sig (Elt Ideal))) V (Proc.devRef .tc main_arg3) = x3
    ∧ after (ops : List (HloOp τ sig (Elt Ideal))) V (Proc.devRef .tc main_arg4) = x4
    ∧ after (ops : List (HloOp τ sig (Elt Ideal))) V (Proc.devRef .tc main_arg5) = x5
    ∧ after (ops : List (HloOp τ sig (Elt Ideal))) V (Proc.devRef .tc main_arg6) = x6
    ∧ after (ops : List (HloOp τ sig (Elt Ideal))) V (Proc.devRef .tc main_arg7) = x7
    ∧ after (ops : List (HloOp τ sig (Elt Ideal))) V (Proc.devRef .tc main_arg8) = x8
    ∧ after (ops : List (HloOp τ sig (Elt Ideal))) V (Proc.devRef .tc main_arg9) = x9
    ∧ after (ops : List (HloOp τ sig (Elt Ideal))) V (Proc.devRef .tc main_arg10) = x10
    ∧ after (ops : List (HloOp τ sig (Elt Ideal))) V (Proc.devRef .tc main_arg11) = x11
    ∧ after (ops : List (HloOp τ sig (Elt Ideal))) V (Proc.devRef .tc main_arg12) = x12
    ∧ after (ops : List (HloOp τ sig (Elt Ideal))) V (Proc.devRef .tc main_arg13) = x13
    ∧ after (ops : List (HloOp τ sig (Elt Ideal))) V (Proc.devRef .tc main_arg14) = x14 := by
  rw [ops_split]
  simp only [Cert.LibAfterAppend.after_append]
  have f1_arg0 := step0_arg0 x0 x1 x2 x3 x4 x5 x6 x7 x8 x9 x10 x11 x12 x13 x14 V f0_arg0
  have f1_arg1 := step0_arg1 x0 x1 x2 x3 x4 x5 x6 x7 x8 x9 x10 x11 x12 x13 x14 V f0_arg1
  have f1_arg2 := step0_arg2 x0 x1 x2 x3 x4 x5 x6 x7 x8 x9 x10 x11 x12 x13 x14 V f0_arg2
  have f1_arg3 := step0_arg3 x0 x1 x2 x3 x4 x5 x6 x7 x8 x9 x10 x11 x12 x13 x14 V f0_arg3
  have f1_arg4 := step0_arg4 x0 x1 x2 x3 x4 x5 x6 x7 x8 x9 x10 x11 x12 x13 x14 V f0_arg4
  have f1_arg5 := step0_arg5 x0 x1 x2 x3 x4 x5 x6 x7 x8 x9 x10 x11 x12 x13 x14 V f0_arg5
  have f1_arg6 := step0_arg6 x0 x1 x2 x3 x4 x5 x6 x7 x8 x9 x10 x11 x12 x13 x14 V f0_arg6
  have f1_arg7 := step0_arg7 x0 x1 x2 x3 x4 x5 x6 x7 x8 x9 x10 x11 x12 x13 x14 V f0_arg7
  have f1_arg8 := step0_arg8 x0 x1 x2 x3 x4 x5 x6 x7 x8 x9 x10 x11 x12 x13 x14 V f0_arg8
  have f1_arg9 := step0_arg9 x0 x1 x2 x3 x4 x5 x6 x7 x8 x9 x10 x11 x12 x13 x14 V f0_arg9
  have f1_arg10 := step0_arg10 x0 x1 x2 x3 x4 x5 x6 x7 x8 x9 x10 x11 x12 x13 x14 V f0_arg10
  have f1_arg11 := step0_arg11 x0 x1 x2 x3 x4 x5 x6 x7 x8 x9 x10 x11 x12 x13 x14 V f0_arg11
  have f1_arg12 := step0_arg12 x0 x1 x2 x3 x4 x5 x6 x7 x8 x9 x10 x11 x12 x13 x14 V f0_arg12
  have f1_arg13 := step0_arg13 x0 x1 x2 x3 x4 x5 x6 x7 x8 x9 x10 x11 x12 x13 x14 V f0_arg13
  have f1_arg14 := step0_arg14 x0 x1 x2 x3 x4 x5 x6 x7 x8 x9 x10 x11 x12 x13 x14 V f0_arg14
  have f1_v22 := step0_v22 x0 x1 x2 x3 x4 x5 x6 x7 x8 x9 x10 x11 x12 x13 x14 V f0_arg0 f0_arg1 f0_arg2 f0_arg3 f0_arg4 f0_arg5 f0_arg6 f0_arg7 f0_arg8 f0_arg9 f0_arg10 f0_arg11 f0_arg12 f0_arg13 f0_arg14
  have f2_arg0 := step1_arg0 x0 x1 x2 x3 x4 x5 x6 x7 x8 x9 x10 x11 x12 x13 x14 (after (ops0 : List (HloOp τ sig (Elt Ideal))) V) f1_arg0
  have f2_arg1 := step1_arg1 x0 x1 x2 x3 x4 x5 x6 x7 x8 x9 x10 x11 x12 x13 x14 (after (ops0 : List (HloOp τ sig (Elt Ideal))) V) f1_arg1
  have f2_arg2 := step1_arg2 x0 x1 x2 x3 x4 x5 x6 x7 x8 x9 x10 x11 x12 x13 x14 (after (ops0 : List (HloOp τ sig (Elt Ideal))) V) f1_arg2
  have f2_arg3 := step1_arg3 x0 x1 x2 x3 x4 x5 x6 x7 x8 x9 x10 x11 x12 x13 x14 (after (ops0 : List (HloOp τ sig (Elt Ideal))) V) f1_arg3
  have f2_arg4 := step1_arg4 x0 x1 x2 x3 x4 x5 x6 x7 x8 x9 x10 x11 x12 x13 x14 (after (ops0 : List (HloOp τ sig (Elt Ideal))) V) f1_arg4
  have f2_arg5 := step1_arg5 x0 x1 x2 x3 x4 x5 x6 x7 x8 x9 x10 x11 x12 x13 x14 (after (ops0 : List (HloOp τ sig (Elt Ideal))) V) f1_arg5
  have f2_arg6 := step1_arg6 x0 x1 x2 x3 x4 x5 x6 x7 x8 x9 x10 x11 x12 x13 x14 (after (ops0 : List (HloOp τ sig (Elt Ideal))) V) f1_arg6
  have f2_arg7 := step1_arg7 x0 x1 x2 x3 x4 x5 x6 x7 x8 x9 x10 x11 x12 x13 x14 (after (ops0 : List (HloOp τ sig (Elt Ideal))) V) f1_arg7
  have f2_arg8 := step1_arg8 x0 x1 x2 x3 x4 x5 x6 x7 x8 x9 x10 x11 x12 x13 x14 (after (ops0 : List (HloOp τ sig (Elt Ideal))) V) f1_arg8
  have f2_arg9 := step1_arg9 x0 x1 x2 x3 x4 x5 x6 x7 x8 x9 x10 x11 x12 x13 x14 (after (ops0 : List (HloOp τ sig (Elt Ideal))) V) f1_arg9
  have f2_arg10 := step1_arg10 x0 x1 x2 x3 x4 x5 x6 x7 x8 x9 x10 x11 x12 x13 x14 (after (ops0 : List (HloOp τ sig (Elt Ideal))) V) f1_arg10
  have f2_arg11 := step1_arg11 x0 x1 x2 x3 x4 x5 x6 x7 x8 x9 x10 x11 x12 x13 x14 (after (ops0 : List (HloOp τ sig (Elt Ideal))) V) f1_arg11
  have f2_arg12 := step1_arg12 x0 x1 x2 x3 x4 x5 x6 x7 x8 x9 x10 x11 x12 x13 x14 (after (ops0 : List (HloOp τ sig (Elt Ideal))) V) f1_arg12
  have f2_arg13 := step1_arg13 x0 x1 x2 x3 x4 x5 x6 x7 x8 x9 x10 x11 x12 x13 x14 (after (ops0 : List (HloOp τ sig (Elt Ideal))) V) f1_arg13
  have f2_arg14 := step1_arg14 x0 x1 x2 x3 x4 x5 x6 x7 x8 x9 x10 x11 x12 x13 x14 (after (ops0 : List (HloOp τ sig (Elt Ideal))) V) f1_arg14
  have f2_v22 := step1_v22 x0 x1 x2 x3 x4 x5 x6 x7 x8 x9 x10 x11 x12 x13 x14 (after (ops0 : List (HloOp τ sig (Elt Ideal))) V) f1_v22
  have f2_v45 := step1_v45 x0 x1 x2 x3 x4 x5 x6 x7 x8 x9 x10 x11 x12 x13 x14 (after (ops0 : List (HloOp τ sig (Elt Ideal))) V) f1_arg0 f1_arg1 f1_arg2 f1_arg3 f1_arg4 f1_arg5 f1_arg6 f1_arg7 f1_arg8 f1_arg9 f1_arg10 f1_arg11 f1_arg12 f1_arg13 f1_arg14 f1_v22
  have f3_arg0 := step2_arg0 x0 x1 x2 x3 x4 x5 x6 x7 x8 x9 x10 x11 x12 x13 x14 (after (ops1 : List (HloOp τ sig (Elt Ideal))) (after (ops0 : List (HloOp τ sig (Elt Ideal))) V)) f2_arg0
  have f3_arg1 := step2_arg1 x0 x1 x2 x3 x4 x5 x6 x7 x8 x9 x10 x11 x12 x13 x14 (after (ops1 : List (HloOp τ sig (Elt Ideal))) (after (ops0 : List (HloOp τ sig (Elt Ideal))) V)) f2_arg1
  have f3_arg2 := step2_arg2 x0 x1 x2 x3 x4 x5 x6 x7 x8 x9 x10 x11 x12 x13 x14 (after (ops1 : List (HloOp τ sig (Elt Ideal))) (after (ops0 : List (HloOp τ sig (Elt Ideal))) V)) f2_arg2
  have f3_arg3 := step2_arg3 x0 x1 x2 x3 x4 x5 x6 x7 x8 x9 x10 x11 x12 x13 x14 (after (ops1 : List (HloOp τ sig (Elt Ideal))) (after (ops0 : List (HloOp τ sig (Elt Ideal))) V)) f2_arg3
  have f3_arg4 := step2_arg4 x0 x1 x2 x3 x4 x5 x6 x7 x8 x9 x10 x11 x12 x13 x14 (after (ops1 : List (HloOp τ sig (Elt Ideal))) (after (ops0 : List (HloOp τ sig (Elt Ideal))) V)) f2_arg4
  have f3_arg5 := step2_arg5 x0 x1 x2 x3 x4 x5 x6 x7 x8 x9 x10 x11 x12 x13 x14 (after (ops1 : List (HloOp τ sig (Elt Ideal))) (after (ops0 : List (HloOp τ sig (Elt Ideal))) V)) f2_arg5
  have f3_arg6 := step2_arg6 x0 x1 x2 x3 x4 x5 x6 x7 x8 x9 x10 x11 x12 x13 x14 (after (ops1 : List (HloOp τ sig (Elt Ideal))) (after (ops0 : List (HloOp τ sig (Elt Ideal))) V)) f2_arg6
  have f3_arg7 := step2_arg7 x0 x1 x2 x3 x4 x5 x6 x7 x8 x9 x10 x11 x12 x13 x14 (after (ops1 : List (HloOp τ sig (Elt Ideal))) (after (ops0 : List (HloOp τ sig (Elt Ideal))) V)) f2_arg7
  have f3_arg8 := step2_arg8 x0 x1 x2 x3 x4 x5 x6 x7 x8 x9 x10 x11 x12 x13 x14 (after (ops1 : List (HloOp τ sig (Elt Ideal))) (after (ops0 : List (HloOp τ sig (Elt Ideal))) V)) f2_arg8
  have f3_arg9 := step2_arg9 x0 x1 x2 x3 x4 x5 x6 x7 x8 x9 x10 x11 x12 x13 x14 (after (ops1 : List (HloOp τ sig (Elt Ideal))) (after (ops0 : List (HloOp τ sig (Elt Ideal))) V)) f2_arg9
  have f3_arg10 := step2_arg10 x0 x1 x2 x3 x4 x5 x6 x7 x8 x9 x10 x11 x12 x13 x14 (after (ops1 : List (HloOp τ sig (Elt Ideal))) (after (ops0 : List (HloOp τ sig (Elt Ideal))) V)) f2_arg10
  have f3_arg11 := step2_arg11 x0 x1 x2 x3 x4 x5 x6 x7 x8 x9 x10 x11 x12 x13 x14 (after (ops1 : List (HloOp τ sig (Elt Ideal))) (after (ops0 : List (HloOp τ sig (Elt Ideal))) V)) f2_arg11
  have f3_arg12 := step2_arg12 x0 x1 x2 x3 x4 x5 x6 x7 x8 x9 x10 x11 x12 x13 x14 (after (ops1 : List (HloOp τ sig (Elt Ideal))) (after (ops0 : List (HloOp τ sig (Elt Ideal))) V)) f2_arg12
  have f3_arg13 := step2_arg13 x0 x1 x2 x3 x4 x5 x6 x7 x8 x9 x10 x11 x12 x13 x14 (after (ops1 : List (HloOp τ sig (Elt Ideal))) (after (ops0 : List (HloOp τ sig (Elt Ideal))) V)) f2_arg13
  have f3_arg14 := step2_arg14 x0 x1 x2 x3 x4 x5 x6 x7 x8 x9 x10 x11 x12 x13 x14 (after (ops1 : List (HloOp τ sig (Elt Ideal))) (after (ops0 : List (HloOp τ sig (Elt Ideal))) V)) f2_arg14
  have f3_v51 := step2_v51 x0 x1 x2 x3 x4 x5 x6 x7 x8 x9 x10 x11 x12 x13 x14 (after (ops1 : List (HloOp τ sig (Elt Ideal))) (after (ops0 : List (HloOp τ sig (Elt Ideal))) V)) f2_arg0 f2_arg1 f2_arg2 f2_arg3 f2_arg4 f2_arg5 f2_arg6 f2_arg7 f2_arg8 f2_arg9 f2_arg10 f2_arg11 f2_arg12 f2_arg13 f2_arg14 f2_v22 f2_v45
  have f3_v57 := step2_v57 x0 x1 x2 x3 x4 x5 x6 x7 x8 x9 x10 x11 x12 x13 x14 (after (ops1 : List (HloOp τ sig (Elt Ideal))) (after (ops0 : List (HloOp τ sig (Elt Ideal))) V)) f2_arg0 f2_arg1 f2_arg2 f2_arg3 f2_arg4 f2_arg5 f2_arg6 f2_arg7 f2_arg8 f2_arg9 f2_arg10 f2_arg11 f2_arg12 f2_arg13 f2_arg14 f2_v22 f2_v45
  have f4_arg0 := step3_arg0 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg0
  have f4_arg1 := step3_arg1 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg1
  have f4_arg2 := step3_arg2 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg2
  have f4_arg3 := step3_arg3 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg3
  have f4_arg4 := step3_arg4 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg4
  have f4_arg5 := step3_arg5 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg5
  have f4_arg6 := step3_arg6 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg6
  have f4_arg7 := step3_arg7 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg7
  have f4_arg8 := step3_arg8 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg8
  have f4_arg9 := step3_arg9 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg9
  have f4_arg10 := step3_arg10 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg10
  have f4_arg11 := step3_arg11 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg11
  have f4_arg12 := step3_arg12 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg12
  have f4_arg13 := step3_arg13 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg13
  have f4_arg14 := step3_arg14 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg14
  have f4_v60 := step3_v60 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg0 f3_arg1 f3_arg2 f3_arg3 f3_arg4 f3_arg5 f3_arg6 f3_arg7 f3_arg8 f3_arg9 f3_arg10 f3_arg11 f3_arg12 f3_arg13 f3_arg14 f3_v51 f3_v57
  have f4_v61 := step3_v61 x0 x1 x2 x3 x4 x5 x6 x7 x8 x9 x10 x11 x12 x13 x14 (after (ops2 : List (HloOp τ sig (Elt Ideal))) (after (ops1 : List (HloOp τ sig (Elt Ideal))) (after (ops0 : List (HloOp τ sig (Elt Ideal))) V))) f3_arg0 f3_arg1 f3_arg2 f3_arg3 f3_arg4 f3_arg5 f3_arg6 f3_arg7 f3_arg8 f3_arg9 f3_arg10 f3_arg11 f3_arg12 f3_arg13 f3_arg14 f3_v51 f3_v57
  have f5_arg0 := step4_arg0 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg0
  have f5_arg1 := step4_arg1 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg1
  have f5_arg2 := step4_arg2 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg2
  have f5_arg3 := step4_arg3 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg3
  have f5_arg4 := step4_arg4 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg4
  have f5_arg5 := step4_arg5 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg5
  have f5_arg6 := step4_arg6 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg6
  have f5_arg7 := step4_arg7 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg7
  have f5_arg8 := step4_arg8 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg8
  have f5_arg9 := step4_arg9 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg9
  have f5_arg10 := step4_arg10 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg10
  have f5_arg11 := step4_arg11 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg11
  have f5_arg12 := step4_arg12 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg12
  have f5_arg13 := step4_arg13 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg13
  have f5_arg14 := step4_arg14 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg14
  have f5_v61 := step4_v61 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_v61
  have f5_v84 := step4_v84 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_arg0 f4_arg1 f4_arg2 f4_arg3 f4_arg4 f4_arg5 f4_arg6 f4_arg7 f4_arg8 f4_arg9 f4_arg10 f4_arg11 f4_arg12 f4_arg13 f4_arg14 f4_v60 f4_v61
  have f5_v60 := step4_v60 x0 x1 x2 x3 x4 x5 x6 x7 x8 x9 x10 x11 x12 x13 x14 (after (ops3 : List (HloOp τ sig (Elt Ideal))) (after (ops2 : List (HloOp τ sig (Elt Ideal))) (after (ops1 : List (HloOp τ sig (Elt Ideal))) (after (ops0 : List (HloOp τ sig (Elt Ideal))) V)))) f4_v60
  have f6_arg0 := step5_arg0 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg0
  have f6_arg1 := step5_arg1 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg1
  have f6_arg2 := step5_arg2 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg2
  have f6_arg3 := step5_arg3 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg3
  have f6_arg4 := step5_arg4 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg4
  have f6_arg5 := step5_arg5 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg5
  have f6_arg6 := step5_arg6 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg6
  have f6_arg7 := step5_arg7 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg7
  have f6_arg8 := step5_arg8 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg8
  have f6_arg9 := step5_arg9 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg9
  have f6_arg10 := step5_arg10 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg10
  have f6_arg11 := step5_arg11 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg11
  have f6_arg12 := step5_arg12 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg12
  have f6_arg13 := step5_arg13 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg13
  have f6_arg14 := step5_arg14 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg14
  have f6_v84 := step5_v84 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_v84
  have f6_v107 := step5_v107 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_arg0 f5_arg1 f5_arg2 f5_arg3 f5_arg4 f5_arg5 f5_arg6 f5_arg7 f5_arg8 f5_arg9 f5_arg10 f5_arg11 f5_arg12 f5_arg13 f5_arg14 f5_v61 f5_v84 f5_v60
  have f6_v60 := step5_v60 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_v60
  have f6_v61 := step5_v61 x0 x1 x2 x3 x4 x5 x6 x7 x8 x9 x10 x11 x12 x13 x14 (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))) f5_v61
  have f7_arg0 := step6_arg0 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg0
  have f7_arg1 := step6_arg1 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg1
  have f7_arg2 := step6_arg2 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg2
  have f7_arg3 := step6_arg3 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg3
  have f7_arg4 := step6_arg4 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg4
  have f7_arg5 := step6_arg5 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg5
  have f7_arg6 := step6_arg6 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg6
  have f7_arg7 := step6_arg7 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg7
  have f7_arg8 := step6_arg8 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg8
  have f7_arg9 := step6_arg9 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg9
  have f7_arg10 := step6_arg10 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg10
  have f7_arg11 := step6_arg11 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg11
  have f7_arg12 := step6_arg12 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg12
  have f7_arg13 := step6_arg13 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg13
  have f7_arg14 := step6_arg14 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg14
  have f7_v61 := step6_v61 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_v61
  have f7_v60 := step6_v60 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_v60
  have f7_v114 := step6_v114 x0 x1 x2 x3 x4 x5 x6 x7 x8 x9 x10 x11 x12 x13 x14 (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))) f6_arg0 f6_arg1 f6_arg2 f6_arg3 f6_arg4 f6_arg5 f6_arg6 f6_arg7 f6_arg8 f6_arg9 f6_arg10 f6_arg11 f6_arg12 f6_arg13 f6_arg14 f6_v84 f6_v107 f6_v60 f6_v61
  have f8_arg0 := step7_arg0 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg0
  have f8_arg1 := step7_arg1 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg1
  have f8_arg2 := step7_arg2 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg2
  have f8_arg3 := step7_arg3 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg3
  have f8_arg4 := step7_arg4 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg4
  have f8_arg5 := step7_arg5 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg5
  have f8_arg6 := step7_arg6 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg6
  have f8_arg7 := step7_arg7 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg7
  have f8_arg8 := step7_arg8 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg8
  have f8_arg9 := step7_arg9 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg9
  have f8_arg10 := step7_arg10 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg10
  have f8_arg11 := step7_arg11 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg11
  have f8_arg12 := step7_arg12 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg12
  have f8_arg13 := step7_arg13 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg13
  have f8_arg14 := step7_arg14 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg14
  have f8_v60 := step7_v60 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_v60
  have f8_v137 := step7_v137 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_arg0 f7_arg1 f7_arg2 f7_arg3 f7_arg4 f7_arg5 f7_arg6 f7_arg7 f7_arg8 f7_arg9 f7_arg10 f7_arg11 f7_arg12 f7_arg13 f7_arg14 f7_v61 f7_v60 f7_v114
  have f8_v61 := step7_v61 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_v61
  have f8_v114 := step7_v114 x0 x1 x2 x3 x4 x5 x6 x7 x8 x9 x10 x11 x12 x13 x14 (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))) f7_v114
  have f9_arg0 := step8_arg0 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg0
  have f9_arg1 := step8_arg1 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg1
  have f9_arg2 := step8_arg2 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg2
  have f9_arg3 := step8_arg3 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg3
  have f9_arg4 := step8_arg4 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg4
  have f9_arg5 := step8_arg5 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg5
  have f9_arg6 := step8_arg6 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg6
  have f9_arg7 := step8_arg7 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg7
  have f9_arg8 := step8_arg8 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg8
  have f9_arg9 := step8_arg9 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg9
  have f9_arg10 := step8_arg10 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg10
  have f9_arg11 := step8_arg11 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg11
  have f9_arg12 := step8_arg12 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg12
  have f9_arg13 := step8_arg13 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg13
  have f9_arg14 := step8_arg14 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg14
  have f9_v137 := step8_v137 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_v137
  have f9_v160 := step8_v160 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_arg0 f8_arg1 f8_arg2 f8_arg3 f8_arg4 f8_arg5 f8_arg6 f8_arg7 f8_arg8 f8_arg9 f8_arg10 f8_arg11 f8_arg12 f8_arg13 f8_arg14 f8_v60 f8_v137 f8_v61 f8_v114
  have f9_v61 := step8_v61 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_v61
  have f9_v114 := step8_v114 x0 x1 x2 x3 x4 x5 x6 x7 x8 x9 x10 x11 x12 x13 x14 (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))) f8_v114
  have f10_arg0 := step9_arg0 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg0
  have f10_arg1 := step9_arg1 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg1
  have f10_arg2 := step9_arg2 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg2
  have f10_arg3 := step9_arg3 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg3
  have f10_arg4 := step9_arg4 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg4
  have f10_arg5 := step9_arg5 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg5
  have f10_arg6 := step9_arg6 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg6
  have f10_arg7 := step9_arg7 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg7
  have f10_arg8 := step9_arg8 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg8
  have f10_arg9 := step9_arg9 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg9
  have f10_arg10 := step9_arg10 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg10
  have f10_arg11 := step9_arg11 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg11
  have f10_arg12 := step9_arg12 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg12
  have f10_arg13 := step9_arg13 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg13
  have f10_arg14 := step9_arg14 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg14
  have f10_v114 := step9_v114 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_v114
  have f10_v167 := step9_v167 x0 x1 x2 x3 x4 x5 x6 x7 x8 x9 x10 x11 x12 x13 x14 (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V))))))))) f9_arg0 f9_arg1 f9_arg2 f9_arg3 f9_arg4 f9_arg5 f9_arg6 f9_arg7 f9_arg8 f9_arg9 f9_arg10 f9_arg11 f9_arg12 f9_arg13 f9_arg14 f9_v137 f9_v160 f9_v61 f9_v114
  have f11_arg0 := step10_arg0 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg0
  have f11_arg1 := step10_arg1 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg1
  have f11_arg2 := step10_arg2 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg2
  have f11_arg3 := step10_arg3 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg3
  have f11_arg4 := step10_arg4 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg4
  have f11_arg5 := step10_arg5 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg5
  have f11_arg6 := step10_arg6 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg6
  have f11_arg7 := step10_arg7 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg7
  have f11_arg8 := step10_arg8 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg8
  have f11_arg9 := step10_arg9 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg9
  have f11_arg10 := step10_arg10 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg10
  have f11_arg11 := step10_arg11 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg11
  have f11_arg12 := step10_arg12 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg12
  have f11_arg13 := step10_arg13 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg13
  have f11_arg14 := step10_arg14 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg14
  have f11_v169 := step10_v169 x0 x1 x2 x3 x4 x5 x6 x7 x8 x9 x10 x11 x12 x13 x14 (after (ops9 : List (HloOp τ sig (Elt Ideal))) (after (ops8 : List (HloOp τ sig (Elt Ideal))) (after (ops7 : List (HloOp τ sig (Elt Ideal))) (after (ops6 : List (HloOp τ sig (Elt Ideal))) (after (ops5 : List (HloOp τ sig (Elt Ideal))) (after (ops4 : List (HloOp τ sig (Elt Ideal))) (after (ops3 : List (HloOp τ sig (Elt Ideal))) (after (ops2 : List (HloOp τ sig (Elt Ideal))) (after (ops1 : List (HloOp τ sig (Elt Ideal))) (after (ops0 : List (HloOp τ sig (Elt Ideal))) V)))))))))) f10_arg0 f10_arg1 f10_arg2 f10_arg3 f10_arg4 f10_arg5 f10_arg6 f10_arg7 f10_arg8 f10_arg9 f10_arg10 f10_arg11 f10_arg12 f10_arg13 f10_arg14 f10_v114 f10_v167
  exact ⟨f11_v169, f11_arg0, f11_arg1, f11_arg2, f11_arg3, f11_arg4, f11_arg5, f11_arg6, f11_arg7, f11_arg8, f11_arg9, f11_arg10, f11_arg11, f11_arg12, f11_arg13, f11_arg14⟩

/-- On every device, from any memory with zero counters: every weakly fair execution of @main terminates with the
    result at the last stage function of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have hf := fold_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (launchContents m c) rfl rfl rfl rfl rfl rfl rfl rfl rfl rfl rfl rfl rfl rfl rfl
      exact ⟨(h c main_v169).trans hf.1,
        (h c main_arg0).trans hf.2.1,
        (h c main_arg1).trans hf.2.2.1,
        (h c main_arg2).trans hf.2.2.2.1,
        (h c main_arg3).trans hf.2.2.2.2.1,
        (h c main_arg4).trans hf.2.2.2.2.2.1,
        (h c main_arg5).trans hf.2.2.2.2.2.2.1,
        (h c main_arg6).trans hf.2.2.2.2.2.2.2.1,
        (h c main_arg7).trans hf.2.2.2.2.2.2.2.2.1,
        (h c main_arg8).trans hf.2.2.2.2.2.2.2.2.2.1,
        (h c main_arg9).trans hf.2.2.2.2.2.2.2.2.2.2.1,
        (h c main_arg10).trans hf.2.2.2.2.2.2.2.2.2.2.2.1,
        (h c main_arg11).trans hf.2.2.2.2.2.2.2.2.2.2.2.2.1,
        (h c main_arg12).trans hf.2.2.2.2.2.2.2.2.2.2.2.2.2.1,
        (h c main_arg13).trans hf.2.2.2.2.2.2.2.2.2.2.2.2.2.2.1,
        (h c main_arg14).trans hf.2.2.2.2.2.2.2.2.2.2.2.2.2.2.2⟩)
    (run_seq scopedRefs_eq scopedSems_eq defs main (fun _ => ops) main_eq (fun _ => ops_sub) m ρ)

end Cert.RefRun

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibConcatColumns.lean ====
/-
  Two arrays laid side by side.

  An `[m, n₁]` array and an `[m, n₂]` array joined along their second axis give an `[m, N]` array whose entry at
  `(p, j)` is the first array's entry at `(p, j)` when `j` is below `n₁`, and the second array's entry at
  `(p, j − n₁)` otherwise.
-/
import Idealize.ShloMosaic.Lib.Pipeline.Value
import Idealize.ShloMosaic.Lib.ValueIdx

namespace Cert.LibConcatColumns

open Idealize.ShloMosaic Idealize.ShloMosaic.ValueIdx

variable {α : Type}

/-- Joined along the second axis, at a column `j` of the first piece (`k`, with the same value) the joined array reads
    the first piece. -/
theorem concat_cols_left {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₁)
    (hk : k.val = j.val) :
    concatenate ⟨2, ![m, N]⟩ 1 [⟨⟨2, ![m, n₁]⟩, u⟩, ⟨⟨2, ![m, n₂]⟩, v⟩] h (ix2 p j) = u (ix2 p k) :=
  concatenate_pair_apply_left 1 u v h (ix2 p j) rfl (ix2 p k) fun b =>
    match b with
    | ⟨0, _⟩ => rfl
    | ⟨1, _⟩ => hk

/-- Joined along the second axis, at a column `j` past the first piece (`k + n₁ = j`) the joined array reads the
    second piece at column `k`. -/
theorem concat_cols_right {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₂)
    (hk : k.val + n₁ = j.val) :
    concatenate ⟨2, ![m, N]⟩ 1 [⟨⟨2, ![m, n₁]⟩, u⟩, ⟨⟨2, ![m, n₂]⟩, v⟩] h (ix2 p j) = v (ix2 p k) :=
  concatenate_pair_apply_right 1 u v h (ix2 p j) rfl rfl (ix2 p k)
    (fun b hb =>
      match b, hb with
      | ⟨0, _⟩, _ => rfl
      | ⟨1, _⟩, hb => absurd rfl hb)
    hk

end Cert.LibConcatColumns
-- ==== Proof.Bridge.lean ====
/-
  The reference program's result is the kernel program's result, as functions of the fifteen argument arrays, at
  exact values (the extended reals).

  Both programs are two layers of a signed graph convolution.  The summed messages (the sources' rows gathered and
  added up at the destinations) and the number of edges arriving at a node are the same expressions in both
  programs; they are carried along as opaque functions and never opened.  What differs, and is bridged here:

  * the mean message: the reference divides the summed messages by max(count, 1), the kernel multiplies them by
    1 / max(count, 1).  The divisor is at least one, so never zero, and the two are the same extended real;
  * layer one: the reference computes both halves, joins their 32 columns, clamps the joined array below at zero
    and cuts it into the two halves again; the kernel clamps each half by itself.  Entry by entry these agree;
  * layer two: the reference joins two mean messages into 64 columns and contracts them with a 64-row weight
    matrix; the kernel contracts each 32 columns with the top and with the bottom 32 rows of that matrix and adds
    the two.  A sum over 64 consecutive positions is the sum over the first 32 plus the sum over the last 32.  And
    again the clamp is applied after joining the halves (reference) or to each half (kernel).

  Only the splitting of a finite sum is used; nothing is distributed or cancelled, so the infinite values need no
  separate treatment.
-/
import proofs.«119586_j75204877353504_1_alg».proof.Proof.RStages
import proofs.«119586_j75204877353504_1_alg».proof.Proof.KOut
import proofs.«119586_j75204877353504_1_alg».proof.Proof.LibPlainDot
import proofs.«119586_j75204877353504_1_alg».proof.Proof.LibConcatColumns
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Bridge

open Idealize.ShloMosaic Idealize.ShloMosaic.ValueIdx
open Cert.RefStages Cert.KernelIdeal.Terms Cert.SignedConv

/-- Two arrays of rank two are equal when they agree at every entry (p, q). -/
theorem ext2 {n c : ℕ} {α : Type} {f g : (⟨2, ![n, c]⟩ : Shape).Idx → α}
    (h : ∀ (p : Fin n) (q : Fin c), f (ix2 p q) = g (ix2 p q)) : f = g := by
  funext i
  obtain ⟨p, q, rfl⟩ : ∃ (p : Fin n) (q : Fin c), i = ix2 p q := ⟨i 0, i 1, eq_ix2 i⟩
  exact h p q

/-! ## The mean message: dividing by the clamped count is multiplying by its reciprocal -/

/-- Over 64 features: the summed messages divided by the column of clamped counts are the kernel's mean. -/
theorem mean64_div (x : Feat64) (e : Edges) :
    Host.divf (summed64 x (srcOf e) (dstOf e))
        (broadcastInDim Cert.KernelIdeal.S100000x64 ![0, 1] Cert.KernelIdeal.Gen.bcast_S100000x1_S100000x64_0_1
          (broadcastInDim Cert.KernelIdeal.S100000x1 ![0] Cert.KernelIdeal.Gen.bcast_S100000_S100000x1_0
            (maximumf (arrivals (dstOf e)) onesN)))
      = mean64 x (srcOf e) (dstOf e) (recip (dstOf e)) :=
  (mean_eq (n := 100000) (c := 64) (summed64 x (srcOf e) (dstOf e)) (arrivals (dstOf e))
    Cert.KernelIdeal.Gen.bcast_S_S100000 Cert.KernelIdeal.Gen.bcast_S100000_S100000x1_0
    Cert.KernelIdeal.Gen.bcast_S100000x1_S100000x64_0_1).symm

/-- Over 32 features, the operand any array. -/
theorem mean32_div (u : Feat32) (e : Edges) :
    Host.divf (summed32 u (srcOf e) (dstOf e))
        (broadcastInDim Cert.KernelIdeal.S100000x32 ![0, 1] Cert.KernelIdeal.Gen.bcast_S100000x1_S100000x32_0_1
          (broadcastInDim Cert.KernelIdeal.S100000x1 ![0] Cert.KernelIdeal.Gen.bcast_S100000_S100000x1_0
            (maximumf (arrivals (dstOf e)) onesN)))
      = mean32 u (srcOf e) (dstOf e) (recip (dstOf e)) :=
  (mean_eq (n := 100000) (c := 32) (summed32 u (srcOf e) (dstOf e)) (arrivals (dstOf e))
    Cert.KernelIdeal.Gen.bcast_S_S100000 Cert.KernelIdeal.Gen.bcast_S100000_S100000x1_0
    Cert.KernelIdeal.Gen.bcast_S100000x1_S100000x32_0_1).symm

/-- Layer one's mean over the positive edges. -/
theorem mean_v22 (x0 : Feat64) (x1 : Edges) :
    val_main_v22 (F := Ideal) x0 x1 = mean64 x0 (srcOf x1) (dstOf x1) (recip (dstOf x1)) :=
  mean64_div x0 x1

/-- Layer one's mean over the negative edges. -/
theorem mean_v45 (x0 : Feat64) (x2 : Edges) :
    val_main_v45 (F := Ideal) x0 x2 = mean64 x0 (srcOf x2) (dstOf x2) (recip (dstOf x2)) :=
  mean64_div x0 x2

/-- Layer two, positive half: the mean of the positive features over the positive edges. -/
theorem mean_v84 (x0 : Feat64) (x1 x2 : Edges) (x3 x4 : W64) (x5 : Bias) (x6 x7 : W64) (x8 : Bias) :
    val_main_v84 (F := Ideal) x0 x1 x2 x3 x4 x5 x6 x7 x8
      = mean32 (val_main_v60 (F := Ideal) x0 x1 x2 x3 x4 x5 x6 x7 x8) (srcOf x1) (dstOf x1) (recip (dstOf x1)) :=
  mean32_div (val_main_v60 (F := Ideal) x0 x1 x2 x3 x4 x5 x6 x7 x8) x1

/-- Layer two, positive half: the mean of the negative features over the negative edges. -/
theorem mean_v107 (x0 : Feat64) (x1 x2 : Edges) (x3 x4 : W64) (x5 : Bias) (x6 x7 : W64) (x8 : Bias) :
    val_main_v107 (F := Ideal) x0 x1 x2 x3 x4 x5 x6 x7 x8
      = mean32 (val_main_v61 (F := Ideal) x0 x1 x2 x3 x4 x5 x6 x7 x8) (srcOf x2) (dstOf x2) (recip (dstOf x2)) :=
  mean32_div (val_main_v61 (F := Ideal) x0 x1 x2 x3 x4 x5 x6 x7 x8) x2

/-- Layer two, negative half: the mean of the negative features over the positive edges. -/
theorem mean_v137 (x0 : Feat64) (x1 x2 : Edges) (x3 x4 : W64) (x5 : Bias) (x6 x7 : W64) (x8 : Bias) :
    val_main_v137 (F := Ideal) x0 x1 x2 x3 x4 x5 x6 x7 x8
      = mean32 (val_main_v61 (F := Ideal) x0 x1 x2 x3 x4 x5 x6 x7 x8) (srcOf x1) (dstOf x1) (recip (dstOf x1)) :=
  mean32_div (val_main_v61 (F := Ideal) x0 x1 x2 x3 x4 x5 x6 x7 x8) x1

/-- Layer two, negative half: the mean of the positive features over the negative edges. -/
theorem mean_v160 (x0 : Feat64) (x1 x2 : Edges) (x3 x4 : W64) (x5 : Bias) (x6 x7 : W64) (x8 : Bias) :
    val_main_v160 (F := Ideal) x0 x1 x2 x3 x4 x5 x6 x7 x8
      = mean32 (val_main_v60 (F := Ideal) x0 x1 x2 x3 x4 x5 x6 x7 x8) (srcOf x2) (dstOf x2) (recip (dstOf x2)) :=
  mean32_div (val_main_v60 (F := Ideal) x0 x1 x2 x3 x4 x5 x6 x7 x8) x2

/-! ## The pieces of a dense half, read at an entry -/

/-- The reference program's contraction of a 100000×64 by a 64×32 matrix is the plain matrix product. -/
theorem dot64_plain :
    Cert.ReferenceIdeal.dot_S100000x64_S64x32_S100000x32_1_0_0_1_n_n = DotDims.plain 100000 64 32 := rfl

/-- The reference program's contraction of a 100000×32 by a 32×32 matrix is the plain matrix product. -/
theorem dot32_plain :
    Cert.ReferenceIdeal.dot_S100000x32_S32x32_S100000x32_1_0_0_1_n_n = DotDims.plain 100000 32 32 := rfl

/-- Two 32-column arrays joined, clamped below at zero, the left 32 columns cut out again: the left array clamped. -/
theorem clampJoin_left (a b : FVec Ideal ⟨2, ![100000, 32]⟩ .f32)
    (hc : Shape.Concatenates [⟨2, ![100000, 32]⟩, ⟨2, ![100000, 32]⟩] ⟨2, ![100000, 64]⟩ 1)
    (g0 : (⟨0, ![]⟩ : Shape).BroadcastsInDim ⟨2, ![100000, 64]⟩ ![])
    (hs : (⟨2, ![100000, 64]⟩ : Shape).Slices ![0, 0] ⟨2, ![100000, 32]⟩) (p : Fin 100000) (q : Fin 32) :
    extractStridedSlice ⟨2, ![100000, 32]⟩ ![0, 0]
        (maximumf (concatenate ⟨2, ![100000, 64]⟩ 1 [⟨⟨2, ![100000, 32]⟩, a⟩, ⟨⟨2, ![100000, 32]⟩, b⟩] hc)
          (broadcastInDim ⟨2, ![100000, 64]⟩ ![] g0 (constant (F := Ideal) ⟨0, ![]⟩ .f32 0x00000000#32))) hs (ix2 p q)
      = max (a (ix2 p q)) (Ideal.ofBits .f32 0x00000000#32) := by
  have hq : q.val < 64 := by have := q.isLt; omega
  rw [extractStridedSlice_apply (s := ⟨2, ![100000, 64]⟩) (t := ⟨2, ![100000, 32]⟩) ![0, 0] _ hs (ix2 p q)
    (ix2 p (⟨q.val, hq⟩ : Fin 64)) (fun ax =>
      match ax with
      | ⟨0, _⟩ => by show p.val = 0 + p.val; omega
      | ⟨1, _⟩ => by show q.val = 0 + q.val; omega)]
  rw [maximumf_apply, Cert.LibConcatColumns.concat_cols_left a b hc p ⟨q.val, hq⟩ q rfl,
    broadcastInDim_scalar_apply, constant_apply]

/-- The same, the right 32 columns cut out: the right array clamped. -/
theorem clampJoin_right (a b : FVec Ideal ⟨2, ![100000, 32]⟩ .f32)
    (hc : Shape.Concatenates [⟨2, ![100000, 32]⟩, ⟨2, ![100000, 32]⟩] ⟨2, ![100000, 64]⟩ 1)
    (g0 : (⟨0, ![]⟩ : Shape).BroadcastsInDim ⟨2, ![100000, 64]⟩ ![])
    (hs : (⟨2, ![100000, 64]⟩ : Shape).Slices ![0, 32] ⟨2, ![100000, 32]⟩) (p : Fin 100000) (q : Fin 32) :
    extractStridedSlice ⟨2, ![100000, 32]⟩ ![0, 32]
        (maximumf (concatenate ⟨2, ![100000, 64]⟩ 1 [⟨⟨2, ![100000, 32]⟩, a⟩, ⟨⟨2, ![100000, 32]⟩, b⟩] hc)
          (broadcastInDim ⟨2, ![100000, 64]⟩ ![] g0 (constant (F := Ideal) ⟨0, ![]⟩ .f32 0x00000000#32))) hs (ix2 p q)
      = max (b (ix2 p q)) (Ideal.ofBits .f32 0x00000000#32) := by
  have hq : 32 + q.val < 64 := by have := q.isLt; omega
  rw [extractStridedSlice_apply (s := ⟨2, ![100000, 64]⟩) (t := ⟨2, ![100000, 32]⟩) ![0, 32] _ hs (ix2 p q)
    (ix2 p (⟨32 + q.val, hq⟩ : Fin 64)) (fun ax =>
      match ax with
      | ⟨0, _⟩ => by show p.val = 0 + p.val; omega
      | ⟨1, _⟩ => by show 32 + q.val = 32 + q.val; rfl)]
  rw [maximumf_apply, Cert.LibConcatColumns.concat_cols_right a b hc p ⟨32 + q.val, hq⟩ q
      (by show q.val + 32 = 32 + q.val; omega),
    broadcastInDim_scalar_apply, constant_apply]

/-- The host's sum of two plain products and a bias row, at an entry. -/
theorem host_dense2_apply (A X : FVec Ideal ⟨2, ![100000, 64]⟩ .f32) (W W' : FVec Ideal ⟨2, ![64, 32]⟩ .f32)
    (b : FVec Ideal ⟨1, ![32]⟩ .f32)
    (g1 : (⟨1, ![32]⟩ : Shape).BroadcastsInDim ⟨2, ![1, 32]⟩ ![1])
    (g2 : (⟨2, ![1, 32]⟩ : Shape).BroadcastsInDim ⟨2, ![100000, 32]⟩ ![0, 1]) (p : Fin 100000) (q : Fin 32) :
    addf (addf (Host.dotGeneral (DotDims.plain 100000 64 32) none A W)
            (Host.dotGeneral (DotDims.plain 100000 64 32) none X W'))
        (broadcastInDim ⟨2, ![100000, 32]⟩ ![0, 1] g2 (broadcastInDim ⟨2, ![1, 32]⟩ ![1] g1 b)) (ix2 p q)
      = (∑ j : Fin 64, A (ix2 p j) * W (ix2 j q)) + (∑ j : Fin 64, X (ix2 p j) * W' (ix2 j q)) + b (ix1 q) := by
  rw [addf_apply, addf_apply, hostDotGeneral_plain_apply, hostDotGeneral_plain_apply, Cert.RowWise.biasRow_apply]

/-- Row k of the top 32 rows of a 64-row matrix is its row k. -/
theorem topRows_apply (w : W64) (k q : Fin 32) (hk : k.val < 64) :
    topRows w (ix2 k q) = w (ix2 (⟨k.val, hk⟩ : Fin 64) q) := by
  unfold topRows
  exact extractStridedSlice_apply (s := ⟨2, ![64, 32]⟩) (t := ⟨2, ![32, 32]⟩) ![0, 0] w _ (ix2 k q)
    (ix2 (⟨k.val, hk⟩ : Fin 64) q) (fun ax =>
      match ax with
      | ⟨0, _⟩ => by show k.val = 0 + k.val; omega
      | ⟨1, _⟩ => by show q.val = 0 + q.val; omega)

/-- Row k of the bottom 32 rows of a 64-row matrix is its row k + 32. -/
theorem botRows_apply (w : W64) (k q : Fin 32) (hk : k.val + 32 < 64) :
    botRows w (ix2 k q) = w (ix2 (⟨k.val + 32, hk⟩ : Fin 64) q) := by
  unfold botRows
  exact extractStridedSlice_apply (s := ⟨2, ![64, 32]⟩) (t := ⟨2, ![32, 32]⟩) ![32, 0] w _ (ix2 k q)
    (ix2 (⟨k.val + 32, hk⟩ : Fin 64) q) (fun ax =>
      match ax with
      | ⟨0, _⟩ => by show k.val + 32 = 32 + k.val; omega
      | ⟨1, _⟩ => by show q.val = 0 + q.val; omega)

/-- The product of two joined 32-column arrays with a 64-row matrix, at an entry: the left array against the top
    rows plus the right array against the bottom rows. -/
theorem joined_dot_apply (A₁ A₂ : FVec Ideal ⟨2, ![100000, 32]⟩ .f32) (W : W64)
    (hc : Shape.Concatenates [⟨2, ![100000, 32]⟩, ⟨2, ![100000, 32]⟩] ⟨2, ![100000, 64]⟩ 1)
    (p : Fin 100000) (q : Fin 32) :
    Host.dotGeneral (DotDims.plain 100000 64 32) none
        (concatenate ⟨2, ![100000, 64]⟩ 1 [⟨⟨2, ![100000, 32]⟩, A₁⟩, ⟨⟨2, ![100000, 32]⟩, A₂⟩] hc) W (ix2 p q)
      = (∑ j : Fin 32, A₁ (ix2 p j) * topRows W (ix2 j q)) + (∑ j : Fin 32, A₂ (ix2 p j) * botRows W (ix2 j q)) := by
  rw [hostDotGeneral_plain_apply, sum_split_64]
  refine congrArg₂ (· + ·) (Finset.sum_congr rfl fun k _ => ?_) (Finset.sum_congr rfl fun k _ => ?_)
  · have hk : k.val < 64 := by have := k.isLt; omega
    rw [Cert.LibConcatColumns.concat_cols_left A₁ A₂ hc p ⟨k.val, hk⟩ k rfl, topRows_apply W k q hk]
  · have hk : k.val + 32 < 64 := by have := k.isLt; omega
    rw [Cert.LibConcatColumns.concat_cols_right A₁ A₂ hc p ⟨k.val + 32, hk⟩ k rfl, botRows_apply W k q hk]

/-- The host's sum of the joined product, a plain product and a bias row, at an entry. -/
theorem host_dense3_apply (A₁ A₂ X : FVec Ideal ⟨2, ![100000, 32]⟩ .f32) (W : W64)
    (W₃ : FVec Ideal ⟨2, ![32, 32]⟩ .f32) (b : FVec Ideal ⟨1, ![32]⟩ .f32)
    (hc : Shape.Concatenates [⟨2, ![100000, 32]⟩, ⟨2, ![100000, 32]⟩] ⟨2, ![100000, 64]⟩ 1)
    (g1 : (⟨1, ![32]⟩ : Shape).BroadcastsInDim ⟨2, ![1, 32]⟩ ![1])
    (g2 : (⟨2, ![1, 32]⟩ : Shape).BroadcastsInDim ⟨2, ![100000, 32]⟩ ![0, 1]) (p : Fin 100000) (q : Fin 32) :
    addf (addf (Host.dotGeneral (DotDims.plain 100000 64 32) none
              (concatenate ⟨2, ![100000, 64]⟩ 1 [⟨⟨2, ![100000, 32]⟩, A₁⟩, ⟨⟨2, ![100000, 32]⟩, A₂⟩] hc) W)
            (Host.dotGeneral (DotDims.plain 100000 32 32) none X W₃))
        (broadcastInDim ⟨2, ![100000, 32]⟩ ![0, 1] g2 (broadcastInDim ⟨2, ![1, 32]⟩ ![1] g1 b)) (ix2 p q)
      = (∑ j : Fin 32, A₁ (ix2 p j) * topRows W (ix2 j q)) + (∑ j : Fin 32, A₂ (ix2 p j) * botRows W (ix2 j q))
          + (∑ j : Fin 32, X (ix2 p j) * W₃ (ix2 j q)) + b (ix1 q) := by
  rw [addf_apply, addf_apply, joined_dot_apply, hostDotGeneral_plain_apply, Cert.RowWise.biasRow_apply]

/-! ## Layer one -/

/-- The positive half of layer one: the left columns of the joined, clamped array. -/
theorem layer1_v60 (x0 : Feat64) (x1 x2 : Edges) (x3 x4 : W64) (x5 : Bias) (x6 x7 : W64) (x8 : Bias) :
    val_main_v60 (F := Ideal) x0 x1 x2 x3 x4 x5 x6 x7 x8 = layer1 x0 x1 x3 x4 x5 := by
  refine ext2 (n := 100000) (c := 32) fun p q => ?_
  unfold val_main_v60 val_main_v59 val_main_v58 val_main_call0_v0 val_main_call0_cst
  rw [clampJoin_left]
  unfold val_main_v51 val_main_v48 val_main_v46 val_main_v47 val_main_v50 val_main_v49
  rw [dot64_plain, host_dense2_apply, mean_v22]
  unfold layer1
  rw [dense2_apply]
  unfold asRow
  rw [shapeCast_a_1a_apply]

/-- The negative half of layer one: the right columns of the joined, clamped array. -/
theorem layer1_v61 (x0 : Feat64) (x1 x2 : Edges) (x3 x4 : W64) (x5 : Bias) (x6 x7 : W64) (x8 : Bias) :
    val_main_v61 (F := Ideal) x0 x1 x2 x3 x4 x5 x6 x7 x8 = layer1 x0 x2 x6 x7 x8 := by
  refine ext2 (n := 100000) (c := 32) fun p q => ?_
  unfold val_main_v61 val_main_v59 val_main_v58 val_main_call0_v0 val_main_call0_cst
  rw [clampJoin_right]
  unfold val_main_v57 val_main_v54 val_main_v52 val_main_v53 val_main_v56 val_main_v55
  rw [dot64_plain, host_dense2_apply, mean_v45]
  unfold layer1
  rw [dense2_apply]
  unfold asRow
  rw [shapeCast_a_1a_apply]

/-! ## Layer two -/

/-- The positive half of layer two, clamped, at an entry. -/
theorem half_v114 (x0 : Feat64) (x1 x2 : Edges) (x3 x4 : W64) (x5 : Bias) (x6 x7 : W64) (x8 : Bias) (x9 : W64) (x10 : W32) (x11 : Bias) (p : Fin 100000) (q : Fin 32) :
    max (val_main_v114 (F := Ideal) x0 x1 x2 x3 x4 x5 x6 x7 x8 x9 x10 x11 (ix2 p q)) (Ideal.ofBits .f32 0x00000000#32)
      = layer2 (layer1 x0 x1 x3 x4 x5) x1 (layer1 x0 x2 x6 x7 x8) x2 (layer1 x0 x1 x3 x4 x5) x9 x10 x11 (ix2 p q) := by
  unfold val_main_v114 val_main_v111 val_main_v109 val_main_v110 val_main_v113 val_main_v112 val_main_v108
  rw [mean_v84, mean_v107, layer1_v60, layer1_v61, dot64_plain, dot32_plain, host_dense3_apply]
  unfold layer2
  rw [dense3_apply]
  unfold asRow
  rw [shapeCast_a_1a_apply]

/-- The negative half of layer two, clamped, at an entry. -/
theorem half_v167 (x0 : Feat64) (x1 x2 : Edges) (x3 x4 : W64) (x5 : Bias) (x6 x7 : W64) (x8 : Bias) (x12 : W64) (x13 : W32) (x14 : Bias) (p : Fin 100000) (q : Fin 32) :
    max (val_main_v167 (F := Ideal) x0 x1 x2 x3 x4 x5 x6 x7 x8 x12 x13 x14 (ix2 p q)) (Ideal.ofBits .f32 0x00000000#32)
      = layer2 (layer1 x0 x2 x6 x7 x8) x1 (layer1 x0 x1 x3 x4 x5) x2 (layer1 x0 x2 x6 x7 x8) x12 x13 x14 (ix2 p q) := by
  unfold val_main_v167 val_main_v164 val_main_v162 val_main_v163 val_main_v166 val_main_v165 val_main_v161
  rw [mean_v137, mean_v160, layer1_v60, layer1_v61, dot64_plain, dot32_plain, host_dense3_apply]
  unfold layer2
  rw [dense3_apply]
  unfold asRow
  rw [shapeCast_a_1a_apply]

/-! ## The result -/

/-- THE BRIDGE: the reference program's result is the kernel program's result of the same fifteen arguments. -/
theorem ref_eq_kernel
    (x0 : (⟨Cert.ReferenceIdeal.S100000x64, .f32⟩ : BufTy).Contents (Elt Ideal))
    (x1 x2 : (⟨Cert.ReferenceIdeal.S2x1600000, .i32⟩ : BufTy).Contents (Elt Ideal))
    (x3 x4 : (⟨Cert.ReferenceIdeal.S64x32, .f32⟩ : BufTy).Contents (Elt Ideal))
    (x5 : (⟨Cert.ReferenceIdeal.S32, .f32⟩ : BufTy).Contents (Elt Ideal))
    (x6 x7 : (⟨Cert.ReferenceIdeal.S64x32, .f32⟩ : BufTy).Contents (Elt Ideal))
    (x8 : (⟨Cert.ReferenceIdeal.S32, .f32⟩ : BufTy).Contents (Elt Ideal))
    (x9 : (⟨Cert.ReferenceIdeal.S64x32, .f32⟩ : BufTy).Contents (Elt Ideal))
    (x10 : (⟨Cert.ReferenceIdeal.S32x32, .f32⟩ : BufTy).Contents (Elt Ideal))
    (x11 : (⟨Cert.ReferenceIdeal.S32, .f32⟩ : BufTy).Contents (Elt Ideal))
    (x12 : (⟨Cert.ReferenceIdeal.S64x32, .f32⟩ : BufTy).Contents (Elt Ideal))
    (x13 : (⟨Cert.ReferenceIdeal.S32x32, .f32⟩ : BufTy).Contents (Elt Ideal))
    (x14 : (⟨Cert.ReferenceIdeal.S32, .f32⟩ : BufTy).Contents (Elt Ideal)) :
    Cert.RefStages.val_main_v169 (F := Ideal) x0 x1 x2 x3 x4 x5 x6 x7 x8 x9 x10 x11 x12 x13 x14
      = Cert.KernelIdeal.Terms.kernelOut x0 x1 x2 x3 x4 x5 x6 x7 x8 x9 x10 x11 x12 x13 x14 := by
  refine ext2 (n := 100000) (c := 64) fun p j => ?_
  unfold val_main_v169 val_main_v168 val_main_call1_v0 val_main_call1_cst kernelOut
  rw [maximumf_apply, broadcastInDim_scalar_apply, constant_apply]
  by_cases hj : j.val < 32
  · rw [Cert.LibConcatColumns.concat_cols_left _ _ _ p j ⟨j.val, hj⟩ rfl,
      Cert.LibConcatColumns.concat_cols_left _ _ _ p j ⟨j.val, hj⟩ rfl]
    exact half_v114 x0 x1 x2 x3 x4 x5 x6 x7 x8 x9 x10 x11 p ⟨j.val, hj⟩
  · have hj' : j.val - 32 < 32 := by have := j.isLt; omega
    have hk : (⟨j.val - 32, hj'⟩ : Fin 32).val + 32 = j.val := by show j.val - 32 + 32 = j.val; omega
    rw [Cert.LibConcatColumns.concat_cols_right _ _ _ p j ⟨j.val - 32, hj'⟩ hk,
      Cert.LibConcatColumns.concat_cols_right _ _ _ p j ⟨j.val - 32, hj'⟩ hk]
    exact half_v167 x0 x1 x2 x3 x4 x5 x6 x7 x8 x12 x13 x14 p ⟨j.val - 32, hj'⟩

end Cert.Bridge

end
-- ==== Proof.lean ====
/-
  The certificate of a two-layer signed graph convolution: a kernel program whose two dense stages (a linear map of the
  mean message plus a linear map of the node's own features plus a bias, clamped at zero) are row-blocked calls, against a
  plain reference.

  Over the extended reals the two programs compute one function of the fifteen arguments.  They gather the sources'
  rows and add them at the destinations in the same way, so the summed messages and the arrival counts are carried as
  they stand.  They differ in three places, none of which needs finite inputs: the kernel multiplies the summed
  messages by `1 / max(count, 1)` where the reference divides by `max(count, 1)` (a divisor that is never zero); the
  kernel computes each dense stage block of 5000 rows by block of 5000 rows (each row of the result reads only that
  row of the inputs, and the blocks cover all rows); and in layer two the kernel contracts the two mean messages
  against the top and the bottom 32 rows of a 64-row weight matrix where the reference contracts their 64 joined
  columns against the whole matrix (a sum over 64 positions split into two sums over 32).  The idealization rewrote
  nothing, so `preserves` is trivial; the word-level and the idealized kernel's frames are the generated ones, and the
  reference's frame is its run with the result dropped.
-/
import proofs.«119586_j75204877353504_1_alg».proof.Defs
import proofs.«119586_j75204877353504_1_alg».proof.Proof.Gen.Kernel
import proofs.«119586_j75204877353504_1_alg».proof.Proof.Gen.Kernel.Skeleton
import proofs.«119586_j75204877353504_1_alg».proof.Proof.Gen.Kernel.Launch
import proofs.«119586_j75204877353504_1_alg».proof.Proof.Gen.Kernel.Points
import proofs.«119586_j75204877353504_1_alg».proof.Proof.Gen.Kernel.Frame
import proofs.«119586_j75204877353504_1_alg».proof.Proof.Gen.KernelIdeal
import proofs.«119586_j75204877353504_1_alg».proof.Proof.Gen.KernelIdeal.Skeleton
import proofs.«119586_j75204877353504_1_alg».proof.Proof.Gen.KernelIdeal.Launch
import proofs.«119586_j75204877353504_1_alg».proof.Proof.Gen.KernelIdeal.Points
import proofs.«119586_j75204877353504_1_alg».proof.Proof.Gen.KernelIdeal.Frame
import proofs.«119586_j75204877353504_1_alg».proof.Proof.Gen.ReferenceIdeal
import proofs.«119586_j75204877353504_1_alg».proof.Proof.Gen.Pre_finite_inputs
import proofs.«119586_j75204877353504_1_alg».proof.Proof.KRun
import proofs.«119586_j75204877353504_1_alg».proof.Proof.KValue
import proofs.«119586_j75204877353504_1_alg».proof.Proof.RRun
import proofs.«119586_j75204877353504_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- Both programs, run from memories that agree on the arguments, end with the result at `kernelOut` of the
    arguments: the kernel by its run read through its segments, the reference by its run read stretch by stretch and the
    equality of the two functions. -/
theorem algebraic : Cert.algebraic_KernelIdeal_ReferenceIdeal := by
  intro m ρ m' ρ' _ hagree
  refine ⟨fun c => Cert.KernelIdeal.Terms.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Result.result m ρ c), (h c).2⟩)
      (Cert.KernelIdeal.WholeRun.run (F := Ideal) m ρ)
  · refine (θ_run Cert.ReferenceIdeal.defs _ _).mono (fun r h c => ⟨(h c).1.trans ?_, (h c).2⟩)
      (Cert.RefRun.run m' ρ')
    obtain ⟨h0, h1, h2, h3, h4, h5, h6, h7, h8, h9, h10, h11, h12, h13, h14⟩ := hagree c
    rw [Cert.Bridge.ref_eq_kernel, h0, h1, h2, h3, h4, h5, h6, h7, h8, h9, h10,
      h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
